-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x80x40x40 : Shape := ⟨4, ![64, 80, 40, 40]⟩
abbrev S64x80x36x36 : Shape := ⟨4, ![64, 80, 36, 36]⟩
abbrev S64x80x24x24 : Shape := ⟨4, ![64, 80, 24, 24]⟩
abbrev S64x80x16x16 : Shape := ⟨4, ![64, 80, 16, 16]⟩
abbrev S64x80x12x12 : Shape := ⟨4, ![64, 80, 12, 12]⟩
abbrev S_ : Shape := ⟨0, ![]⟩

class Facts : Prop where
  bcast_S_S64x80x40x40 : S_.BroadcastsInDim S64x80x40x40 (![] : Fin 0 → Fin S64x80x40x40.rank)
  reducesTo_S64x80x40x40_S_d0_1_2_3 : S64x80x40x40.ReducesTo [0, 1, 2, 3] S_
  h_S_ : 0 < S_.numel
  bcast_S_S64x80x36x36 : S_.BroadcastsInDim S64x80x36x36 (![] : Fin 0 → Fin S64x80x36x36.rank)
  reducesTo_S64x80x36x36_S_d0_1_2_3 : S64x80x36x36.ReducesTo [0, 1, 2, 3] S_
  bcast_S_S64x80x24x24 : S_.BroadcastsInDim S64x80x24x24 (![] : Fin 0 → Fin S64x80x24x24.rank)
  reducesTo_S64x80x24x24_S_d0_1_2_3 : S64x80x24x24.ReducesTo [0, 1, 2, 3] S_
  bcast_S_S64x80x16x16 : S_.BroadcastsInDim S64x80x16x16 (![] : Fin 0 → Fin S64x80x16x16.rank)
  reducesTo_S64x80x16x16_S_d0_1_2_3 : S64x80x16x16.ReducesTo [0, 1, 2, 3] S_
  bcast_S_S64x80x12x12 : S_.BroadcastsInDim S64x80x12x12 (![] : Fin 0 → Fin S64x80x12x12.rank)
  reducesTo_S64x80x12x12_S_d0_1_2_3 : S64x80x12x12.ReducesTo [0, 1, 2, 3] S_

variable [Facts]

def fn_part1 {F : FTy → Type} [FloatOps F] (main_arg4 : FVec F S64x80x12x12 .f32) (main_v13 : IVec S_ 1) (main_v16 : IVec S64x80x16x16 1) : IVec S_ 1 :=
  let main_c_5 : IVec S_ 1 := constantI S_ 1 1#1
  let main_v17 : IVec S_ 1 := (fun x v => Host.reduce IntOp.andi x v reducesTo_S64x80x16x16_S_d0_1_2_3 h_S_) main_v16 main_c_5
  let main_v18 : IVec S_ 1 := andi main_v13 main_v17
  let main_v19 : FVec F S64x80x12x12 .f32 := Host.absf main_arg4
  let main_cst_6 : FVec F S_ .f32 := constant S_ .f32 0x7F800000#32
  let main_v20 : FVec F S64x80x12x12 .f32 := broadcastInDim S64x80x12x12 ![] bcast_S_S64x80x12x12 main_cst_6
  let main_v21 : IVec S64x80x12x12 1 := cmpf .olt main_v19 main_v20
  let main_c_7 : IVec S_ 1 := constantI S_ 1 1#1
  let main_v22 : IVec S_ 1 := (fun x v => Host.reduce IntOp.andi x v reducesTo_S64x80x12x12_S_d0_1_2_3 h_S_) main_v21 main_c_7
  let main_v23 : IVec S_ 1 := andi main_v18 main_v22
  main_v23

def fn {F : FTy → Type} [FloatOps F] (main_arg0 : FVec F S64x80x40x40 .f32) (main_arg1 : FVec F S64x80x36x36 .f32) (main_arg2 : FVec F S64x80x24x24 .f32) (main_arg3 : FVec F S64x80x16x16 .f32) (main_arg4 : FVec F S64x80x12x12 .f32) : IVec S_ 1 :=
  let main_v0 : FVec F S64x80x40x40 .f32 := Host.absf main_arg0
  let main_cst : FVec F S_ .f32 := constant S_ .f32 0x7F800000#32
  let main_v1 : FVec F S64x80x40x40 .f32 := broadcastInDim S64x80x40x40 ![] bcast_S_S64x80x40x40 main_cst
  let main_v2 : IVec S64x80x40x40 1 := cmpf .olt main_v0 main_v1
  let main_c : IVec S_ 1 := constantI S_ 1 1#1
  let main_v3 : IVec S_ 1 := (fun x v => Host.reduce IntOp.andi x v reducesTo_S64x80x40x40_S_d0_1_2_3 h_S_) main_v2 main_c
  let main_v4 : FVec F S64x80x36x36 .f32 := Host.absf main_arg1
  let main_cst_0 : FVec F S_ .f32 := constant S_ .f32 0x7F800000#32
  let main_v5 : FVec F S64x80x36x36 .f32 := broadcastInDim S64x80x36x36 ![] bcast_S_S64x80x36x36 main_cst_0
  let main_v6 : IVec S64x80x36x36 1 := cmpf .olt main_v4 main_v5
  let main_c_1 : IVec S_ 1 := constantI S_ 1 1#1
  let main_v7 : IVec S_ 1 := (fun x v => Host.reduce IntOp.andi x v reducesTo_S64x80x36x36_S_d0_1_2_3 h_S_) main_v6 main_c_1
  let main_v8 : IVec S_ 1 := andi main_v3 main_v7
  let main_v9 : FVec F S64x80x24x24 .f32 := Host.absf main_arg2
  let main_cst_2 : FVec F S_ .f32 := constant S_ .f32 0x7F800000#32
  let main_v10 : FVec F S64x80x24x24 .f32 := broadcastInDim S64x80x24x24 ![] bcast_S_S64x80x24x24 main_cst_2
  let main_v11 : IVec S64x80x24x24 1 := cmpf .olt main_v9 main_v10
  let main_c_3 : IVec S_ 1 := constantI S_ 1 1#1
  let main_v12 : IVec S_ 1 := (fun x v => Host.reduce IntOp.andi x v reducesTo_S64x80x24x24_S_d0_1_2_3 h_S_) main_v11 main_c_3
  let main_v13 : IVec S_ 1 := andi main_v8 main_v12
  let main_v14 : FVec F S64x80x16x16 .f32 := Host.absf main_arg3
  let main_cst_4 : FVec F S_ .f32 := constant S_ .f32 0x7F800000#32
  let main_v15 : FVec F S64x80x16x16 .f32 := broadcastInDim S64x80x16x16 ![] bcast_S_S64x80x16x16 main_cst_4
  let main_v16 : IVec S64x80x16x16 1 := cmpf .olt main_v14 main_v15
  fn_part1 (F := F) main_arg4 main_v13 main_v16
-- ==== Kernel.lean ====
abbrev S64x80x40x40 : Shape := ⟨4, ![64, 80, 40, 40]⟩
abbrev S64x80x36x36 : Shape := ⟨4, ![64, 80, 36, 36]⟩
abbrev S64x80x24x24 : Shape := ⟨4, ![64, 80, 24, 24]⟩
abbrev S64x80x16x16 : Shape := ⟨4, ![64, 80, 16, 16]⟩
abbrev S64x80x12x12 : Shape := ⟨4, ![64, 80, 12, 12]⟩
abbrev S64x1600x80 : Shape := ⟨3, ![64, 1600, 80]⟩
abbrev S8x80x40x40 : Shape := ⟨4, ![8, 80, 40, 40]⟩
abbrev S8x1600x80 : Shape := ⟨3, ![8, 1600, 80]⟩
abbrev S8x80x1x40 : Shape := ⟨4, ![8, 80, 1, 40]⟩
abbrev S8x80x41x40 : Shape := ⟨4, ![8, 80, 41, 40]⟩
abbrev S8x80x41x1 : Shape := ⟨4, ![8, 80, 41, 1]⟩
abbrev S8x80x41x41 : Shape := ⟨4, ![8, 80, 41, 41]⟩
abbrev S8x40x40x80 : Shape := ⟨4, ![8, 40, 40, 80]⟩
abbrev S64x1296x80 : Shape := ⟨3, ![64, 1296, 80]⟩
abbrev S8x80x36x36 : Shape := ⟨4, ![8, 80, 36, 36]⟩
abbrev S8x1296x80 : Shape := ⟨3, ![8, 1296, 80]⟩
abbrev S8x80x1x36 : Shape := ⟨4, ![8, 80, 1, 36]⟩
abbrev S8x80x37x36 : Shape := ⟨4, ![8, 80, 37, 36]⟩
abbrev S8x80x37x1 : Shape := ⟨4, ![8, 80, 37, 1]⟩
abbrev S8x80x37x37 : Shape := ⟨4, ![8, 80, 37, 37]⟩
abbrev S8x36x36x80 : Shape := ⟨4, ![8, 36, 36, 80]⟩
abbrev S64x576x80 : Shape := ⟨3, ![64, 576, 80]⟩
abbrev S32x80x24x24 : Shape := ⟨4, ![32, 80, 24, 24]⟩
abbrev S32x576x80 : Shape := ⟨3, ![32, 576, 80]⟩
abbrev S32x80x1x24 : Shape := ⟨4, ![32, 80, 1, 24]⟩
abbrev S32x80x25x24 : Shape := ⟨4, ![32, 80, 25, 24]⟩
abbrev S32x80x25x1 : Shape := ⟨4, ![32, 80, 25, 1]⟩
abbrev S32x80x25x25 : Shape := ⟨4, ![32, 80, 25, 25]⟩
abbrev S32x24x24x80 : Shape := ⟨4, ![32, 24, 24, 80]⟩
abbrev S64x256x80 : Shape := ⟨3, ![64, 256, 80]⟩
abbrev S64x80x1x16 : Shape := ⟨4, ![64, 80, 1, 16]⟩
abbrev S64x80x17x16 : Shape := ⟨4, ![64, 80, 17, 16]⟩
abbrev S64x80x17x1 : Shape := ⟨4, ![64, 80, 17, 1]⟩
abbrev S64x80x17x17 : Shape := ⟨4, ![64, 80, 17, 17]⟩
abbrev S64x16x16x80 : Shape := ⟨4, ![64, 16, 16, 80]⟩
abbrev S64x144x80 : Shape := ⟨3, ![64, 144, 80]⟩
abbrev S64x80x1x12 : Shape := ⟨4, ![64, 80, 1, 12]⟩
abbrev S64x80x13x12 : Shape := ⟨4, ![64, 80, 13, 12]⟩
abbrev S64x80x13x1 : Shape := ⟨4, ![64, 80, 13, 1]⟩
abbrev S64x80x13x13 : Shape := ⟨4, ![64, 80, 13, 13]⟩
abbrev S64x12x12x80 : Shape := ⟨4, ![64, 12, 12, 80]⟩
abbrev S64x3872x80 : Shape := ⟨3, ![64, 3872, 80]⟩

abbrev nBuf : Space → Nat
  | .hbm => 11
  | .vmem => 16
  | .smem => 0
  | _ => 0

abbrev bufTy : (tb : Table) → Fin (tcTables nBuf tb) → BufTy
  | .hbm, ⟨0, _⟩ => ⟨S64x80x40x40, .f32⟩
  | .hbm, ⟨1, _⟩ => ⟨S64x80x36x36, .f32⟩
  | .hbm, ⟨2, _⟩ => ⟨S64x80x24x24, .f32⟩
  | .hbm, ⟨3, _⟩ => ⟨S64x80x16x16, .f32⟩
  | .hbm, ⟨4, _⟩ => ⟨S64x80x12x12, .f32⟩
  | .hbm, ⟨5, _⟩ => ⟨S64x1600x80, .f32⟩
  | .hbm, ⟨6, _⟩ => ⟨S64x1296x80, .f32⟩
  | .hbm, ⟨7, _⟩ => ⟨S64x576x80, .f32⟩
  | .hbm, ⟨8, _⟩ => ⟨S64x256x80, .f32⟩
  | .hbm, ⟨9, _⟩ => ⟨S64x144x80, .f32⟩
  | .hbm, ⟨10, _⟩ => ⟨S64x3872x80, .f32⟩
  | .local _ .vmem, ⟨0, _⟩ => ⟨S8x80x40x40, .f32⟩
  | .local _ .vmem, ⟨1, _⟩ => ⟨S8x80x40x40, .f32⟩
  | .local _ .vmem, ⟨2, _⟩ => ⟨S8x1600x80, .f32⟩
  | .local _ .vmem, ⟨3, _⟩ => ⟨S8x1600x80, .f32⟩
  | .local _ .vmem, ⟨4, _⟩ => ⟨S8x80x36x36, .f32⟩
  | .local _ .vmem, ⟨5, _⟩ => ⟨S8x80x36x36, .f32⟩
  | .local _ .vmem, ⟨6, _⟩ => ⟨S8x1296x80, .f32⟩
  | .local _ .vmem, ⟨7, _⟩ => ⟨S8x1296x80, .f32⟩
  | .local _ .vmem, ⟨8, _⟩ => ⟨S32x80x24x24, .f32⟩
  | .local _ .vmem, ⟨9, _⟩ => ⟨S32x80x24x24, .f32⟩
  | .local _ .vmem, ⟨10, _⟩ => ⟨S32x576x80, .f32⟩
  | .local _ .vmem, ⟨11, _⟩ => ⟨S32x576x80, .f32⟩
  | .local _ .vmem, ⟨12, _⟩ => ⟨S64x80x16x16, .f32⟩
  | .local _ .vmem, ⟨13, _⟩ => ⟨S64x256x80, .f32⟩
  | .local _ .vmem, ⟨14, _⟩ => ⟨S64x80x12x12, .f32⟩
  | .local _ .vmem, ⟨15, _⟩ => ⟨S64x144x80, .f32⟩
  | _, _ => ⟨S64x80x40x40, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg1_1 : Ref sig .tc := ⟨.vmem, 11, rfl⟩
abbrev cc3_stg0_0 : Ref sig .tc := ⟨.vmem, 12, rfl⟩
abbrev cc3_stg1_0 : Ref sig .tc := ⟨.vmem, 13, rfl⟩
abbrev cc4_stg0_0 : Ref sig .tc := ⟨.vmem, 14, rfl⟩
abbrev cc4_stg1_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc2_sem0_0 : DmaSem sig := 8
abbrev cc2_sem0_1 : DmaSem sig := 9
abbrev cc2_sem1_0 : DmaSem sig := 10
abbrev cc2_sem1_1 : DmaSem sig := 11
abbrev cc3_sem0_0 : DmaSem sig := 12
abbrev cc3_sem1_0 : DmaSem sig := 13
abbrev cc4_sem0_0 : DmaSem sig := 14
abbrev cc4_sem1_0 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x80x40x40 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1600x80 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![8], ![false]⟩

def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S8x80x36x36 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8x1296x80 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := ⟨1, ![2], ![false]⟩

def cc2_transform_0 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S32x80x24x24 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S32x576x80 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev grid3 : Pipeline.Grid := ⟨1, ![1], ![false]⟩

def cc3_transform_0 (i : grid3.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage3_0 : Fin 1 → Memref sig .tc .vmem S64x80x16x16 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true]

abbrev stage3_1 : Fin 1 → Memref sig .tc .vmem S64x256x80 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![true]

abbrev grid4 : Pipeline.Grid := ⟨1, ![1], ![false]⟩

def cc4_transform_0 (i : grid4.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc4_transform_1 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage4_0 : Fin 1 → Memref sig .tc .vmem S64x80x12x12 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![true]

abbrev stage4_1 : Fin 1 → Memref sig .tc .vmem S64x144x80 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![true]

class Facts₀ : Prop where
  inb_S8x80x40x40_S8x80x40x40_0_0_0_0 : ∀ a, (![0, 0, 0, 0] : Fin 4 → Nat) a + S8x80x40x40.size a ≤ S8x80x40x40.size a
  h_S8x80x40x40 : 0 < S8x80x40x40.numel
  concatenates_S8x80x1x40_S8x80x40x40_S8x80x41x40_d2 : Shape.Concatenates [S8x80x1x40, S8x80x40x40] S8x80x41x40 2
  concatenates_S8x80x41x1_S8x80x41x40_S8x80x41x41_d3 : Shape.Concatenates [S8x80x41x1, S8x80x41x40] S8x80x41x41 3
  slices_S8x80x41x41_o0_0_0_0_S8x80x40x40 : S8x80x41x41.Slices ![0, 0, 0, 0] S8x80x40x40
  slices_S8x80x41x41_o0_0_0_1_S8x80x40x40 : S8x80x41x41.Slices ![0, 0, 0, 1] S8x80x40x40
  slices_S8x80x41x41_o0_0_1_0_S8x80x40x40 : S8x80x41x41.Slices ![0, 0, 1, 0] S8x80x40x40
  slices_S8x80x41x41_o0_0_1_1_S8x80x40x40 : S8x80x41x41.Slices ![0, 0, 1, 1] S8x80x40x40
  transposes_S8x80x40x40_p0_2_3_1_S8x40x40x80 : S8x80x40x40.Transposes [0, 2, 3, 1] S8x40x40x80
  shapeCasts_S8x40x40x80_S8x1600x80 : S8x40x40x80.ShapeCasts S8x1600x80
  inb_S8x1600x80_S8x1600x80_0_0_0 : ∀ a, (![0, 0, 0] : Fin 3 → Nat) a + S8x1600x80.size a ≤ S8x1600x80.size a
  h_S8x1600x80 : 0 < S8x1600x80.numel
  inb_S8x80x36x36_S8x80x36x36_0_0_0_0 : ∀ a, (![0, 0, 0, 0] : Fin 4 → Nat) a + S8x80x36x36.size a ≤ S8x80x36x36.size a
  h_S8x80x36x36 : 0 < S8x80x36x36.numel
  concatenates_S8x80x1x36_S8x80x36x36_S8x80x37x36_d2 : Shape.Concatenates [S8x80x1x36, S8x80x36x36] S8x80x37x36 2
  concatenates_S8x80x37x1_S8x80x37x36_S8x80x37x37_d3 : Shape.Concatenates [S8x80x37x1, S8x80x37x36] S8x80x37x37 3
  slices_S8x80x37x37_o0_0_0_0_S8x80x36x36 : S8x80x37x37.Slices ![0, 0, 0, 0] S8x80x36x36
  slices_S8x80x37x37_o0_0_0_1_S8x80x36x36 : S8x80x37x37.Slices ![0, 0, 0, 1] S8x80x36x36
  slices_S8x80x37x37_o0_0_1_0_S8x80x36x36 : S8x80x37x37.Slices ![0, 0, 1, 0] S8x80x36x36
  slices_S8x80x37x37_o0_0_1_1_S8x80x36x36 : S8x80x37x37.Slices ![0, 0, 1, 1] S8x80x36x36
  transposes_S8x80x36x36_p0_2_3_1_S8x36x36x80 : S8x80x36x36.Transposes [0, 2, 3, 1] S8x36x36x80
  shapeCasts_S8x36x36x80_S8x1296x80 : S8x36x36x80.ShapeCasts S8x1296x80
  inb_S8x1296x80_S8x1296x80_0_0_0 : ∀ a, (![0, 0, 0] : Fin 3 → Nat) a + S8x1296x80.size a ≤ S8x1296x80.size a
  h_S8x1296x80 : 0 < S8x1296x80.numel
  inb_S32x80x24x24_S32x80x24x24_0_0_0_0 : ∀ a, (![0, 0, 0, 0] : Fin 4 → Nat) a + S32x80x24x24.size a ≤ S32x80x24x24.size a
  h_S32x80x24x24 : 0 < S32x80x24x24.numel
  concatenates_S32x80x1x24_S32x80x24x24_S32x80x25x24_d2 : Shape.Concatenates [S32x80x1x24, S32x80x24x24] S32x80x25x24 2
  concatenates_S32x80x25x1_S32x80x25x24_S32x80x25x25_d3 : Shape.Concatenates [S32x80x25x1, S32x80x25x24] S32x80x25x25 3
  slices_S32x80x25x25_o0_0_0_0_S32x80x24x24 : S32x80x25x25.Slices ![0, 0, 0, 0] S32x80x24x24
  slices_S32x80x25x25_o0_0_0_1_S32x80x24x24 : S32x80x25x25.Slices ![0, 0, 0, 1] S32x80x24x24
  slices_S32x80x25x25_o0_0_1_0_S32x80x24x24 : S32x80x25x25.Slices ![0, 0, 1, 0] S32x80x24x24
  slices_S32x80x25x25_o0_0_1_1_S32x80x24x24 : S32x80x25x25.Slices ![0, 0, 1, 1] S32x80x24x24
  transposes_S32x80x24x24_p0_2_3_1_S32x24x24x80 : S32x80x24x24.Transposes [0, 2, 3, 1] S32x24x24x80
  shapeCasts_S32x24x24x80_S32x576x80 : S32x24x24x80.ShapeCasts S32x576x80
  inb_S32x576x80_S32x576x80_0_0_0 : ∀ a, (![0, 0, 0] : Fin 3 → Nat) a + S32x576x80.size a ≤ S32x576x80.size a
  h_S32x576x80 : 0 < S32x576x80.numel
  inb_S64x80x16x16_S64x80x16x16_0_0_0_0 : ∀ a, (![0, 0, 0, 0] : Fin 4 → Nat) a + S64x80x16x16.size a ≤ S64x80x16x16.size a
  h_S64x80x16x16 : 0 < S64x80x16x16.numel
  concatenates_S64x80x1x16_S64x80x16x16_S64x80x17x16_d2 : Shape.Concatenates [S64x80x1x16, S64x80x16x16] S64x80x17x16 2
  concatenates_S64x80x17x1_S64x80x17x16_S64x80x17x17_d3 : Shape.Concatenates [S64x80x17x1, S64x80x17x16] S64x80x17x17 3
  slices_S64x80x17x17_o0_0_0_0_S64x80x16x16 : S64x80x17x17.Slices ![0, 0, 0, 0] S64x80x16x16
  slices_S64x80x17x17_o0_0_0_1_S64x80x16x16 : S64x80x17x17.Slices ![0, 0, 0, 1] S64x80x16x16
  slices_S64x80x17x17_o0_0_1_0_S64x80x16x16 : S64x80x17x17.Slices ![0, 0, 1, 0] S64x80x16x16
  slices_S64x80x17x17_o0_0_1_1_S64x80x16x16 : S64x80x17x17.Slices ![0, 0, 1, 1] S64x80x16x16
  transposes_S64x80x16x16_p0_2_3_1_S64x16x16x80 : S64x80x16x16.Transposes [0, 2, 3, 1] S64x16x16x80
  shapeCasts_S64x16x16x80_S64x256x80 : S64x16x16x80.ShapeCasts S64x256x80
  inb_S64x256x80_S64x256x80_0_0_0 : ∀ a, (![0, 0, 0] : Fin 3 → Nat) a + S64x256x80.size a ≤ S64x256x80.size a
  h_S64x256x80 : 0 < S64x256x80.numel
  inb_S64x80x12x12_S64x80x12x12_0_0_0_0 : ∀ a, (![0, 0, 0, 0] : Fin 4 → Nat) a + S64x80x12x12.size a ≤ S64x80x12x12.size a
  h_S64x80x12x12 : 0 < S64x80x12x12.numel
  concatenates_S64x80x1x12_S64x80x12x12_S64x80x13x12_d2 : Shape.Concatenates [S64x80x1x12, S64x80x12x12] S64x80x13x12 2
  concatenates_S64x80x13x1_S64x80x13x12_S64x80x13x13_d3 : Shape.Concatenates [S64x80x13x1, S64x80x13x12] S64x80x13x13 3
  slices_S64x80x13x13_o0_0_0_0_S64x80x12x12 : S64x80x13x13.Slices ![0, 0, 0, 0] S64x80x12x12
  slices_S64x80x13x13_o0_0_0_1_S64x80x12x12 : S64x80x13x13.Slices ![0, 0, 0, 1] S64x80x12x12
  slices_S64x80x13x13_o0_0_1_0_S64x80x12x12 : S64x80x13x13.Slices ![0, 0, 1, 0] S64x80x12x12
  slices_S64x80x13x13_o0_0_1_1_S64x80x12x12 : S64x80x13x13.Slices ![0, 0, 1, 1] S64x80x12x12
  transposes_S64x80x12x12_p0_2_3_1_S64x12x12x80 : S64x80x12x12.Transposes [0, 2, 3, 1] S64x12x12x80
  shapeCasts_S64x12x12x80_S64x144x80 : S64x12x12x80.ShapeCasts S64x144x80
  inb_S64x144x80_S64x144x80_0_0_0 : ∀ a, (![0, 0, 0] : Fin 3 → Nat) a + S64x144x80.size a ≤ S64x144x80.size a
  h_S64x144x80 : 0 < S64x144x80.numel
  concatenates_S64x1600x80_S64x1296x80_S64x576x80_S64x256x80_S64x144x80_S64x3872x80_d1 : Shape.Concatenates [S64x1600x80, S64x1296x80, S64x576x80, S64x256x80, S64x144x80] S64x3872x80 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x80x40x40.size a ≤ S64x80x40x40.size a
  hwx0_0 : ∀ i : grid0.Coords, EltTy.bits .f32 = 32 ∨ (Rect.block (s := S64x80x40x40) S8x80x40x40.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x1600x80.size a ≤ S64x1600x80.size a
  hwx0_1 : ∀ i : grid0.Coords, EltTy.bits .f32 = 32 ∨ (Rect.block (s := S64x1600x80) S8x1600x80.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x80x36x36.size a ≤ S64x80x36x36.size a
  hwx1_0 : ∀ i : grid1.Coords, EltTy.bits .f32 = 32 ∨ (Rect.block (s := S64x80x36x36) S8x80x36x36.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8x1296x80.size a ≤ S64x1296x80.size a
  hwx1_1 : ∀ i : grid1.Coords, EltTy.bits .f32 = 32 ∨ (Rect.block (s := S64x1296x80) S8x1296x80.size (cc1_transform_1 i) (hinb1_1 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S32x80x24x24.size a ≤ S64x80x24x24.size a
  hwx2_0 : ∀ i : grid2.Coords, EltTy.bits .f32 = 32 ∨ (Rect.block (s := S64x80x24x24) S32x80x24x24.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S32x576x80.size a ≤ S64x576x80.size a
  hwx2_1 : ∀ i : grid2.Coords, EltTy.bits .f32 = 32 ∨ (Rect.block (s := S64x576x80) S32x576x80.size (cc2_transform_1 i) (hinb2_1 i)).WholeWords (EltTy.packing .f32)
  hrank3 : 0 < grid3.rank
  hstage3_0 : ∀ j, (stage3_0 j).IsWhole
  nbuf3_0 : grid3.bufCount reads3_0 false = 1
  hreads3_0 : ∀ i i' : grid3.Coords, (∀ a, reads3_0 a = true → i a = i' a) → cc3_transform_0 i = cc3_transform_0 i'
  hinb3_0 : ∀ (i : grid3.Coords) a, (cc3_transform_0 i a + 1) * S64x80x16x16.size a ≤ S64x80x16x16.size a
  hwx3_0 : ∀ i : grid3.Coords, EltTy.bits .f32 = 32 ∨ (Rect.block (s := S64x80x16x16) S64x80x16x16.size (cc3_transform_0 i) (hinb3_0 i)).WholeWords (EltTy.packing .f32)
  hstage3_1 : ∀ j, (stage3_1 j).IsWhole
  nbuf3_1 : grid3.bufCount reads3_1 false = 1
  hreads3_1 : ∀ i i' : grid3.Coords, (∀ a, reads3_1 a = true → i a = i' a) → cc3_transform_1 i = cc3_transform_1 i'
  hinb3_1 : ∀ (i : grid3.Coords) a, (cc3_transform_1 i a + 1) * S64x256x80.size a ≤ S64x256x80.size a
  hwx3_1 : ∀ i : grid3.Coords, EltTy.bits .f32 = 32 ∨ (Rect.block (s := S64x256x80) S64x256x80.size (cc3_transform_1 i) (hinb3_1 i)).WholeWords (EltTy.packing .f32)
  hrank4 : 0 < grid4.rank
  hstage4_0 : ∀ j, (stage4_0 j).IsWhole
  nbuf4_0 : grid4.bufCount reads4_0 false = 1
  hreads4_0 : ∀ i i' : grid4.Coords, (∀ a, reads4_0 a = true → i a = i' a) → cc4_transform_0 i = cc4_transform_0 i'
  hinb4_0 : ∀ (i : grid4.Coords) a, (cc4_transform_0 i a + 1) * S64x80x12x12.size a ≤ S64x80x12x12.size a
  hwx4_0 : ∀ i : grid4.Coords, EltTy.bits .f32 = 32 ∨ (Rect.block (s := S64x80x12x12) S64x80x12x12.size (cc4_transform_0 i) (hinb4_0 i)).WholeWords (EltTy.packing .f32)
  hstage4_1 : ∀ j, (stage4_1 j).IsWhole
  nbuf4_1 : grid4.bufCount reads4_1 false = 1
  hreads4_1 : ∀ i i' : grid4.Coords, (∀ a, reads4_1 a = true → i a = i' a) → cc4_transform_1 i = cc4_transform_1 i'
  hinb4_1 : ∀ (i : grid4.Coords) a, (cc4_transform_1 i a + 1) * S64x144x80.size a ≤ S64x144x80.size a
  hwx4_1 : ∀ i : grid4.Coords, EltTy.bits .f32 = 32 ∨ (Rect.block (s := S64x144x80) S64x144x80.size (cc4_transform_1 i) (hinb4_1 i)).WholeWords (EltTy.packing .f32)

variable [Facts₀]

abbrev win0_0 : Pipeline.Window sig grid0 :=
  Pipeline.Window.ofSpec (Memref.whole main_arg0) S8x80x40x40.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8x1600x80.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg1) S8x80x36x36.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S8x1296x80.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev win2_0 : Pipeline.Window sig grid2 :=
  Pipeline.Window.ofSpec (Memref.whole main_arg2) S32x80x24x24.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2) S32x576x80.size cc2_transform_1 reads2_1 true false 2 stage2_1 sem2_1
    hrank2 hreads2_1 hinb2_1 nbuf2_1 (Memref.isWhole_whole _) hwx2_1 hstage2_1

abbrev win2 : Fin 2 → Pipeline.Window sig grid2 := fun | 0 => win2_0 | 1 => win2_1 | ⟨_ + 2, h⟩ => absurd h (Nat.not_lt.2 (Nat.le_add_left _ _))
abbrev spec2 : Fin 2 → Pipeline.WinSpec sig grid2.rank := fun w => (win2 w).toWinSpec

abbrev win3_0 : Pipeline.Window sig grid3 :=
  Pipeline.Window.ofSpec (Memref.whole main_arg3) S64x80x16x16.size cc3_transform_0 reads3_0 false false 1 stage3_0 sem3_0
    hrank3 hreads3_0 hinb3_0 nbuf3_0 (Memref.isWhole_whole _) hwx3_0 hstage3_0

abbrev win3_1 : Pipeline.Window sig grid3 :=
  Pipeline.Window.ofSpec (Memref.whole main_v3) S64x256x80.size cc3_transform_1 reads3_1 true false 1 stage3_1 sem3_1
    hrank3 hreads3_1 hinb3_1 nbuf3_1 (Memref.isWhole_whole _) hwx3_1 hstage3_1

abbrev win3 : Fin 2 → Pipeline.Window sig grid3 := fun | 0 => win3_0 | 1 => win3_1 | ⟨_ + 2, h⟩ => absurd h (Nat.not_lt.2 (Nat.le_add_left _ _))
abbrev spec3 : Fin 2 → Pipeline.WinSpec sig grid3.rank := fun w => (win3 w).toWinSpec

abbrev win4_0 : Pipeline.Window sig grid4 :=
  Pipeline.Window.ofSpec (Memref.whole main_arg4) S64x80x12x12.size cc4_transform_0 reads4_0 false false 1 stage4_0 sem4_0
    hrank4 hreads4_0 hinb4_0 nbuf4_0 (Memref.isWhole_whole _) hwx4_0 hstage4_0

abbrev win4_1 : Pipeline.Window sig grid4 :=
  Pipeline.Window.ofSpec (Memref.whole main_v4) S64x144x80.size cc4_transform_1 reads4_1 true false 1 stage4_1 sem4_1
    hrank4 hreads4_1 hinb4_1 nbuf4_1 (Memref.isWhole_whole _) hwx4_1 hstage4_1

abbrev win4 : Fin 2 → Pipeline.Window sig grid4 := fun | 0 => win4_0 | 1 => win4_1 | ⟨_ + 2, h⟩ => absurd h (Nat.not_lt.2 (Nat.le_add_left _ _))
abbrev spec4 : Fin 2 → Pipeline.WinSpec sig grid4.rank := fun w => (win4 w).toWinSpec

class Facts : Prop extends Facts₀ where

variable [Facts]
-- ==== ReferenceIdeal.lean ====
abbrev S64x80x40x40 : Shape := ⟨4, ![64, 80, 40, 40]⟩
abbrev S64x80x36x36 : Shape := ⟨4, ![64, 80, 36, 36]⟩
abbrev S64x80x24x24 : Shape := ⟨4, ![64, 80, 24, 24]⟩
abbrev S64x80x16x16 : Shape := ⟨4, ![64, 80, 16, 16]⟩
abbrev S64x80x12x12 : Shape := ⟨4, ![64, 80, 12, 12]⟩
abbrev S_ : Shape := ⟨0, ![]⟩
abbrev S64x40x40x80 : Shape := ⟨4, ![64, 40, 40, 80]⟩
abbrev S64x1600x80 : Shape := ⟨3, ![64, 1600, 80]⟩
abbrev S64x36x36x80 : Shape := ⟨4, ![64, 36, 36, 80]⟩
abbrev S64x1296x80 : Shape := ⟨3, ![64, 1296, 80]⟩
abbrev S64x24x24x80 : Shape := ⟨4, ![64, 24, 24, 80]⟩
abbrev S64x576x80 : Shape := ⟨3, ![64, 576, 80]⟩
abbrev S64x16x16x80 : Shape := ⟨4, ![64, 16, 16, 80]⟩
abbrev S64x256x80 : Shape := ⟨3, ![64, 256, 80]⟩
abbrev S64x12x12x80 : Shape := ⟨4, ![64, 12, 12, 80]⟩
abbrev S64x144x80 : Shape := ⟨3, ![64, 144, 80]⟩
abbrev S64x3872x80 : Shape := ⟨3, ![64, 3872, 80]⟩

abbrev nBuf : Space → Nat
  | .hbm => 86
  | .vmem => 0
  | .smem => 0
  | _ => 0

abbrev bufTy : (tb : Table) → Fin (tcTables nBuf tb) → BufTy
  | .hbm, ⟨0, _⟩ => ⟨S64x80x40x40, .f32⟩
  | .hbm, ⟨1, _⟩ => ⟨S64x80x36x36, .f32⟩
  | .hbm, ⟨2, _⟩ => ⟨S64x80x24x24, .f32⟩
  | .hbm, ⟨3, _⟩ => ⟨S64x80x16x16, .f32⟩
  | .hbm, ⟨4, _⟩ => ⟨S64x80x12x12, .f32⟩
  | .hbm, ⟨5, _⟩ => ⟨S64x80x40x40, .f32⟩
  | .hbm, ⟨6, _⟩ => ⟨S64x80x40x40, .f32⟩
  | .hbm, ⟨7, _⟩ => ⟨S_, .f32⟩
  | .hbm, ⟨8, _⟩ => ⟨S64x80x40x40, .f32⟩
  | .hbm, ⟨9, _⟩ => ⟨S64x80x40x40, .f32⟩
  | .hbm, ⟨10, _⟩ => ⟨S_, .f32⟩
  | .hbm, ⟨11, _⟩ => ⟨S64x80x40x40, .f32⟩
  | .hbm, ⟨12, _⟩ => ⟨S64x80x40x40, .f32⟩
  | .hbm, ⟨13, _⟩ => ⟨S_, .f32⟩
  | .hbm, ⟨14, _⟩ => ⟨S_, .f32⟩
  | .hbm, ⟨15, _⟩ => ⟨S64x80x40x40, .f32⟩
  | .hbm, ⟨16, _⟩ => ⟨S64x80x40x40, .i1⟩
  | .hbm, ⟨17, _⟩ => ⟨S64x80x40x40, .f32⟩
  | .hbm, ⟨18, _⟩ => ⟨S64x80x40x40, .f32⟩
  | .hbm, ⟨19, _⟩ => ⟨S64x40x40x80, .f32⟩
  | .hbm, ⟨20, _⟩ => ⟨S64x1600x80, .f32⟩
  | .hbm, ⟨21, _⟩ => ⟨S64x80x36x36, .f32⟩
  | .hbm, ⟨22, _⟩ => ⟨S64x80x36x36, .f32⟩
  | .hbm, ⟨23, _⟩ => ⟨S_, .f32⟩
  | .hbm, ⟨24, _⟩ => ⟨S64x80x36x36, .f32⟩
  | .hbm, ⟨25, _⟩ => ⟨S64x80x36x36, .f32⟩
  | .hbm, ⟨26, _⟩ => ⟨S_, .f32⟩
  | .hbm, ⟨27, _⟩ => ⟨S64x80x36x36, .f32⟩
  | .hbm, ⟨28, _⟩ => ⟨S64x80x36x36, .f32⟩
  | .hbm, ⟨29, _⟩ => ⟨S_, .f32⟩
  | .hbm, ⟨30, _⟩ => ⟨S_, .f32⟩
  | .hbm, ⟨31, _⟩ => ⟨S64x80x36x36, .f32⟩
  | .hbm, ⟨32, _⟩ => ⟨S64x80x36x36, .i1⟩
  | .hbm, ⟨33, _⟩ => ⟨S64x80x36x36, .f32⟩
  | .hbm, ⟨34, _⟩ => ⟨S64x80x36x36, .f32⟩
  | .hbm, ⟨35, _⟩ => ⟨S64x36x36x80, .f32⟩
  | .hbm, ⟨36, _⟩ => ⟨S64x1296x80, .f32⟩
  | .hbm, ⟨37, _⟩ => ⟨S64x80x24x24, .f32⟩
  | .hbm, ⟨38, _⟩ => ⟨S64x80x24x24, .f32⟩
  | .hbm, ⟨39, _⟩ => ⟨S_, .f32⟩
  | .hbm, ⟨40, _⟩ => ⟨S64x80x24x24, .f32⟩
  | .hbm, ⟨41, _⟩ => ⟨S64x80x24x24, .f32⟩
  | .hbm, ⟨42, _⟩ => ⟨S_, .f32⟩
  | .hbm, ⟨43, _⟩ => ⟨S64x80x24x24, .f32⟩
  | .hbm, ⟨44, _⟩ => ⟨S64x80x24x24, .f32⟩
  | .hbm, ⟨45, _⟩ => ⟨S_, .f32⟩
  | .hbm, ⟨46, _⟩ => ⟨S_, .f32⟩
  | .hbm, ⟨47, _⟩ => ⟨S64x80x24x24, .f32⟩
  | .hbm, ⟨48, _⟩ => ⟨S64x80x24x24, .i1⟩
  | .hbm, ⟨49, _⟩ => ⟨S64x80x24x24, .f32⟩
  | .hbm, ⟨50, _⟩ => ⟨S64x80x24x24, .f32⟩
  | .hbm, ⟨51, _⟩ => ⟨S64x24x24x80, .f32⟩
  | .hbm, ⟨52, _⟩ => ⟨S64x576x80, .f32⟩
  | .hbm, ⟨53, _⟩ => ⟨S64x80x16x16, .f32⟩
  | .hbm, ⟨54, _⟩ => ⟨S64x80x16x16, .f32⟩
  | .hbm, ⟨55, _⟩ => ⟨S_, .f32⟩
  | .hbm, ⟨56, _⟩ => ⟨S64x80x16x16, .f32⟩
  | .hbm, ⟨57, _⟩ => ⟨S64x80x16x16, .f32⟩
  | .hbm, ⟨58, _⟩ => ⟨S_, .f32⟩
  | .hbm, ⟨59, _⟩ => ⟨S64x80x16x16, .f32⟩
  | .hbm, ⟨60, _⟩ => ⟨S64x80x16x16, .f32⟩
  | .hbm, ⟨61, _⟩ => ⟨S_, .f32⟩
  | .hbm, ⟨62, _⟩ => ⟨S_, .f32⟩
  | .hbm, ⟨63, _⟩ => ⟨S64x80x16x16, .f32⟩
  | .hbm, ⟨64, _⟩ => ⟨S64x80x16x16, .i1⟩
  | .hbm, ⟨65, _⟩ => ⟨S64x80x16x16, .f32⟩
  | .hbm, ⟨66, _⟩ => ⟨S64x80x16x16, .f32⟩
  | .hbm, ⟨67, _⟩ => ⟨S64x16x16x80, .f32⟩
  | .hbm, ⟨68, _⟩ => ⟨S64x256x80, .f32⟩
  | .hbm, ⟨69, _⟩ => ⟨S64x80x12x12, .f32⟩
  | .hbm, ⟨70, _⟩ => ⟨S64x80x12x12, .f32⟩
  | .hbm, ⟨71, _⟩ => ⟨S_, .f32⟩
  | .hbm, ⟨72, _⟩ => ⟨S64x80x12x12, .f32⟩
  | .hbm, ⟨73, _⟩ => ⟨S64x80x12x12, .f32⟩
  | .hbm, ⟨74, _⟩ => ⟨S_, .f32⟩
  | .hbm, ⟨75, _⟩ => ⟨S64x80x12x12, .f32⟩
  | .hbm, ⟨76, _⟩ => ⟨S64x80x12x12, .f32⟩
  | .hbm, ⟨77, _⟩ => ⟨S_, .f32⟩
  | .hbm, ⟨78, _⟩ => ⟨S_, .f32⟩
  | .hbm, ⟨79, _⟩ => ⟨S64x80x12x12, .f32⟩
  | .hbm, ⟨80, _⟩ => ⟨S64x80x12x12, .i1⟩
  | .hbm, ⟨81, _⟩ => ⟨S64x80x12x12, .f32⟩
  | .hbm, ⟨82, _⟩ => ⟨S64x80x12x12, .f32⟩
  | .hbm, ⟨83, _⟩ => ⟨S64x12x12x80, .f32⟩
  | .hbm, ⟨84, _⟩ => ⟨S64x144x80, .f32⟩
  | .hbm, ⟨85, _⟩ => ⟨S64x3872x80, .f32⟩
  | _, _ => ⟨S64x80x40x40, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_v31 : Ref sig .tc := ⟨.hbm, 44, rfl⟩
abbrev main_cst_7 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_8 : Ref sig .tc := ⟨.hbm, 55, rfl⟩
abbrev main_v41 : Ref sig .tc := ⟨.hbm, 56, rfl⟩
abbrev main_v42 : Ref sig .tc := ⟨.hbm, 57, rfl⟩
abbrev main_cst_9 : Ref sig .tc := ⟨.hbm, 58, rfl⟩
abbrev main_v43 : Ref sig .tc := ⟨.hbm, 59, rfl⟩
abbrev main_v44 : Ref sig .tc := ⟨.hbm, 60, rfl⟩
abbrev main_cst_10 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_11 : Ref sig .tc := ⟨.hbm, 71, rfl⟩
abbrev main_v54 : Ref sig .tc := ⟨.hbm, 72, rfl⟩
abbrev main_v55 : Ref sig .tc := ⟨.hbm, 73, rfl⟩
abbrev main_cst_12 : Ref sig .tc := ⟨.hbm, 74, rfl⟩
abbrev main_v56 : Ref sig .tc := ⟨.hbm, 75, rfl⟩
abbrev main_v57 : Ref sig .tc := ⟨.hbm, 76, rfl⟩
abbrev main_cst_13 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩

abbrev nD : Nat := 1
abbrev τ : Topo := Topo.v7x

variable {F : FTy → Type} [FloatOps F]

class Facts₀ : Prop where
  bcast_S_S64x80x40x40 : S_.BroadcastsInDim S64x80x40x40 (![] : Fin 0 → Fin S64x80x40x40.rank)
  bcast_S_S_ : S_.BroadcastsInDim S_ (![] : Fin 0 → Fin S_.rank)
  reduceWindows_S64x80x40x40_S64x80x40x40_w1s1p0_0_w1s1p0_0_w2s1p1_0_w2s1p1_0 : S64x80x40x40.ReduceWindows (![1, 1, 2, 2] : Fin 4 → Nat) ![1, 1, 1, 1] ![0, 0, 1, 1] ![0, 0, 0, 0] S64x80x40x40
  h_S_ : 0 < S_.numel
  transposes_S64x80x40x40_S64x40x40x80_0_2_3_1 : S64x80x40x40.Transposes [0, 2, 3, 1] S64x40x40x80
  shapeCasts_S64x40x40x80_S64x1600x80 : S64x40x40x80.ShapeCasts S64x1600x80
  bcast_S_S64x80x36x36 : S_.BroadcastsInDim S64x80x36x36 (![] : Fin 0 → Fin S64x80x36x36.rank)
  reduceWindows_S64x80x36x36_S64x80x36x36_w1s1p0_0_w1s1p0_0_w2s1p1_0_w2s1p1_0 : S64x80x36x36.ReduceWindows (![1, 1, 2, 2] : Fin 4 → Nat) ![1, 1, 1, 1] ![0, 0, 1, 1] ![0, 0, 0, 0] S64x80x36x36
  transposes_S64x80x36x36_S64x36x36x80_0_2_3_1 : S64x80x36x36.Transposes [0, 2, 3, 1] S64x36x36x80
  shapeCasts_S64x36x36x80_S64x1296x80 : S64x36x36x80.ShapeCasts S64x1296x80
  bcast_S_S64x80x24x24 : S_.BroadcastsInDim S64x80x24x24 (![] : Fin 0 → Fin S64x80x24x24.rank)
  reduceWindows_S64x80x24x24_S64x80x24x24_w1s1p0_0_w1s1p0_0_w2s1p1_0_w2s1p1_0 : S64x80x24x24.ReduceWindows (![1, 1, 2, 2] : Fin 4 → Nat) ![1, 1, 1, 1] ![0, 0, 1, 1] ![0, 0, 0, 0] S64x80x24x24
  transposes_S64x80x24x24_S64x24x24x80_0_2_3_1 : S64x80x24x24.Transposes [0, 2, 3, 1] S64x24x24x80
  shapeCasts_S64x24x24x80_S64x576x80 : S64x24x24x80.ShapeCasts S64x576x80
  bcast_S_S64x80x16x16 : S_.BroadcastsInDim S64x80x16x16 (![] : Fin 0 → Fin S64x80x16x16.rank)
  reduceWindows_S64x80x16x16_S64x80x16x16_w1s1p0_0_w1s1p0_0_w2s1p1_0_w2s1p1_0 : S64x80x16x16.ReduceWindows (![1, 1, 2, 2] : Fin 4 → Nat) ![1, 1, 1, 1] ![0, 0, 1, 1] ![0, 0, 0, 0] S64x80x16x16
  transposes_S64x80x16x16_S64x16x16x80_0_2_3_1 : S64x80x16x16.Transposes [0, 2, 3, 1] S64x16x16x80
  shapeCasts_S64x16x16x80_S64x256x80 : S64x16x16x80.ShapeCasts S64x256x80
  bcast_S_S64x80x12x12 : S_.BroadcastsInDim S64x80x12x12 (![] : Fin 0 → Fin S64x80x12x12.rank)
  reduceWindows_S64x80x12x12_S64x80x12x12_w1s1p0_0_w1s1p0_0_w2s1p1_0_w2s1p1_0 : S64x80x12x12.ReduceWindows (![1, 1, 2, 2] : Fin 4 → Nat) ![1, 1, 1, 1] ![0, 0, 1, 1] ![0, 0, 0, 0] S64x80x12x12
  transposes_S64x80x12x12_S64x12x12x80_0_2_3_1 : S64x80x12x12.Transposes [0, 2, 3, 1] S64x12x12x80
  shapeCasts_S64x12x12x80_S64x144x80 : S64x12x12x80.ShapeCasts S64x144x80
  concatenates_S64x1600x80_S64x1296x80_S64x576x80_S64x256x80_S64x144x80_S64x3872x80_d1 : Shape.Concatenates [S64x1600x80, S64x1296x80, S64x576x80, S64x256x80, S64x144x80] S64x3872x80 1

variable [Facts₀]

class Facts : Prop extends Facts₀ where

variable [Facts]
-- ==== Proof.KBody0.lean ====
/-
  Region 0 of the program: the kernel body of pallas_call 0 at one grid point, and the pipeline's proof data.

  The body loads its whole input block (a [8, 80, 40, 40] slab of the level's array), reads its output staging buffer
  once without using what it read, and stores one value over the whole output block: the body's arithmetic of the
  input block. So after the body the input buffer is as it was and the output buffer holds that value, whatever it
  held before. Everything here is stated at the contents V the region finds in the TensorCore's buffers.
-/
import proofs.«137573_j63891933495891_1_alg».proof.Proof.Gen.Kernel.Launch
import proofs.«137573_j63891933495891_1_alg».proof.Proof.Gen.Kernel.Skeleton
import proofs.«137573_j63891933495891_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window w's array that grid point t works on, read off the array as the region finds it. -/
def blockAt0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's staging buffer holds the point's block of the input array at every point, for any proof data
    over V's arrays whose body leaves the input block in place. -/
theorem inputHeld0 {c : Dev nD} (dat : Dat τ (Elt F) Unit ℕ (UR sig nD τ) ℕ cfg0 c) (hA : dat.A 0 = V c (Pipeline.arrRef spec0 0))
    (hafter : ∀ t, dat.after 0 t = blockAt0 V c 0 t) (t : Fin cfg0.N) (d) : dat.before 0 t d = blockAt0 V c 0 t :=
  (dat.before_in_eq_fetched 0 rfl (fun _ => rfl) (fun _ _ _ => rfl) (fun t => by rw [hafter]; unfold Dat.blockOf blockAt0; rw [hA]; try rfl) t d).trans
    (by unfold Dat.fetched Dat.blockOf blockAt0; rw [hA]; try rfl)

/-- The whole input block and the whole output block as rectangles. -/
abbrev inRect0 : Rect S8x80x40x40 := Rect.unit (s := S8x80x40x40) ![0, 0, 0, 0] S8x80x40x40.size inb_S8x80x40x40_S8x80x40x40_0_0_0_0
abbrev outRect0 : Rect S8x1600x80 := Rect.unit (s := S8x1600x80) ![0, 0, 0] S8x1600x80.size inb_S8x1600x80_S8x1600x80_0_0_0

/-- What the body leaves in the output buffer: its one store, over the whole block, of the body's arithmetic of the
    loaded input block. -/
def bodyOut0 (x0 : Vec F S8x80x40x40 .f32) : Vec F S8x1600x80 .f32 :=
  View.canon [⟨outRect0, k0_pay1 (View.ld x0 inRect0)⟩]

/-- The one store covers the output block. -/
theorem storeCovers0 (p0 : Vec F S8x1600x80 .f32) (y : S8x1600x80.Idx) :
    ∃ pc ∈ ([⟨outRect0, p0⟩] : List (View.Piece (Elt F) S8x1600x80 .f32)), y ∈ pc.1.set :=
  View.cover_of_tiled [⟨outRect0, p0⟩] S8x1600x80.size (by rfl) y

set_option maxHeartbeats 1000000 in
/-- The body on whole staging memrefs, the input's at contents x0 and the output's at anything: it runs to its
    continuation with the input's contents unchanged and the output's at bodyOut of x0. -/
theorem bodyRuns0 (c : Dev nD) (E : Set ℕ) (i : grid0.Coords) (arg1 : Memref sig .tc .vmem S8x80x40x40 .f32) (harg1 : arg1.IsWhole) (arg2 : Memref sig .tc .vmem S8x1600x80 .f32) (harg2 : arg2.IsWhole)
    (x0 : Vec F S8x80x40x40 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (bodyOut0 x0)) -∗ K ⟨⟩))
      ⊢ wp frame (wpE (defs₀ (F := F)) Variants.none c none) E (cc0__peak_kernel i arg1 harg1 arg2 harg2) K := by
  simp only [cc0__peak_kernel_eq_skeleton]; unfold cc0__peak_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (storeCovers0 _)

/-- The proof data of pipeline 0 on core c: the arrays as the region finds them; after the body at point t the input
    window's buffer still at its block and the output window's at bodyOut of that block; the invariant is the
    scoped rest and the generator register, untouched; nothing owed; full shares. -/
def regionDat0 (c : Dev nD) : Dat τ (Elt F) Unit ℕ (UR sig nD τ) ℕ cfg0 c where
  A w := V c (Pipeline.arrRef spec0 w)
  after w t := match w with
    | ⟨0, _⟩ => blockAt0 V c 0 t
    | ⟨1, _⟩ => bodyOut0 (blockAt0 V c 0 t)
  Φ _ := Pipeline.ΦA spec0 c
  q _ := fullShare
  owed _ := 0

theorem regionDat0_A (c : Dev nD) (w : Fin cfg0.W) : (regionDat0 V c).A w = V c (Pipeline.arrRef spec0 w) := by
  dsimp only [regionDat0]
theorem regionDat0_after_in (c : Dev nD) (t : Fin cfg0.N) : (regionDat0 V c).after 0 t = blockAt0 V c 0 t := by dsimp only [regionDat0]
theorem regionDat0_after_out (c : Dev nD) (t : Fin cfg0.N) : (regionDat0 V c).after 1 t = bodyOut0 (blockAt0 V c 0 t) := by dsimp only [regionDat0]
theorem regionDat0_before_in (c : Dev nD) (t : Fin cfg0.N) (d) : (regionDat0 V c).before 0 t d = blockAt0 V c 0 t :=
  inputHeld0 V (regionDat0 V c) (regionDat0_A V c 0) (regionDat0_after_in V c) t d

/-- What the body is called with at point t: the invariant, the core's dues, and the two current staging buffers. -/
def pointPre0 (c : Dev nD) (t : Fin cfg0.N) : sProp 𝕄 :=
  iprop((regionDat0 V c).Φ t.castSucc ∗ (regionDat0 V c).owesAt () t.castSucc
    ∗ (∃ d, owns (c : Thread nD τ) (st0_0 t) fullShare ((regionDat0 V c).before 0 t d))
    ∗ (∃ d, owns (c : Thread nD τ) (st0_1 t) fullShare ((regionDat0 V c).before 1 t d)))

/-- What it returns. -/
def pointPost0 (c : Dev nD) (t : Fin cfg0.N) : sProp 𝕄 :=
  iprop((regionDat0 V c).Φ t.succ ∗ (regionDat0 V c).owesAt () t.succ
    ∗ owns (c : Thread nD τ) (st0_0 t) fullShare ((regionDat0 V c).after 0 t)
    ∗ owns (c : Thread nD τ) (st0_1 t) fullShare ((regionDat0 V c).after 1 t))

/-- The body at any point: the input's buffer holds its block, so bodyRuns applies; the invariant and the dues pass
    through unread. -/
theorem pointRuns0 (c : Dev nD) (t : Fin cfg0.N) :
    pointPre0 V c t ⊢ wp frame (wpE (defs₀ (F := F)) Variants.none c none) Set.univ (bodyAt0 t) (fun _ => pointPost0 V c t) := by
  unfold pointPre0 pointPost0 bodyAt0
  simp only [regionDat0_before_in]
  rw [show (regionDat0 V c).Φ t.succ = (regionDat0 V c).Φ t.castSucc from rfl,
    show (regionDat0 V c).owesAt () t.succ = (regionDat0 V c).owesAt () t.castSucc from rfl,
    regionDat0_after_in, regionDat0_after_out]
  iintro ⟨HΦ, Ho, ⟨%d0, H0⟩, ⟨%d1, H1⟩⟩
  iapply (bodyRuns0 c Set.univ _ _ _ _ _ (blockAt0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The pipeline's body obligation, at every point. -/
theorem obligation0 (c : Dev nD) : BodyObligation (regionDat0 (F := F) V c) (defs₀ (F := F)) Variants.none () Set.univ := fun t => by
  rw [bigSep_W0, bigSep_W0]
  exact pointRuns0 V c t

end Cert.Kernel.Hand

end
-- ==== Proof.KBody1.lean ====
/-
  Region 1 of the program: the kernel body of pallas_call 1 at one grid point, and the pipeline's proof data.

  The body loads its whole input block (a [8, 80, 36, 36] slab of the level's array), reads its output staging buffer
  once without using what it read, and stores one value over the whole output block: the body's arithmetic of the
  input block. So after the body the input buffer is as it was and the output buffer holds that value, whatever it
  held before. Everything here is stated at the contents V the region finds in the TensorCore's buffers.
-/
import proofs.«137573_j63891933495891_1_alg».proof.Proof.Gen.Kernel.Launch
import proofs.«137573_j63891933495891_1_alg».proof.Proof.Gen.Kernel.Skeleton
import proofs.«137573_j63891933495891_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window w's array that grid point t works on, read off the array as the region finds it. -/
def blockAt1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input window's staging buffer holds the point's block of the input array at every point, for any proof data
    over V's arrays whose body leaves the input block in place. -/
theorem inputHeld1 {c : Dev nD} (dat : Dat τ (Elt F) Unit ℕ (UR sig nD τ) ℕ cfg1 c) (hA : dat.A 0 = V c (Pipeline.arrRef spec1 0))
    (hafter : ∀ t, dat.after 0 t = blockAt1 V c 0 t) (t : Fin cfg1.N) (d) : dat.before 0 t d = blockAt1 V c 0 t :=
  (dat.before_in_eq_fetched 0 rfl (fun _ => rfl) (fun _ _ _ => rfl) (fun t => by rw [hafter]; unfold Dat.blockOf blockAt1; rw [hA]; try rfl) t d).trans
    (by unfold Dat.fetched Dat.blockOf blockAt1; rw [hA]; try rfl)

/-- The whole input block and the whole output block as rectangles. -/
abbrev inRect1 : Rect S8x80x36x36 := Rect.unit (s := S8x80x36x36) ![0, 0, 0, 0] S8x80x36x36.size inb_S8x80x36x36_S8x80x36x36_0_0_0_0
abbrev outRect1 : Rect S8x1296x80 := Rect.unit (s := S8x1296x80) ![0, 0, 0] S8x1296x80.size inb_S8x1296x80_S8x1296x80_0_0_0

/-- What the body leaves in the output buffer: its one store, over the whole block, of the body's arithmetic of the
    loaded input block. -/
def bodyOut1 (x0 : Vec F S8x80x36x36 .f32) : Vec F S8x1296x80 .f32 :=
  View.canon [⟨outRect1, k1_pay1 (View.ld x0 inRect1)⟩]

/-- The one store covers the output block. -/
theorem storeCovers1 (p0 : Vec F S8x1296x80 .f32) (y : S8x1296x80.Idx) :
    ∃ pc ∈ ([⟨outRect1, p0⟩] : List (View.Piece (Elt F) S8x1296x80 .f32)), y ∈ pc.1.set :=
  View.cover_of_tiled [⟨outRect1, p0⟩] S8x1296x80.size (by rfl) y

set_option maxHeartbeats 1000000 in
/-- The body on whole staging memrefs, the input's at contents x0 and the output's at anything: it runs to its
    continuation with the input's contents unchanged and the output's at bodyOut of x0. -/
theorem bodyRuns1 (c : Dev nD) (E : Set ℕ) (i : grid1.Coords) (arg1 : Memref sig .tc .vmem S8x80x36x36 .f32) (harg1 : arg1.IsWhole) (arg2 : Memref sig .tc .vmem S8x1296x80 .f32) (harg2 : arg2.IsWhole)
    (x0 : Vec F S8x80x36x36 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (bodyOut1 x0)) -∗ K ⟨⟩))
      ⊢ wp frame (wpE (defs₀ (F := F)) Variants.none c none) E (cc1__peak_kernel i arg1 harg1 arg2 harg2) K := by
  simp only [cc1__peak_kernel_eq_skeleton]; unfold cc1__peak_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (storeCovers1 _)

/-- The proof data of pipeline 1 on core c: the arrays as the region finds them; after the body at point t the input
    window's buffer still at its block and the output window's at bodyOut of that block; the invariant is the
    scoped rest and the generator register, untouched; nothing owed; full shares. -/
def regionDat1 (c : Dev nD) : Dat τ (Elt F) Unit ℕ (UR sig nD τ) ℕ cfg1 c where
  A w := V c (Pipeline.arrRef spec1 w)
  after w t := match w with
    | ⟨0, _⟩ => blockAt1 V c 0 t
    | ⟨1, _⟩ => bodyOut1 (blockAt1 V c 0 t)
  Φ _ := Pipeline.ΦA spec1 c
  q _ := fullShare
  owed _ := 0

theorem regionDat1_A (c : Dev nD) (w : Fin cfg1.W) : (regionDat1 V c).A w = V c (Pipeline.arrRef spec1 w) := by
  dsimp only [regionDat1]
theorem regionDat1_after_in (c : Dev nD) (t : Fin cfg1.N) : (regionDat1 V c).after 0 t = blockAt1 V c 0 t := by dsimp only [regionDat1]
theorem regionDat1_after_out (c : Dev nD) (t : Fin cfg1.N) : (regionDat1 V c).after 1 t = bodyOut1 (blockAt1 V c 0 t) := by dsimp only [regionDat1]
theorem regionDat1_before_in (c : Dev nD) (t : Fin cfg1.N) (d) : (regionDat1 V c).before 0 t d = blockAt1 V c 0 t :=
  inputHeld1 V (regionDat1 V c) (regionDat1_A V c 0) (regionDat1_after_in V c) t d

/-- What the body is called with at point t: the invariant, the core's dues, and the two current staging buffers. -/
def pointPre1 (c : Dev nD) (t : Fin cfg1.N) : sProp 𝕄 :=
  iprop((regionDat1 V c).Φ t.castSucc ∗ (regionDat1 V c).owesAt () t.castSucc
    ∗ (∃ d, owns (c : Thread nD τ) (st1_0 t) fullShare ((regionDat1 V c).before 0 t d))
    ∗ (∃ d, owns (c : Thread nD τ) (st1_1 t) fullShare ((regionDat1 V c).before 1 t d)))

/-- What it returns. -/
def pointPost1 (c : Dev nD) (t : Fin cfg1.N) : sProp 𝕄 :=
  iprop((regionDat1 V c).Φ t.succ ∗ (regionDat1 V c).owesAt () t.succ
    ∗ owns (c : Thread nD τ) (st1_0 t) fullShare ((regionDat1 V c).after 0 t)
    ∗ owns (c : Thread nD τ) (st1_1 t) fullShare ((regionDat1 V c).after 1 t))

/-- The body at any point: the input's buffer holds its block, so bodyRuns applies; the invariant and the dues pass
    through unread. -/
theorem pointRuns1 (c : Dev nD) (t : Fin cfg1.N) :
    pointPre1 V c t ⊢ wp frame (wpE (defs₀ (F := F)) Variants.none c none) Set.univ (bodyAt1 t) (fun _ => pointPost1 V c t) := by
  unfold pointPre1 pointPost1 bodyAt1
  simp only [regionDat1_before_in]
  rw [show (regionDat1 V c).Φ t.succ = (regionDat1 V c).Φ t.castSucc from rfl,
    show (regionDat1 V c).owesAt () t.succ = (regionDat1 V c).owesAt () t.castSucc from rfl,
    regionDat1_after_in, regionDat1_after_out]
  iintro ⟨HΦ, Ho, ⟨%d0, H0⟩, ⟨%d1, H1⟩⟩
  iapply (bodyRuns1 c Set.univ _ _ _ _ _ (blockAt1 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The pipeline's body obligation, at every point. -/
theorem obligation1 (c : Dev nD) : BodyObligation (regionDat1 (F := F) V c) (defs₀ (F := F)) Variants.none () Set.univ := fun t => by
  rw [bigSep_W1, bigSep_W1]
  exact pointRuns1 V c t

end Cert.Kernel.Hand

end
-- ==== Proof.KBody2.lean ====
/-
  Region 2 of the program: the kernel body of pallas_call 2 at one grid point, and the pipeline's proof data.

  The body loads its whole input block (a [32, 80, 24, 24] slab of the level's array), reads its output staging buffer
  once without using what it read, and stores one value over the whole output block: the body's arithmetic of the
  input block. So after the body the input buffer is as it was and the output buffer holds that value, whatever it
  held before. Everything here is stated at the contents V the region finds in the TensorCore's buffers.
-/
import proofs.«137573_j63891933495891_1_alg».proof.Proof.Gen.Kernel.Launch
import proofs.«137573_j63891933495891_1_alg».proof.Proof.Gen.Kernel.Skeleton
import proofs.«137573_j63891933495891_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window w's array that grid point t works on, read off the array as the region finds it. -/
def blockAt2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The input window's staging buffer holds the point's block of the input array at every point, for any proof data
    over V's arrays whose body leaves the input block in place. -/
theorem inputHeld2 {c : Dev nD} (dat : Dat τ (Elt F) Unit ℕ (UR sig nD τ) ℕ cfg2 c) (hA : dat.A 0 = V c (Pipeline.arrRef spec2 0))
    (hafter : ∀ t, dat.after 0 t = blockAt2 V c 0 t) (t : Fin cfg2.N) (d) : dat.before 0 t d = blockAt2 V c 0 t :=
  (dat.before_in_eq_fetched 0 rfl (fun _ => rfl) (fun _ _ _ => rfl) (fun t => by rw [hafter]; unfold Dat.blockOf blockAt2; rw [hA]; try rfl) t d).trans
    (by unfold Dat.fetched Dat.blockOf blockAt2; rw [hA]; try rfl)

/-- The whole input block and the whole output block as rectangles. -/
abbrev inRect2 : Rect S32x80x24x24 := Rect.unit (s := S32x80x24x24) ![0, 0, 0, 0] S32x80x24x24.size inb_S32x80x24x24_S32x80x24x24_0_0_0_0
abbrev outRect2 : Rect S32x576x80 := Rect.unit (s := S32x576x80) ![0, 0, 0] S32x576x80.size inb_S32x576x80_S32x576x80_0_0_0

/-- What the body leaves in the output buffer: its one store, over the whole block, of the body's arithmetic of the
    loaded input block. -/
def bodyOut2 (x0 : Vec F S32x80x24x24 .f32) : Vec F S32x576x80 .f32 :=
  View.canon [⟨outRect2, k2_pay1 (View.ld x0 inRect2)⟩]

/-- The one store covers the output block. -/
theorem storeCovers2 (p0 : Vec F S32x576x80 .f32) (y : S32x576x80.Idx) :
    ∃ pc ∈ ([⟨outRect2, p0⟩] : List (View.Piece (Elt F) S32x576x80 .f32)), y ∈ pc.1.set :=
  View.cover_of_tiled [⟨outRect2, p0⟩] S32x576x80.size (by rfl) y

set_option maxHeartbeats 1000000 in
/-- The body on whole staging memrefs, the input's at contents x0 and the output's at anything: it runs to its
    continuation with the input's contents unchanged and the output's at bodyOut of x0. -/
theorem bodyRuns2 (c : Dev nD) (E : Set ℕ) (i : grid2.Coords) (arg1 : Memref sig .tc .vmem S32x80x24x24 .f32) (harg1 : arg1.IsWhole) (arg2 : Memref sig .tc .vmem S32x576x80 .f32) (harg2 : arg2.IsWhole)
    (x0 : Vec F S32x80x24x24 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (bodyOut2 x0)) -∗ K ⟨⟩))
      ⊢ wp frame (wpE (defs₀ (F := F)) Variants.none c none) E (cc2__peak_kernel i arg1 harg1 arg2 harg2) K := by
  simp only [cc2__peak_kernel_eq_skeleton]; unfold cc2__peak_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (storeCovers2 _)

/-- The proof data of pipeline 2 on core c: the arrays as the region finds them; after the body at point t the input
    window's buffer still at its block and the output window's at bodyOut of that block; the invariant is the
    scoped rest and the generator register, untouched; nothing owed; full shares. -/
def regionDat2 (c : Dev nD) : Dat τ (Elt F) Unit ℕ (UR sig nD τ) ℕ cfg2 c where
  A w := V c (Pipeline.arrRef spec2 w)
  after w t := match w with
    | ⟨0, _⟩ => blockAt2 V c 0 t
    | ⟨1, _⟩ => bodyOut2 (blockAt2 V c 0 t)
  Φ _ := Pipeline.ΦA spec2 c
  q _ := fullShare
  owed _ := 0

theorem regionDat2_A (c : Dev nD) (w : Fin cfg2.W) : (regionDat2 V c).A w = V c (Pipeline.arrRef spec2 w) := by
  dsimp only [regionDat2]
theorem regionDat2_after_in (c : Dev nD) (t : Fin cfg2.N) : (regionDat2 V c).after 0 t = blockAt2 V c 0 t := by dsimp only [regionDat2]
theorem regionDat2_after_out (c : Dev nD) (t : Fin cfg2.N) : (regionDat2 V c).after 1 t = bodyOut2 (blockAt2 V c 0 t) := by dsimp only [regionDat2]
theorem regionDat2_before_in (c : Dev nD) (t : Fin cfg2.N) (d) : (regionDat2 V c).before 0 t d = blockAt2 V c 0 t :=
  inputHeld2 V (regionDat2 V c) (regionDat2_A V c 0) (regionDat2_after_in V c) t d

/-- What the body is called with at point t: the invariant, the core's dues, and the two current staging buffers. -/
def pointPre2 (c : Dev nD) (t : Fin cfg2.N) : sProp 𝕄 :=
  iprop((regionDat2 V c).Φ t.castSucc ∗ (regionDat2 V c).owesAt () t.castSucc
    ∗ (∃ d, owns (c : Thread nD τ) (st2_0 t) fullShare ((regionDat2 V c).before 0 t d))
    ∗ (∃ d, owns (c : Thread nD τ) (st2_1 t) fullShare ((regionDat2 V c).before 1 t d)))

/-- What it returns. -/
def pointPost2 (c : Dev nD) (t : Fin cfg2.N) : sProp 𝕄 :=
  iprop((regionDat2 V c).Φ t.succ ∗ (regionDat2 V c).owesAt () t.succ
    ∗ owns (c : Thread nD τ) (st2_0 t) fullShare ((regionDat2 V c).after 0 t)
    ∗ owns (c : Thread nD τ) (st2_1 t) fullShare ((regionDat2 V c).after 1 t))

/-- The body at any point: the input's buffer holds its block, so bodyRuns applies; the invariant and the dues pass
    through unread. -/
theorem pointRuns2 (c : Dev nD) (t : Fin cfg2.N) :
    pointPre2 V c t ⊢ wp frame (wpE (defs₀ (F := F)) Variants.none c none) Set.univ (bodyAt2 t) (fun _ => pointPost2 V c t) := by
  unfold pointPre2 pointPost2 bodyAt2
  simp only [regionDat2_before_in]
  rw [show (regionDat2 V c).Φ t.succ = (regionDat2 V c).Φ t.castSucc from rfl,
    show (regionDat2 V c).owesAt () t.succ = (regionDat2 V c).owesAt () t.castSucc from rfl,
    regionDat2_after_in, regionDat2_after_out]
  iintro ⟨HΦ, Ho, ⟨%d0, H0⟩, ⟨%d1, H1⟩⟩
  iapply (bodyRuns2 c Set.univ _ _ _ _ _ (blockAt2 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The pipeline's body obligation, at every point. -/
theorem obligation2 (c : Dev nD) : BodyObligation (regionDat2 (F := F) V c) (defs₀ (F := F)) Variants.none () Set.univ := fun t => by
  rw [bigSep_W2, bigSep_W2]
  exact pointRuns2 V c t

end Cert.Kernel.Hand

end
-- ==== Proof.KBody3.lean ====
/-
  Region 3 of the program: the kernel body of pallas_call 3 at one grid point, and the pipeline's proof data.

  The body loads its whole input block (a [64, 80, 16, 16] slab of the level's array), reads its output staging buffer
  once without using what it read, and stores one value over the whole output block: the body's arithmetic of the
  input block. So after the body the input buffer is as it was and the output buffer holds that value, whatever it
  held before. Everything here is stated at the contents V the region finds in the TensorCore's buffers.
-/
import proofs.«137573_j63891933495891_1_alg».proof.Proof.Gen.Kernel.Launch
import proofs.«137573_j63891933495891_1_alg».proof.Proof.Gen.Kernel.Skeleton
import proofs.«137573_j63891933495891_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window w's array that grid point t works on, read off the array as the region finds it. -/
def blockAt3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The input window's staging buffer holds the point's block of the input array at every point, for any proof data
    over V's arrays whose body leaves the input block in place. -/
theorem inputHeld3 {c : Dev nD} (dat : Dat τ (Elt F) Unit ℕ (UR sig nD τ) ℕ cfg3 c) (hA : dat.A 0 = V c (Pipeline.arrRef spec3 0))
    (hafter : ∀ t, dat.after 0 t = blockAt3 V c 0 t) (t : Fin cfg3.N) (d) : dat.before 0 t d = blockAt3 V c 0 t :=
  (dat.before_in_eq_fetched 0 rfl (fun _ => rfl) (fun _ _ _ => rfl) (fun t => by rw [hafter]; unfold Dat.blockOf blockAt3; rw [hA]; try rfl) t d).trans
    (by unfold Dat.fetched Dat.blockOf blockAt3; rw [hA]; try rfl)

/-- The whole input block and the whole output block as rectangles. -/
abbrev inRect3 : Rect S64x80x16x16 := Rect.unit (s := S64x80x16x16) ![0, 0, 0, 0] S64x80x16x16.size inb_S64x80x16x16_S64x80x16x16_0_0_0_0
abbrev outRect3 : Rect S64x256x80 := Rect.unit (s := S64x256x80) ![0, 0, 0] S64x256x80.size inb_S64x256x80_S64x256x80_0_0_0

/-- What the body leaves in the output buffer: its one store, over the whole block, of the body's arithmetic of the
    loaded input block. -/
def bodyOut3 (x0 : Vec F S64x80x16x16 .f32) : Vec F S64x256x80 .f32 :=
  View.canon [⟨outRect3, k3_pay1 (View.ld x0 inRect3)⟩]

/-- The one store covers the output block. -/
theorem storeCovers3 (p0 : Vec F S64x256x80 .f32) (y : S64x256x80.Idx) :
    ∃ pc ∈ ([⟨outRect3, p0⟩] : List (View.Piece (Elt F) S64x256x80 .f32)), y ∈ pc.1.set :=
  View.cover_of_tiled [⟨outRect3, p0⟩] S64x256x80.size (by rfl) y

set_option maxHeartbeats 1000000 in
/-- The body on whole staging memrefs, the input's at contents x0 and the output's at anything: it runs to its
    continuation with the input's contents unchanged and the output's at bodyOut of x0. -/
theorem bodyRuns3 (c : Dev nD) (E : Set ℕ) (i : grid3.Coords) (arg1 : Memref sig .tc .vmem S64x80x16x16 .f32) (harg1 : arg1.IsWhole) (arg2 : Memref sig .tc .vmem S64x256x80 .f32) (harg2 : arg2.IsWhole)
    (x0 : Vec F S64x80x16x16 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (bodyOut3 x0)) -∗ K ⟨⟩))
      ⊢ wp frame (wpE (defs₀ (F := F)) Variants.none c none) E (cc3__peak_kernel i arg1 harg1 arg2 harg2) K := by
  simp only [cc3__peak_kernel_eq_skeleton]; unfold cc3__peak_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (storeCovers3 _)

/-- The proof data of pipeline 3 on core c: the arrays as the region finds them; after the body at point t the input
    window's buffer still at its block and the output window's at bodyOut of that block; the invariant is the
    scoped rest and the generator register, untouched; nothing owed; full shares. -/
def regionDat3 (c : Dev nD) : Dat τ (Elt F) Unit ℕ (UR sig nD τ) ℕ cfg3 c where
  A w := V c (Pipeline.arrRef spec3 w)
  after w t := match w with
    | ⟨0, _⟩ => blockAt3 V c 0 t
    | ⟨1, _⟩ => bodyOut3 (blockAt3 V c 0 t)
  Φ _ := Pipeline.ΦA spec3 c
  q _ := fullShare
  owed _ := 0

theorem regionDat3_A (c : Dev nD) (w : Fin cfg3.W) : (regionDat3 V c).A w = V c (Pipeline.arrRef spec3 w) := by
  dsimp only [regionDat3]
theorem regionDat3_after_in (c : Dev nD) (t : Fin cfg3.N) : (regionDat3 V c).after 0 t = blockAt3 V c 0 t := by dsimp only [regionDat3]
theorem regionDat3_after_out (c : Dev nD) (t : Fin cfg3.N) : (regionDat3 V c).after 1 t = bodyOut3 (blockAt3 V c 0 t) := by dsimp only [regionDat3]
theorem regionDat3_before_in (c : Dev nD) (t : Fin cfg3.N) (d) : (regionDat3 V c).before 0 t d = blockAt3 V c 0 t :=
  inputHeld3 V (regionDat3 V c) (regionDat3_A V c 0) (regionDat3_after_in V c) t d

/-- What the body is called with at point t: the invariant, the core's dues, and the two current staging buffers. -/
def pointPre3 (c : Dev nD) (t : Fin cfg3.N) : sProp 𝕄 :=
  iprop((regionDat3 V c).Φ t.castSucc ∗ (regionDat3 V c).owesAt () t.castSucc
    ∗ (∃ d, owns (c : Thread nD τ) (st3_0 t) fullShare ((regionDat3 V c).before 0 t d))
    ∗ (∃ d, owns (c : Thread nD τ) (st3_1 t) fullShare ((regionDat3 V c).before 1 t d)))

/-- What it returns. -/
def pointPost3 (c : Dev nD) (t : Fin cfg3.N) : sProp 𝕄 :=
  iprop((regionDat3 V c).Φ t.succ ∗ (regionDat3 V c).owesAt () t.succ
    ∗ owns (c : Thread nD τ) (st3_0 t) fullShare ((regionDat3 V c).after 0 t)
    ∗ owns (c : Thread nD τ) (st3_1 t) fullShare ((regionDat3 V c).after 1 t))

/-- The body at any point: the input's buffer holds its block, so bodyRuns applies; the invariant and the dues pass
    through unread. -/
theorem pointRuns3 (c : Dev nD) (t : Fin cfg3.N) :
    pointPre3 V c t ⊢ wp frame (wpE (defs₀ (F := F)) Variants.none c none) Set.univ (bodyAt3 t) (fun _ => pointPost3 V c t) := by
  unfold pointPre3 pointPost3 bodyAt3
  simp only [regionDat3_before_in]
  rw [show (regionDat3 V c).Φ t.succ = (regionDat3 V c).Φ t.castSucc from rfl,
    show (regionDat3 V c).owesAt () t.succ = (regionDat3 V c).owesAt () t.castSucc from rfl,
    regionDat3_after_in, regionDat3_after_out]
  iintro ⟨HΦ, Ho, ⟨%d0, H0⟩, ⟨%d1, H1⟩⟩
  iapply (bodyRuns3 c Set.univ _ _ _ _ _ (blockAt3 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The pipeline's body obligation, at every point. -/
theorem obligation3 (c : Dev nD) : BodyObligation (regionDat3 (F := F) V c) (defs₀ (F := F)) Variants.none () Set.univ := fun t => by
  rw [bigSep_W3, bigSep_W3]
  exact pointRuns3 V c t

end Cert.Kernel.Hand

end
-- ==== Proof.KBody4.lean ====
/-
  Region 4 of the program: the kernel body of pallas_call 4 at one grid point, and the pipeline's proof data.

  The body loads its whole input block (a [64, 80, 12, 12] slab of the level's array), reads its output staging buffer
  once without using what it read, and stores one value over the whole output block: the body's arithmetic of the
  input block. So after the body the input buffer is as it was and the output buffer holds that value, whatever it
  held before. Everything here is stated at the contents V the region finds in the TensorCore's buffers.
-/
import proofs.«137573_j63891933495891_1_alg».proof.Proof.Gen.Kernel.Launch
import proofs.«137573_j63891933495891_1_alg».proof.Proof.Gen.Kernel.Skeleton
import proofs.«137573_j63891933495891_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window w's array that grid point t works on, read off the array as the region finds it. -/
def blockAt4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The input window's staging buffer holds the point's block of the input array at every point, for any proof data
    over V's arrays whose body leaves the input block in place. -/
theorem inputHeld4 {c : Dev nD} (dat : Dat τ (Elt F) Unit ℕ (UR sig nD τ) ℕ cfg4 c) (hA : dat.A 0 = V c (Pipeline.arrRef spec4 0))
    (hafter : ∀ t, dat.after 0 t = blockAt4 V c 0 t) (t : Fin cfg4.N) (d) : dat.before 0 t d = blockAt4 V c 0 t :=
  (dat.before_in_eq_fetched 0 rfl (fun _ => rfl) (fun _ _ _ => rfl) (fun t => by rw [hafter]; unfold Dat.blockOf blockAt4; rw [hA]; try rfl) t d).trans
    (by unfold Dat.fetched Dat.blockOf blockAt4; rw [hA]; try rfl)

/-- The whole input block and the whole output block as rectangles. -/
abbrev inRect4 : Rect S64x80x12x12 := Rect.unit (s := S64x80x12x12) ![0, 0, 0, 0] S64x80x12x12.size inb_S64x80x12x12_S64x80x12x12_0_0_0_0
abbrev outRect4 : Rect S64x144x80 := Rect.unit (s := S64x144x80) ![0, 0, 0] S64x144x80.size inb_S64x144x80_S64x144x80_0_0_0

/-- What the body leaves in the output buffer: its one store, over the whole block, of the body's arithmetic of the
    loaded input block. -/
def bodyOut4 (x0 : Vec F S64x80x12x12 .f32) : Vec F S64x144x80 .f32 :=
  View.canon [⟨outRect4, k4_pay1 (View.ld x0 inRect4)⟩]

/-- The one store covers the output block. -/
theorem storeCovers4 (p0 : Vec F S64x144x80 .f32) (y : S64x144x80.Idx) :
    ∃ pc ∈ ([⟨outRect4, p0⟩] : List (View.Piece (Elt F) S64x144x80 .f32)), y ∈ pc.1.set :=
  View.cover_of_tiled [⟨outRect4, p0⟩] S64x144x80.size (by rfl) y

set_option maxHeartbeats 1000000 in
/-- The body on whole staging memrefs, the input's at contents x0 and the output's at anything: it runs to its
    continuation with the input's contents unchanged and the output's at bodyOut of x0. -/
theorem bodyRuns4 (c : Dev nD) (E : Set ℕ) (i : grid4.Coords) (arg1 : Memref sig .tc .vmem S64x80x12x12 .f32) (harg1 : arg1.IsWhole) (arg2 : Memref sig .tc .vmem S64x144x80 .f32) (harg2 : arg2.IsWhole)
    (x0 : Vec F S64x80x12x12 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (bodyOut4 x0)) -∗ K ⟨⟩))
      ⊢ wp frame (wpE (defs₀ (F := F)) Variants.none c none) E (cc4__peak_kernel i arg1 harg1 arg2 harg2) K := by
  simp only [cc4__peak_kernel_eq_skeleton]; unfold cc4__peak_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (storeCovers4 _)

/-- The proof data of pipeline 4 on core c: the arrays as the region finds them; after the body at point t the input
    window's buffer still at its block and the output window's at bodyOut of that block; the invariant is the
    scoped rest and the generator register, untouched; nothing owed; full shares. -/
def regionDat4 (c : Dev nD) : Dat τ (Elt F) Unit ℕ (UR sig nD τ) ℕ cfg4 c where
  A w := V c (Pipeline.arrRef spec4 w)
  after w t := match w with
    | ⟨0, _⟩ => blockAt4 V c 0 t
    | ⟨1, _⟩ => bodyOut4 (blockAt4 V c 0 t)
  Φ _ := Pipeline.ΦA spec4 c
  q _ := fullShare
  owed _ := 0

theorem regionDat4_A (c : Dev nD) (w : Fin cfg4.W) : (regionDat4 V c).A w = V c (Pipeline.arrRef spec4 w) := by
  dsimp only [regionDat4]
theorem regionDat4_after_in (c : Dev nD) (t : Fin cfg4.N) : (regionDat4 V c).after 0 t = blockAt4 V c 0 t := by dsimp only [regionDat4]
theorem regionDat4_after_out (c : Dev nD) (t : Fin cfg4.N) : (regionDat4 V c).after 1 t = bodyOut4 (blockAt4 V c 0 t) := by dsimp only [regionDat4]
theorem regionDat4_before_in (c : Dev nD) (t : Fin cfg4.N) (d) : (regionDat4 V c).before 0 t d = blockAt4 V c 0 t :=
  inputHeld4 V (regionDat4 V c) (regionDat4_A V c 0) (regionDat4_after_in V c) t d

/-- What the body is called with at point t: the invariant, the core's dues, and the two current staging buffers. -/
def pointPre4 (c : Dev nD) (t : Fin cfg4.N) : sProp 𝕄 :=
  iprop((regionDat4 V c).Φ t.castSucc ∗ (regionDat4 V c).owesAt () t.castSucc
    ∗ (∃ d, owns (c : Thread nD τ) (st4_0 t) fullShare ((regionDat4 V c).before 0 t d))
    ∗ (∃ d, owns (c : Thread nD τ) (st4_1 t) fullShare ((regionDat4 V c).before 1 t d)))

/-- What it returns. -/
def pointPost4 (c : Dev nD) (t : Fin cfg4.N) : sProp 𝕄 :=
  iprop((regionDat4 V c).Φ t.succ ∗ (regionDat4 V c).owesAt () t.succ
    ∗ owns (c : Thread nD τ) (st4_0 t) fullShare ((regionDat4 V c).after 0 t)
    ∗ owns (c : Thread nD τ) (st4_1 t) fullShare ((regionDat4 V c).after 1 t))

/-- The body at any point: the input's buffer holds its block, so bodyRuns applies; the invariant and the dues pass
    through unread. -/
theorem pointRuns4 (c : Dev nD) (t : Fin cfg4.N) :
    pointPre4 V c t ⊢ wp frame (wpE (defs₀ (F := F)) Variants.none c none) Set.univ (bodyAt4 t) (fun _ => pointPost4 V c t) := by
  unfold pointPre4 pointPost4 bodyAt4
  simp only [regionDat4_before_in]
  rw [show (regionDat4 V c).Φ t.succ = (regionDat4 V c).Φ t.castSucc from rfl,
    show (regionDat4 V c).owesAt () t.succ = (regionDat4 V c).owesAt () t.castSucc from rfl,
    regionDat4_after_in, regionDat4_after_out]
  iintro ⟨HΦ, Ho, ⟨%d0, H0⟩, ⟨%d1, H1⟩⟩
  iapply (bodyRuns4 c Set.univ _ _ _ _ _ (blockAt4 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The pipeline's body obligation, at every point. -/
theorem obligation4 (c : Dev nD) : BodyObligation (regionDat4 (F := F) V c) (defs₀ (F := F)) Variants.none () Set.univ := fun t => by
  rw [bigSep_W4, bigSep_W4]
  exact pointRuns4 V c t

end Cert.Kernel.Hand

end
-- ==== Proof.LibConcatFive.lean ====
/-
  A host operation that reads a LITERAL family of five buffers (a concatenation of five arrays), after it has run.

  The operation's result is its function applied to the family of its operands' contents. When the family is the
  literal list `![x, a, b, c, e]`, that family of contents is the explicit tuple of the five buffers' contents, each
  read at its own buffer — the form in which the contents of each operand can be computed further, one buffer at a
  time. Stated for any signature, element types and function; the second form leaves the result buffer out of the
  rewriting index so that it can be used as a rewrite rule from inside a nest of earlier operations.
-/
import Idealize.ShloMosaic.Lib.StableHlo.Run

noncomputable section

namespace Cert.LibConcatFive

open Idealize.ShloMosaic Idealize.ShloMosaic.StableHlo Idealize.SL.Sem

variable {τ : Topo} {sig : RefSig} {Val : EltTy → Type}
variable {x a b c e y : Ref sig .tc}

/-- The result of an operation over five literal operands: its function at the tuple of their contents. -/
theorem nary5_result
    (f : ((k : Fin 5) → ((![x, a, b, c, e] : Fin 5 → Ref sig .tc) k).ty.Contents Val) → y.ty.Contents Val) (hxs hy)
    (F : Valuation τ sig Val) :
    (nary (τ := τ) ![x, a, b, c, e] y f hxs hy).result F (Proc.devRef .tc y)
      = f (Fin.cons (F (Proc.devRef .tc x)) (Fin.cons (F (Proc.devRef .tc a)) (Fin.cons (F (Proc.devRef .tc b))
          (Fin.cons (F (Proc.devRef .tc c)) (Fin.cons (F (Proc.devRef .tc e)) (fun i => i.elim0)))))) := by
  rw [nary_result]; congr 1; funext k; fin_cases k <;> rfl

/-- The same as a rewrite rule. -/
theorem nary5_result'
    (f : ((k : Fin 5) → ((![x, a, b, c, e] : Fin 5 → Ref sig .tc) k).ty.Contents Val) → y.ty.Contents Val) (hxs hy)
    (F : Valuation τ sig Val) :
    (nary (τ := τ) ![x, a, b, c, e] y f hxs hy).result F (no_index (Proc.devRef .tc y))
      = f (Fin.cons (F (Proc.devRef .tc x)) (Fin.cons (F (Proc.devRef .tc a)) (Fin.cons (F (Proc.devRef .tc b))
          (Fin.cons (F (Proc.devRef .tc c)) (Fin.cons (F (Proc.devRef .tc e)) (fun i => i.elim0)))))) :=
  nary5_result f hxs hy F

end Cert.LibConcatFive

end
-- ==== Proof.KRun.lean ====
/-
  The whole program as a run: five kernel regions, one after the other, then the host's concatenation.

  Between two items every unscoped buffer of the TensorCore is held whole at known contents: at launch the
  memory's; after region k the same except that region k's output array holds what the pipeline's write-backs
  leave there (its input array is read, never written); after the last item the concatenation's result buffer
  holds the five output arrays joined. The run ends with every unscoped buffer at these last contents, from which
  the frame (each argument array as launched) and the result's value are read off.
-/
import proofs.«137573_j63891933495891_1_alg».proof.Proof.Gen.Kernel.Launch
import proofs.«137573_j63891933495891_1_alg».proof.Proof.Gen.Kernel.Skeleton
import proofs.«137573_j63891933495891_1_alg».proof.Proof.Gen.Kernel.Points
import proofs.«137573_j63891933495891_1_alg».proof.Proof.KBody0
import proofs.«137573_j63891933495891_1_alg».proof.Proof.KBody1
import proofs.«137573_j63891933495891_1_alg».proof.Proof.KBody2
import proofs.«137573_j63891933495891_1_alg».proof.Proof.KBody3
import proofs.«137573_j63891933495891_1_alg».proof.Proof.KBody4
import proofs.«137573_j63891933495891_1_alg».proof.Proof.Gen.Kernel.Regions
import proofs.«137573_j63891933495891_1_alg».proof.Proof.LibConcatFive
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev X0 : Dev nD → Valuation τ sig (Elt F) := fun c b => m (c, b)
/-- The same read at the TensorCore's references (what region 0's proof data take). -/
abbrev E0 : (c : Dev nD) → (b : Ref sig .tc) → Buf (Elt F) ((c : Thread nD τ).loc b) := fun c b => X0 m c b

/-- After region 0: its arrays at what the pipeline leaves, every other buffer as it was. -/
def X1 (c : Dev nD) : Valuation τ sig (Elt F) :=
  Pipeline.withArrays spec0 c (X0 m c) fun w => (regionDat0 (E0 m) c).arrAt w cfg0.N
theorem X1_arr (c : Dev nD) (w : Fin cfg0.W) :
    X1 m c (Proc.devRef .tc (Pipeline.arrRef spec0 w)) = (regionDat0 (E0 m) c).arrAt w cfg0.N := by
  unfold X1; exact Pipeline.withArrays_arr spec0 launch0.win.arr_inj c _ _ w
theorem X1_of_ne (c : Dev nD) (b : Ref sig .tc) (hb : ∀ w, Pipeline.arrRef spec0 w ≠ b) :
    X1 m c (Proc.devRef .tc b) = X0 m c (Proc.devRef .tc b) := by
  unfold X1; exact Pipeline.withArrays_of_ne spec0 c _ _ b hb
abbrev E1 : (c : Dev nD) → (b : Ref sig .tc) → Buf (Elt F) ((c : Thread nD τ).loc b) := fun c b => X1 m c b
theorem exitArr0 (c : Dev nD) (w : Fin cfg0.W) : (regionDat0 (E0 m) c).arrAt w cfg0.N = E1 m c (Pipeline.arrRef spec0 w) :=
  (X1_arr m c w).symm
theorem exitRest0 (c : Dev nD) : ∀ b, b ∉ Finset.univ.image (Pipeline.arrRef spec0) → E1 m c b = E0 m c b :=
  fun b hb => X1_of_ne m c b fun w e => hb (Finset.mem_image.mpr ⟨w, Finset.mem_univ _, e⟩)

/-- After region 1: its arrays at what the pipeline leaves, every other buffer as it was. -/
def X2 (c : Dev nD) : Valuation τ sig (Elt F) :=
  Pipeline.withArrays spec1 c (X1 m c) fun w => (regionDat1 (E1 m) c).arrAt w cfg1.N
theorem X2_arr (c : Dev nD) (w : Fin cfg1.W) :
    X2 m c (Proc.devRef .tc (Pipeline.arrRef spec1 w)) = (regionDat1 (E1 m) c).arrAt w cfg1.N := by
  unfold X2; exact Pipeline.withArrays_arr spec1 launch1.win.arr_inj c _ _ w
theorem X2_of_ne (c : Dev nD) (b : Ref sig .tc) (hb : ∀ w, Pipeline.arrRef spec1 w ≠ b) :
    X2 m c (Proc.devRef .tc b) = X1 m c (Proc.devRef .tc b) := by
  unfold X2; exact Pipeline.withArrays_of_ne spec1 c _ _ b hb
abbrev E2 : (c : Dev nD) → (b : Ref sig .tc) → Buf (Elt F) ((c : Thread nD τ).loc b) := fun c b => X2 m c b
theorem exitArr1 (c : Dev nD) (w : Fin cfg1.W) : (regionDat1 (E1 m) c).arrAt w cfg1.N = E2 m c (Pipeline.arrRef spec1 w) :=
  (X2_arr m c w).symm
theorem exitRest1 (c : Dev nD) : ∀ b, b ∉ Finset.univ.image (Pipeline.arrRef spec1) → E2 m c b = E1 m c b :=
  fun b hb => X2_of_ne m c b fun w e => hb (Finset.mem_image.mpr ⟨w, Finset.mem_univ _, e⟩)

/-- After region 2: its arrays at what the pipeline leaves, every other buffer as it was. -/
def X3 (c : Dev nD) : Valuation τ sig (Elt F) :=
  Pipeline.withArrays spec2 c (X2 m c) fun w => (regionDat2 (E2 m) c).arrAt w cfg2.N
theorem X3_arr (c : Dev nD) (w : Fin cfg2.W) :
    X3 m c (Proc.devRef .tc (Pipeline.arrRef spec2 w)) = (regionDat2 (E2 m) c).arrAt w cfg2.N := by
  unfold X3; exact Pipeline.withArrays_arr spec2 launch2.win.arr_inj c _ _ w
theorem X3_of_ne (c : Dev nD) (b : Ref sig .tc) (hb : ∀ w, Pipeline.arrRef spec2 w ≠ b) :
    X3 m c (Proc.devRef .tc b) = X2 m c (Proc.devRef .tc b) := by
  unfold X3; exact Pipeline.withArrays_of_ne spec2 c _ _ b hb
abbrev E3 : (c : Dev nD) → (b : Ref sig .tc) → Buf (Elt F) ((c : Thread nD τ).loc b) := fun c b => X3 m c b
theorem exitArr2 (c : Dev nD) (w : Fin cfg2.W) : (regionDat2 (E2 m) c).arrAt w cfg2.N = E3 m c (Pipeline.arrRef spec2 w) :=
  (X3_arr m c w).symm
theorem exitRest2 (c : Dev nD) : ∀ b, b ∉ Finset.univ.image (Pipeline.arrRef spec2) → E3 m c b = E2 m c b :=
  fun b hb => X3_of_ne m c b fun w e => hb (Finset.mem_image.mpr ⟨w, Finset.mem_univ _, e⟩)

/-- After region 3: its arrays at what the pipeline leaves, every other buffer as it was. -/
def X4 (c : Dev nD) : Valuation τ sig (Elt F) :=
  Pipeline.withArrays spec3 c (X3 m c) fun w => (regionDat3 (E3 m) c).arrAt w cfg3.N
theorem X4_arr (c : Dev nD) (w : Fin cfg3.W) :
    X4 m c (Proc.devRef .tc (Pipeline.arrRef spec3 w)) = (regionDat3 (E3 m) c).arrAt w cfg3.N := by
  unfold X4; exact Pipeline.withArrays_arr spec3 launch3.win.arr_inj c _ _ w
theorem X4_of_ne (c : Dev nD) (b : Ref sig .tc) (hb : ∀ w, Pipeline.arrRef spec3 w ≠ b) :
    X4 m c (Proc.devRef .tc b) = X3 m c (Proc.devRef .tc b) := by
  unfold X4; exact Pipeline.withArrays_of_ne spec3 c _ _ b hb
abbrev E4 : (c : Dev nD) → (b : Ref sig .tc) → Buf (Elt F) ((c : Thread nD τ).loc b) := fun c b => X4 m c b
theorem exitArr3 (c : Dev nD) (w : Fin cfg3.W) : (regionDat3 (E3 m) c).arrAt w cfg3.N = E4 m c (Pipeline.arrRef spec3 w) :=
  (X4_arr m c w).symm
theorem exitRest3 (c : Dev nD) : ∀ b, b ∉ Finset.univ.image (Pipeline.arrRef spec3) → E4 m c b = E3 m c b :=
  fun b hb => X4_of_ne m c b fun w e => hb (Finset.mem_image.mpr ⟨w, Finset.mem_univ _, e⟩)

/-- After region 4: its arrays at what the pipeline leaves, every other buffer as it was. -/
def X5 (c : Dev nD) : Valuation τ sig (Elt F) :=
  Pipeline.withArrays spec4 c (X4 m c) fun w => (regionDat4 (E4 m) c).arrAt w cfg4.N
theorem X5_arr (c : Dev nD) (w : Fin cfg4.W) :
    X5 m c (Proc.devRef .tc (Pipeline.arrRef spec4 w)) = (regionDat4 (E4 m) c).arrAt w cfg4.N := by
  unfold X5; exact Pipeline.withArrays_arr spec4 launch4.win.arr_inj c _ _ w
theorem X5_of_ne (c : Dev nD) (b : Ref sig .tc) (hb : ∀ w, Pipeline.arrRef spec4 w ≠ b) :
    X5 m c (Proc.devRef .tc b) = X4 m c (Proc.devRef .tc b) := by
  unfold X5; exact Pipeline.withArrays_of_ne spec4 c _ _ b hb
abbrev E5 : (c : Dev nD) → (b : Ref sig .tc) → Buf (Elt F) ((c : Thread nD τ).loc b) := fun c b => X5 m c b
theorem exitArr4 (c : Dev nD) (w : Fin cfg4.W) : (regionDat4 (E4 m) c).arrAt w cfg4.N = E5 m c (Pipeline.arrRef spec4 w) :=
  (X5_arr m c w).symm
theorem exitRest4 (c : Dev nD) : ∀ b, b ∉ Finset.univ.image (Pipeline.arrRef spec4) → E5 m c b = E4 m c b :=
  fun b hb => X5_of_ne m c b fun w e => hb (Finset.mem_image.mpr ⟨w, Finset.mem_univ _, e⟩)

/-- After the concatenation. -/
abbrev X6 : Dev nD → Valuation τ sig (Elt F) := fun c => StableHlo.after hostOps5 (X5 m c)

/-! ## Each argument array reaches the end as launched

No region writes an argument (a region reads its own through an input window and passes the others by), and the
concatenation writes only its result. -/
theorem X6_main_arg0 (c : Dev nD) : X6 m c (Proc.devRef .tc main_arg0) = m ((c : Thread nD τ).loc main_arg0) :=
  calc X6 m c (Proc.devRef .tc main_arg0)
    _ = X5 m c (Proc.devRef .tc main_arg0) := StableHlo.after_of_writes_sub hostOps5 _ hostOps5_writes (by decide)
    _ = X4 m c (Proc.devRef .tc main_arg0) := X5_of_ne m c main_arg0 (by decide)
    _ = X3 m c (Proc.devRef .tc main_arg0) := X4_of_ne m c main_arg0 (by decide)
    _ = X2 m c (Proc.devRef .tc main_arg0) := X3_of_ne m c main_arg0 (by decide)
    _ = X1 m c (Proc.devRef .tc main_arg0) := X2_of_ne m c main_arg0 (by decide)
    _ = X0 m c (Proc.devRef .tc main_arg0) := (X1_arr m c 0).trans (((regionDat0 (E0 m) c).arrAt_in 0 rfl _).trans (regionDat0_A (E0 m) c 0))
    _ = m ((c : Thread nD τ).loc main_arg0) := rfl

/-- Region 0 finds its input array as launched. -/
theorem E0_main_arg0 (c : Dev nD) : E0 m c main_arg0 = m ((c : Thread nD τ).loc main_arg0) :=
  calc E0 m c main_arg0
    _ = X0 m c (Proc.devRef .tc main_arg0) := rfl
    _ = m ((c : Thread nD τ).loc main_arg0) := rfl

theorem X6_main_arg1 (c : Dev nD) : X6 m c (Proc.devRef .tc main_arg1) = m ((c : Thread nD τ).loc main_arg1) :=
  calc X6 m c (Proc.devRef .tc main_arg1)
    _ = X5 m c (Proc.devRef .tc main_arg1) := StableHlo.after_of_writes_sub hostOps5 _ hostOps5_writes (by decide)
    _ = X4 m c (Proc.devRef .tc main_arg1) := X5_of_ne m c main_arg1 (by decide)
    _ = X3 m c (Proc.devRef .tc main_arg1) := X4_of_ne m c main_arg1 (by decide)
    _ = X2 m c (Proc.devRef .tc main_arg1) := X3_of_ne m c main_arg1 (by decide)
    _ = X1 m c (Proc.devRef .tc main_arg1) := (X2_arr m c 0).trans (((regionDat1 (E1 m) c).arrAt_in 0 rfl _).trans (regionDat1_A (E1 m) c 0))
    _ = X0 m c (Proc.devRef .tc main_arg1) := X1_of_ne m c main_arg1 (by decide)
    _ = m ((c : Thread nD τ).loc main_arg1) := rfl

/-- Region 1 finds its input array as launched. -/
theorem E1_main_arg1 (c : Dev nD) : E1 m c main_arg1 = m ((c : Thread nD τ).loc main_arg1) :=
  calc E1 m c main_arg1
    _ = X1 m c (Proc.devRef .tc main_arg1) := rfl
    _ = X0 m c (Proc.devRef .tc main_arg1) := X1_of_ne m c main_arg1 (by decide)
    _ = m ((c : Thread nD τ).loc main_arg1) := rfl

theorem X6_main_arg2 (c : Dev nD) : X6 m c (Proc.devRef .tc main_arg2) = m ((c : Thread nD τ).loc main_arg2) :=
  calc X6 m c (Proc.devRef .tc main_arg2)
    _ = X5 m c (Proc.devRef .tc main_arg2) := StableHlo.after_of_writes_sub hostOps5 _ hostOps5_writes (by decide)
    _ = X4 m c (Proc.devRef .tc main_arg2) := X5_of_ne m c main_arg2 (by decide)
    _ = X3 m c (Proc.devRef .tc main_arg2) := X4_of_ne m c main_arg2 (by decide)
    _ = X2 m c (Proc.devRef .tc main_arg2) := (X3_arr m c 0).trans (((regionDat2 (E2 m) c).arrAt_in 0 rfl _).trans (regionDat2_A (E2 m) c 0))
    _ = X1 m c (Proc.devRef .tc main_arg2) := X2_of_ne m c main_arg2 (by decide)
    _ = X0 m c (Proc.devRef .tc main_arg2) := X1_of_ne m c main_arg2 (by decide)
    _ = m ((c : Thread nD τ).loc main_arg2) := rfl

/-- Region 2 finds its input array as launched. -/
theorem E2_main_arg2 (c : Dev nD) : E2 m c main_arg2 = m ((c : Thread nD τ).loc main_arg2) :=
  calc E2 m c main_arg2
    _ = X2 m c (Proc.devRef .tc main_arg2) := rfl
    _ = X1 m c (Proc.devRef .tc main_arg2) := X2_of_ne m c main_arg2 (by decide)
    _ = X0 m c (Proc.devRef .tc main_arg2) := X1_of_ne m c main_arg2 (by decide)
    _ = m ((c : Thread nD τ).loc main_arg2) := rfl

theorem X6_main_arg3 (c : Dev nD) : X6 m c (Proc.devRef .tc main_arg3) = m ((c : Thread nD τ).loc main_arg3) :=
  calc X6 m c (Proc.devRef .tc main_arg3)
    _ = X5 m c (Proc.devRef .tc main_arg3) := StableHlo.after_of_writes_sub hostOps5 _ hostOps5_writes (by decide)
    _ = X4 m c (Proc.devRef .tc main_arg3) := X5_of_ne m c main_arg3 (by decide)
    _ = X3 m c (Proc.devRef .tc main_arg3) := (X4_arr m c 0).trans (((regionDat3 (E3 m) c).arrAt_in 0 rfl _).trans (regionDat3_A (E3 m) c 0))
    _ = X2 m c (Proc.devRef .tc main_arg3) := X3_of_ne m c main_arg3 (by decide)
    _ = X1 m c (Proc.devRef .tc main_arg3) := X2_of_ne m c main_arg3 (by decide)
    _ = X0 m c (Proc.devRef .tc main_arg3) := X1_of_ne m c main_arg3 (by decide)
    _ = m ((c : Thread nD τ).loc main_arg3) := rfl

/-- Region 3 finds its input array as launched. -/
theorem E3_main_arg3 (c : Dev nD) : E3 m c main_arg3 = m ((c : Thread nD τ).loc main_arg3) :=
  calc E3 m c main_arg3
    _ = X3 m c (Proc.devRef .tc main_arg3) := rfl
    _ = X2 m c (Proc.devRef .tc main_arg3) := X3_of_ne m c main_arg3 (by decide)
    _ = X1 m c (Proc.devRef .tc main_arg3) := X2_of_ne m c main_arg3 (by decide)
    _ = X0 m c (Proc.devRef .tc main_arg3) := X1_of_ne m c main_arg3 (by decide)
    _ = m ((c : Thread nD τ).loc main_arg3) := rfl

theorem X6_main_arg4 (c : Dev nD) : X6 m c (Proc.devRef .tc main_arg4) = m ((c : Thread nD τ).loc main_arg4) :=
  calc X6 m c (Proc.devRef .tc main_arg4)
    _ = X5 m c (Proc.devRef .tc main_arg4) := StableHlo.after_of_writes_sub hostOps5 _ hostOps5_writes (by decide)
    _ = X4 m c (Proc.devRef .tc main_arg4) := (X5_arr m c 0).trans (((regionDat4 (E4 m) c).arrAt_in 0 rfl _).trans (regionDat4_A (E4 m) c 0))
    _ = X3 m c (Proc.devRef .tc main_arg4) := X4_of_ne m c main_arg4 (by decide)
    _ = X2 m c (Proc.devRef .tc main_arg4) := X3_of_ne m c main_arg4 (by decide)
    _ = X1 m c (Proc.devRef .tc main_arg4) := X2_of_ne m c main_arg4 (by decide)
    _ = X0 m c (Proc.devRef .tc main_arg4) := X1_of_ne m c main_arg4 (by decide)
    _ = m ((c : Thread nD τ).loc main_arg4) := rfl

/-- Region 4 finds its input array as launched. -/
theorem E4_main_arg4 (c : Dev nD) : E4 m c main_arg4 = m ((c : Thread nD τ).loc main_arg4) :=
  calc E4 m c main_arg4
    _ = X4 m c (Proc.devRef .tc main_arg4) := rfl
    _ = X3 m c (Proc.devRef .tc main_arg4) := X4_of_ne m c main_arg4 (by decide)
    _ = X2 m c (Proc.devRef .tc main_arg4) := X3_of_ne m c main_arg4 (by decide)
    _ = X1 m c (Proc.devRef .tc main_arg4) := X2_of_ne m c main_arg4 (by decide)
    _ = X0 m c (Proc.devRef .tc main_arg4) := X1_of_ne m c main_arg4 (by decide)
    _ = m ((c : Thread nD τ).loc main_arg4) := rfl

/-! ## The result buffer at the end: the five output arrays, each as its region left it, joined -/
theorem X5_main_v0 (c : Dev nD) : X5 m c (Proc.devRef .tc main_v0) = (regionDat0 (E0 m) c).arrAt 1 cfg0.N :=
  calc X5 m c (Proc.devRef .tc main_v0)
    _ = X4 m c (Proc.devRef .tc main_v0) := X5_of_ne m c main_v0 (by decide)
    _ = X3 m c (Proc.devRef .tc main_v0) := X4_of_ne m c main_v0 (by decide)
    _ = X2 m c (Proc.devRef .tc main_v0) := X3_of_ne m c main_v0 (by decide)
    _ = X1 m c (Proc.devRef .tc main_v0) := X2_of_ne m c main_v0 (by decide)
    _ = (regionDat0 (E0 m) c).arrAt 1 cfg0.N := X1_arr m c 1

theorem X5_main_v1 (c : Dev nD) : X5 m c (Proc.devRef .tc main_v1) = (regionDat1 (E1 m) c).arrAt 1 cfg1.N :=
  calc X5 m c (Proc.devRef .tc main_v1)
    _ = X4 m c (Proc.devRef .tc main_v1) := X5_of_ne m c main_v1 (by decide)
    _ = X3 m c (Proc.devRef .tc main_v1) := X4_of_ne m c main_v1 (by decide)
    _ = X2 m c (Proc.devRef .tc main_v1) := X3_of_ne m c main_v1 (by decide)
    _ = (regionDat1 (E1 m) c).arrAt 1 cfg1.N := X2_arr m c 1

theorem X5_main_v2 (c : Dev nD) : X5 m c (Proc.devRef .tc main_v2) = (regionDat2 (E2 m) c).arrAt 1 cfg2.N :=
  calc X5 m c (Proc.devRef .tc main_v2)
    _ = X4 m c (Proc.devRef .tc main_v2) := X5_of_ne m c main_v2 (by decide)
    _ = X3 m c (Proc.devRef .tc main_v2) := X4_of_ne m c main_v2 (by decide)
    _ = (regionDat2 (E2 m) c).arrAt 1 cfg2.N := X3_arr m c 1

theorem X5_main_v3 (c : Dev nD) : X5 m c (Proc.devRef .tc main_v3) = (regionDat3 (E3 m) c).arrAt 1 cfg3.N :=
  calc X5 m c (Proc.devRef .tc main_v3)
    _ = X4 m c (Proc.devRef .tc main_v3) := X5_of_ne m c main_v3 (by decide)
    _ = (regionDat3 (E3 m) c).arrAt 1 cfg3.N := X4_arr m c 1

theorem X5_main_v4 (c : Dev nD) : X5 m c (Proc.devRef .tc main_v4) = (regionDat4 (E4 m) c).arrAt 1 cfg4.N :=
  calc X5 m c (Proc.devRef .tc main_v4)
    _ = (regionDat4 (E4 m) c).arrAt 1 cfg4.N := X5_arr m c 1

theorem X6_main_v5 (c : Dev nD) : X6 m c (Proc.devRef .tc main_v5)
    = concatenate S64x3872x80 1 [⟨S64x1600x80, X5 m c (Proc.devRef .tc main_v0)⟩, ⟨S64x1296x80, X5 m c (Proc.devRef .tc main_v1)⟩, ⟨S64x576x80, X5 m c (Proc.devRef .tc main_v2)⟩, ⟨S64x256x80, X5 m c (Proc.devRef .tc main_v3)⟩, ⟨S64x144x80, X5 m c (Proc.devRef .tc main_v4)⟩] concatenates_S64x1600x80_S64x1296x80_S64x576x80_S64x256x80_S64x144x80_S64x3872x80_d1 := by
  show StableHlo.after hostOps5 (X5 m c) (Proc.devRef .tc main_v5) = _
  simp only [hostOps5, StableHlo.after_cons, StableHlo.after_nil]
  rw [Cert.LibConcatFive.nary5_result]
  rfl

/-! ## The proof data family and the thread state -/

/-- The prefetched tables' admissible contents: no pipeline has a table. -/
abbrev noTables : (p : Fin 5) → (pcfgs (F := F) p).Adm := fun p => (cfgs p).toPCfg_adm
/-- Every pipeline's proof data, each at its region's entry contents. -/
def allDats : (p : Fin 5) → (c : Dev nD) → Dat τ (Elt F) Unit ℕ (UR sig nD τ) ℕ (Pipeline.pin (pcfgs (F := F)) noTables p) c
  | ⟨0, _⟩ => fun c => regionDat0 (E0 m) c
  | ⟨1, _⟩ => fun c => regionDat1 (E1 m) c
  | ⟨2, _⟩ => fun c => regionDat2 (E2 m) c
  | ⟨3, _⟩ => fun c => regionDat3 (E3 m) c
  | ⟨4, _⟩ => fun c => regionDat4 (E4 m) c
abbrev noVariants : Variants := Variants.none
/-- No core owes another anything: no level is assigned. -/
abbrev noPairs : GSem nD τ sig → Finset Unit := fun _ => ∅
abbrev noLevel : GSem nD τ sig → Unit → ℕ := fun _ _ => 0
/-- What rides beside the buffers through every item: the generator register at some state, and nothing owed. -/
abbrev Beside (c : Dev nD) : sProp 𝕄 := iprop((∃ r, prngReg c r) ∗ ∃ W, owes (c : Thread nD τ) (0 : CellTallies nD τ sig Unit) W)
/-- An unscoped TensorCore reference is among those the thread state holds. -/
theorem mem_unscoped (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last contents, the generator register at
    some state. -/
abbrev AtEnd (c : Dev nD) : sProp 𝕄 := iprop(StableHlo.held (c : Thread nD τ) (Pipeline.ucRefs τ sig) (X6 m c) ∗ ∃ r, prngReg c r)

/-- The concatenation as a host segment from the contents after region 4. -/
abbrev joinSeg : Pipeline.HostSeg (Name := ℕ) (U := UR sig nD τ) (pcfgs (F := F)) defs₀ noVariants noPairs noLevel :=
  Pipeline.HostSeg.ofOps _ _ _ _ _ (Pipeline.ucRefs τ sig) hostOps5
    (fun op h => Pipeline.sub_ucRefs op ((List.forall_iff_forall_mem.mp hostOps5_sub) op h))
    (fun op h => (List.forall_iff_forall_mem.mp hostOps5_fresh) op h) (X5 m) Beside

/-! ## The regions as segments -/

set_option backward.isDefEq.respectTransparency.types false in
/-- Region 0: entered with every unscoped buffer at X0, left at X1. Its two arrays are split out of the unscoped
    buffers at entry and put back at the exit contents; the generator register goes into the pipeline's invariant
    and comes back; nothing is owed; the kernel has no semaphore of its own. -/
def regionSeg0 : Pipeline.RegionSeg (pcfgs (F := F)) noTables (allDats m) () defs₀ noVariants noPairs noLevel 0 where
  win := launch0.win.to₀
  block_pos := launch0.block_pos
  stage_whole := launch0.stage_whole
  K := PEmpty
  osem k := k.elim
  ho := Pipeline.OwnSemFacts.none _
  hbody c := (obligation0 (E0 m) c).loose
  hwaits := Pipeline.hwaits_of_owed_zero _ _ _ _ noPairs noLevel 0 fun _ _ => rfl
  pre c := iprop(StableHlo.held (c : Thread nD τ) (Pipeline.ucRefs τ sig) (X0 m c) ∗ Beside c)
  post c := iprop(StableHlo.held (c : Thread nD τ) (Pipeline.ucRefs τ sig) (X1 m c) ∗ Beside c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) noTables (allDats m) launch0.win launch0.arr_whole c
      ((allDats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (allDats m 0 c).Φ 0 = Pipeline.ΦA spec0 c from rfl]; unfold Pipeline.ΦA
    iintro ⟨Hp, -, Hr⟩
    isplitl [Hr]; · iexact Hr
    iexact Hp
  hout c := by
    rw [Pipeline.ownSems0_none, show (allDats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) noTables (Ix := Unit) (Name := ℕ) (U := UR sig nD τ) (Lvl := ℕ)
      launch0.win launch0.arr_whole c (allDats m) ((allDats m 0 c).share_full fun _ => rfl)
      (E0 m c) (E1 m c) ((allDats m 0 c).arrAt · cfg0.N) (exitArr0 m c) (exitRest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered with every unscoped buffer at X1, left at X2. Its two arrays are split out of the unscoped
    buffers at entry and put back at the exit contents; the generator register goes into the pipeline's invariant
    and comes back; nothing is owed; the kernel has no semaphore of its own. -/
def regionSeg1 : Pipeline.RegionSeg (pcfgs (F := F)) noTables (allDats m) () defs₀ noVariants noPairs noLevel 1 where
  win := launch1.win.to₀
  block_pos := launch1.block_pos
  stage_whole := launch1.stage_whole
  K := PEmpty
  osem k := k.elim
  ho := Pipeline.OwnSemFacts.none _
  hbody c := (obligation1 (E1 m) c).loose
  hwaits := Pipeline.hwaits_of_owed_zero _ _ _ _ noPairs noLevel 1 fun _ _ => rfl
  pre c := iprop(StableHlo.held (c : Thread nD τ) (Pipeline.ucRefs τ sig) (X1 m c) ∗ Beside c)
  post c := iprop(StableHlo.held (c : Thread nD τ) (Pipeline.ucRefs τ sig) (X2 m c) ∗ Beside c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := Pipeline.arrays_of_unscopedBufs (p := 1) (pcfgs (F := F)) noTables (allDats m) launch1.win launch1.arr_whole c
      ((allDats m 1 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (allDats m 1 c).Φ 0 = Pipeline.ΦA spec1 c from rfl]; unfold Pipeline.ΦA
    iintro ⟨Hp, -, Hr⟩
    isplitl [Hr]; · iexact Hr
    iexact Hp
  hout c := by
    rw [Pipeline.ownSems0_none, show (allDats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) noTables (Ix := Unit) (Name := ℕ) (U := UR sig nD τ) (Lvl := ℕ)
      launch1.win launch1.arr_whole c (allDats m) ((allDats m 1 c).share_full fun _ => rfl)
      (E1 m c) (E2 m c) ((allDats m 1 c).arrAt · cfg1.N) (exitArr1 m c) (exitRest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2: entered with every unscoped buffer at X2, left at X3. Its two arrays are split out of the unscoped
    buffers at entry and put back at the exit contents; the generator register goes into the pipeline's invariant
    and comes back; nothing is owed; the kernel has no semaphore of its own. -/
def regionSeg2 : Pipeline.RegionSeg (pcfgs (F := F)) noTables (allDats m) () defs₀ noVariants noPairs noLevel 2 where
  win := launch2.win.to₀
  block_pos := launch2.block_pos
  stage_whole := launch2.stage_whole
  K := PEmpty
  osem k := k.elim
  ho := Pipeline.OwnSemFacts.none _
  hbody c := (obligation2 (E2 m) c).loose
  hwaits := Pipeline.hwaits_of_owed_zero _ _ _ _ noPairs noLevel 2 fun _ _ => rfl
  pre c := iprop(StableHlo.held (c : Thread nD τ) (Pipeline.ucRefs τ sig) (X2 m c) ∗ Beside c)
  post c := iprop(StableHlo.held (c : Thread nD τ) (Pipeline.ucRefs τ sig) (X3 m c) ∗ Beside c)
  X c := iprop(∃ r, prngReg c r)
  Y c := iprop(∃ r, prngReg c r)
  Z c := Pipeline.unscopedRest (Ix := Unit) (Name := ℕ) (U := UR sig nD τ) (Lvl := ℕ) spec2 c (E2 m c)
  hentry c := by
    rw [Pipeline.ownSems0_none]
    have hsplit := Pipeline.arrays_of_unscopedBufs (p := 2) (pcfgs (F := F)) noTables (allDats m) launch2.win launch2.arr_whole c
      ((allDats m 2 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (allDats m 2 c).Φ 0 = Pipeline.ΦA spec2 c from rfl]; unfold Pipeline.ΦA
    iintro ⟨Hp, -, Hr⟩
    isplitl [Hr]; · iexact Hr
    iexact Hp
  hout c := by
    rw [Pipeline.ownSems0_none, show (allDats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) noTables (Ix := Unit) (Name := ℕ) (U := UR sig nD τ) (Lvl := ℕ)
      launch2.win launch2.arr_whole c (allDats m) ((allDats m 2 c).share_full fun _ => rfl)
      (E2 m c) (E3 m c) ((allDats m 2 c).arrAt · cfg2.N) (exitArr2 m c) (exitRest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3: entered with every unscoped buffer at X3, left at X4. Its two arrays are split out of the unscoped
    buffers at entry and put back at the exit contents; the generator register goes into the pipeline's invariant
    and comes back; nothing is owed; the kernel has no semaphore of its own. -/
def regionSeg3 : Pipeline.RegionSeg (pcfgs (F := F)) noTables (allDats m) () defs₀ noVariants noPairs noLevel 3 where
  win := launch3.win.to₀
  block_pos := launch3.block_pos
  stage_whole := launch3.stage_whole
  K := PEmpty
  osem k := k.elim
  ho := Pipeline.OwnSemFacts.none _
  hbody c := (obligation3 (E3 m) c).loose
  hwaits := Pipeline.hwaits_of_owed_zero _ _ _ _ noPairs noLevel 3 fun _ _ => rfl
  pre c := iprop(StableHlo.held (c : Thread nD τ) (Pipeline.ucRefs τ sig) (X3 m c) ∗ Beside c)
  post c := iprop(StableHlo.held (c : Thread nD τ) (Pipeline.ucRefs τ sig) (X4 m c) ∗ Beside c)
  X c := iprop(∃ r, prngReg c r)
  Y c := iprop(∃ r, prngReg c r)
  Z c := Pipeline.unscopedRest (Ix := Unit) (Name := ℕ) (U := UR sig nD τ) (Lvl := ℕ) spec3 c (E3 m c)
  hentry c := by
    rw [Pipeline.ownSems0_none]
    have hsplit := Pipeline.arrays_of_unscopedBufs (p := 3) (pcfgs (F := F)) noTables (allDats m) launch3.win launch3.arr_whole c
      ((allDats m 3 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (allDats m 3 c).Φ 0 = Pipeline.ΦA spec3 c from rfl]; unfold Pipeline.ΦA
    iintro ⟨Hp, -, Hr⟩
    isplitl [Hr]; · iexact Hr
    iexact Hp
  hout c := by
    rw [Pipeline.ownSems0_none, show (allDats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) noTables (Ix := Unit) (Name := ℕ) (U := UR sig nD τ) (Lvl := ℕ)
      launch3.win launch3.arr_whole c (allDats m) ((allDats m 3 c).share_full fun _ => rfl)
      (E3 m c) (E4 m c) ((allDats m 3 c).arrAt · cfg3.N) (exitArr3 m c) (exitRest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4: entered with every unscoped buffer at X4, left at X5. Its two arrays are split out of the unscoped
    buffers at entry and put back at the exit contents; the generator register goes into the pipeline's invariant
    and comes back; nothing is owed; the kernel has no semaphore of its own. -/
def regionSeg4 : Pipeline.RegionSeg (pcfgs (F := F)) noTables (allDats m) () defs₀ noVariants noPairs noLevel 4 where
  win := launch4.win.to₀
  block_pos := launch4.block_pos
  stage_whole := launch4.stage_whole
  K := PEmpty
  osem k := k.elim
  ho := Pipeline.OwnSemFacts.none _
  hbody c := (obligation4 (E4 m) c).loose
  hwaits := Pipeline.hwaits_of_owed_zero _ _ _ _ noPairs noLevel 4 fun _ _ => rfl
  pre c := iprop(StableHlo.held (c : Thread nD τ) (Pipeline.ucRefs τ sig) (X4 m c) ∗ Beside c)
  post c := iprop(StableHlo.held (c : Thread nD τ) (Pipeline.ucRefs τ sig) (X5 m c) ∗ Beside c)
  X c := iprop(∃ r, prngReg c r)
  Y c := iprop(∃ r, prngReg c r)
  Z c := Pipeline.unscopedRest (Ix := Unit) (Name := ℕ) (U := UR sig nD τ) (Lvl := ℕ) spec4 c (E4 m c)
  hentry c := by
    rw [Pipeline.ownSems0_none]
    have hsplit := Pipeline.arrays_of_unscopedBufs (p := 4) (pcfgs (F := F)) noTables (allDats m) launch4.win launch4.arr_whole c
      ((allDats m 4 c).share_full fun _ => rfl) (E4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (allDats m 4 c).Φ 0 = Pipeline.ΦA spec4 c from rfl]; unfold Pipeline.ΦA
    iintro ⟨Hp, -, Hr⟩
    isplitl [Hr]; · iexact Hr
    iexact Hp
  hout c := by
    rw [Pipeline.ownSems0_none, show (allDats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) noTables (Ix := Unit) (Name := ℕ) (U := UR sig nD τ) (Lvl := ℕ)
      launch4.win launch4.arr_whole c (allDats m) ((allDats m 4 c).share_full fun _ => rfl)
      (E4 m c) (E5 m c) ((allDats m 4 c).arrAt · cfg4.N) (exitArr4 m c) (exitRest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as its items, and the run -/

/-- The program's six items in order. -/
abbrev items : List (Pipeline.Seg (pcfgs (F := F)) noTables (allDats m) () defs₀ noVariants noPairs noLevel) :=
  [ .region (regionSeg0 m), .region (regionSeg1 m), .region (regionSeg2 m), .region (regionSeg3 m), .region (regionSeg4 m),
    .host (joinSeg m) ]

/-- The program IS the run of its items. -/
theorem main_items (c : Dev nD) : main (F := F) c = Pipeline.Seg.run (items m) := (main_chain c).trans (by chain_rfl)

set_option backward.isDefEq.respectTransparency.types false in
/-- THE RUN. From any memory with zero counters every weakly fair execution of the program terminates, nothing
    faulting, and in every final state each unscoped buffer of every core holds the last contents X6. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = X6 m c b) :=
  Pipeline.θ_run_regions_kit (pcfgs (F := F)) noTables (allDats m) () cellOf_inj emb₁ defs₀ noVariants noPairs noLevel m ρ main (items m)
    (fun c Q => by rw [main_items m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (X0 m c) ∗ Beside c)) (Tₙ := AtEnd m)
    (hch := ⟨fun _ => .rfl, fun _ => .rfl, fun _ => .rfl, fun _ => .rfl, fun _ => .rfl, fun _ => .rfl, fun c => by
      show (iprop(StableHlo.held (c : Thread nD τ) (Pipeline.ucRefs τ sig) (X6 m c) ∗ Beside c) : sProp 𝕄)
        ⊢ iprop(AtEnd m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach noPairs noLevel fun c => ?_
      rw [show unscopedBufs c (fun b => m ((c : Thread nD τ).loc b)) = StableHlo.held (c : Thread nD τ) (Pipeline.ucRefs τ sig) (X0 m c)
        from Pipeline.unscopedBufs_held c (X0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = X6 m c b)
    (hfin := fun c s' => by
      iintro ⟨⟨Hh, -⟩, HSI⟩
      unfold StableHlo.held
      imodintro
      iapply (pointsTo_read_all (Pipeline.ucRefs τ sig) (fun b => (((c : Thread nD τ)).1, b)) (X6 m c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_unscoped main_arg0 (by decide))).trans (X6_main_arg0 m c),
     (h c _ (mem_unscoped main_arg1 (by decide))).trans (X6_main_arg1 m c),
     (h c _ (mem_unscoped main_arg2 (by decide))).trans (X6_main_arg2 m c),
     (h c _ (mem_unscoped main_arg3 (by decide))).trans (X6_main_arg3 m c),
     (h c _ (mem_unscoped main_arg4 (by decide))).trans (X6_main_arg4 m c)⟩) (run_main m ρ)

end Cert.Kernel.Hand

end
-- ==== Proof.KIBody0.lean ====
/-
  Region 0 of the program: the kernel body of pallas_call 0 at one grid point, and the pipeline's proof data.

  The body loads its whole input block (a [8, 80, 40, 40] slab of the level's array), reads its output staging buffer
  once without using what it read, and stores one value over the whole output block: the body's arithmetic of the
  input block. So after the body the input buffer is as it was and the output buffer holds that value, whatever it
  held before. Everything here is stated at the contents V the region finds in the TensorCore's buffers.
-/
import proofs.«137573_j63891933495891_1_alg».proof.Proof.Gen.KernelIdeal.Launch
import proofs.«137573_j63891933495891_1_alg».proof.Proof.Gen.KernelIdeal.Skeleton
import proofs.«137573_j63891933495891_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window w's array that grid point t works on, read off the array as the region finds it. -/
def blockAt0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's staging buffer holds the point's block of the input array at every point, for any proof data
    over V's arrays whose body leaves the input block in place. -/
theorem inputHeld0 {c : Dev nD} (dat : Dat τ (Elt F) Unit ℕ (UR sig nD τ) ℕ cfg0 c) (hA : dat.A 0 = V c (Pipeline.arrRef spec0 0))
    (hafter : ∀ t, dat.after 0 t = blockAt0 V c 0 t) (t : Fin cfg0.N) (d) : dat.before 0 t d = blockAt0 V c 0 t :=
  (dat.before_in_eq_fetched 0 rfl (fun _ => rfl) (fun _ _ _ => rfl) (fun t => by rw [hafter]; unfold Dat.blockOf blockAt0; rw [hA]; try rfl) t d).trans
    (by unfold Dat.fetched Dat.blockOf blockAt0; rw [hA]; try rfl)

/-- The whole input block and the whole output block as rectangles. -/
abbrev inRect0 : Rect S8x80x40x40 := Rect.unit (s := S8x80x40x40) ![0, 0, 0, 0] S8x80x40x40.size inb_S8x80x40x40_S8x80x40x40_0_0_0_0
abbrev outRect0 : Rect S8x1600x80 := Rect.unit (s := S8x1600x80) ![0, 0, 0] S8x1600x80.size inb_S8x1600x80_S8x1600x80_0_0_0

/-- What the body leaves in the output buffer: its one store, over the whole block, of the body's arithmetic of the
    loaded input block. -/
def bodyOut0 (x0 : Vec F S8x80x40x40 .f32) : Vec F S8x1600x80 .f32 :=
  View.canon [⟨outRect0, k0_pay1 (View.ld x0 inRect0)⟩]

/-- The one store covers the output block. -/
theorem storeCovers0 (p0 : Vec F S8x1600x80 .f32) (y : S8x1600x80.Idx) :
    ∃ pc ∈ ([⟨outRect0, p0⟩] : List (View.Piece (Elt F) S8x1600x80 .f32)), y ∈ pc.1.set :=
  View.cover_of_tiled [⟨outRect0, p0⟩] S8x1600x80.size (by rfl) y

set_option maxHeartbeats 1000000 in
/-- The body on whole staging memrefs, the input's at contents x0 and the output's at anything: it runs to its
    continuation with the input's contents unchanged and the output's at bodyOut of x0. -/
theorem bodyRuns0 (c : Dev nD) (E : Set ℕ) (i : grid0.Coords) (arg1 : Memref sig .tc .vmem S8x80x40x40 .f32) (harg1 : arg1.IsWhole) (arg2 : Memref sig .tc .vmem S8x1600x80 .f32) (harg2 : arg2.IsWhole)
    (x0 : Vec F S8x80x40x40 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (bodyOut0 x0)) -∗ K ⟨⟩))
      ⊢ wp frame (wpE (defs₀ (F := F)) Variants.none c none) E (cc0__peak_kernel i arg1 harg1 arg2 harg2) K := by
  simp only [cc0__peak_kernel_eq_skeleton]; unfold cc0__peak_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (storeCovers0 _)

/-- The proof data of pipeline 0 on core c: the arrays as the region finds them; after the body at point t the input
    window's buffer still at its block and the output window's at bodyOut of that block; the invariant is the
    scoped rest and the generator register, untouched; nothing owed; full shares. -/
def regionDat0 (c : Dev nD) : Dat τ (Elt F) Unit ℕ (UR sig nD τ) ℕ cfg0 c where
  A w := V c (Pipeline.arrRef spec0 w)
  after w t := match w with
    | ⟨0, _⟩ => blockAt0 V c 0 t
    | ⟨1, _⟩ => bodyOut0 (blockAt0 V c 0 t)
  Φ _ := Pipeline.ΦA spec0 c
  q _ := fullShare
  owed _ := 0

theorem regionDat0_A (c : Dev nD) (w : Fin cfg0.W) : (regionDat0 V c).A w = V c (Pipeline.arrRef spec0 w) := by
  dsimp only [regionDat0]
theorem regionDat0_after_in (c : Dev nD) (t : Fin cfg0.N) : (regionDat0 V c).after 0 t = blockAt0 V c 0 t := by dsimp only [regionDat0]
theorem regionDat0_after_out (c : Dev nD) (t : Fin cfg0.N) : (regionDat0 V c).after 1 t = bodyOut0 (blockAt0 V c 0 t) := by dsimp only [regionDat0]
theorem regionDat0_before_in (c : Dev nD) (t : Fin cfg0.N) (d) : (regionDat0 V c).before 0 t d = blockAt0 V c 0 t :=
  inputHeld0 V (regionDat0 V c) (regionDat0_A V c 0) (regionDat0_after_in V c) t d

/-- What the body is called with at point t: the invariant, the core's dues, and the two current staging buffers. -/
def pointPre0 (c : Dev nD) (t : Fin cfg0.N) : sProp 𝕄 :=
  iprop((regionDat0 V c).Φ t.castSucc ∗ (regionDat0 V c).owesAt () t.castSucc
    ∗ (∃ d, owns (c : Thread nD τ) (st0_0 t) fullShare ((regionDat0 V c).before 0 t d))
    ∗ (∃ d, owns (c : Thread nD τ) (st0_1 t) fullShare ((regionDat0 V c).before 1 t d)))

/-- What it returns. -/
def pointPost0 (c : Dev nD) (t : Fin cfg0.N) : sProp 𝕄 :=
  iprop((regionDat0 V c).Φ t.succ ∗ (regionDat0 V c).owesAt () t.succ
    ∗ owns (c : Thread nD τ) (st0_0 t) fullShare ((regionDat0 V c).after 0 t)
    ∗ owns (c : Thread nD τ) (st0_1 t) fullShare ((regionDat0 V c).after 1 t))

/-- The body at any point: the input's buffer holds its block, so bodyRuns applies; the invariant and the dues pass
    through unread. -/
theorem pointRuns0 (c : Dev nD) (t : Fin cfg0.N) :
    pointPre0 V c t ⊢ wp frame (wpE (defs₀ (F := F)) Variants.none c none) Set.univ (bodyAt0 t) (fun _ => pointPost0 V c t) := by
  unfold pointPre0 pointPost0 bodyAt0
  simp only [regionDat0_before_in]
  rw [show (regionDat0 V c).Φ t.succ = (regionDat0 V c).Φ t.castSucc from rfl,
    show (regionDat0 V c).owesAt () t.succ = (regionDat0 V c).owesAt () t.castSucc from rfl,
    regionDat0_after_in, regionDat0_after_out]
  iintro ⟨HΦ, Ho, ⟨%d0, H0⟩, ⟨%d1, H1⟩⟩
  iapply (bodyRuns0 c Set.univ _ _ _ _ _ (blockAt0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The pipeline's body obligation, at every point. -/
theorem obligation0 (c : Dev nD) : BodyObligation (regionDat0 (F := F) V c) (defs₀ (F := F)) Variants.none () Set.univ := fun t => by
  rw [bigSep_W0, bigSep_W0]
  exact pointRuns0 V c t

end Cert.KernelIdeal.Hand

end
-- ==== Proof.KIBody1.lean ====
/-
  Region 1 of the program: the kernel body of pallas_call 1 at one grid point, and the pipeline's proof data.

  The body loads its whole input block (a [8, 80, 36, 36] slab of the level's array), reads its output staging buffer
  once without using what it read, and stores one value over the whole output block: the body's arithmetic of the
  input block. So after the body the input buffer is as it was and the output buffer holds that value, whatever it
  held before. Everything here is stated at the contents V the region finds in the TensorCore's buffers.
-/
import proofs.«137573_j63891933495891_1_alg».proof.Proof.Gen.KernelIdeal.Launch
import proofs.«137573_j63891933495891_1_alg».proof.Proof.Gen.KernelIdeal.Skeleton
import proofs.«137573_j63891933495891_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window w's array that grid point t works on, read off the array as the region finds it. -/
def blockAt1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input window's staging buffer holds the point's block of the input array at every point, for any proof data
    over V's arrays whose body leaves the input block in place. -/
theorem inputHeld1 {c : Dev nD} (dat : Dat τ (Elt F) Unit ℕ (UR sig nD τ) ℕ cfg1 c) (hA : dat.A 0 = V c (Pipeline.arrRef spec1 0))
    (hafter : ∀ t, dat.after 0 t = blockAt1 V c 0 t) (t : Fin cfg1.N) (d) : dat.before 0 t d = blockAt1 V c 0 t :=
  (dat.before_in_eq_fetched 0 rfl (fun _ => rfl) (fun _ _ _ => rfl) (fun t => by rw [hafter]; unfold Dat.blockOf blockAt1; rw [hA]; try rfl) t d).trans
    (by unfold Dat.fetched Dat.blockOf blockAt1; rw [hA]; try rfl)

/-- The whole input block and the whole output block as rectangles. -/
abbrev inRect1 : Rect S8x80x36x36 := Rect.unit (s := S8x80x36x36) ![0, 0, 0, 0] S8x80x36x36.size inb_S8x80x36x36_S8x80x36x36_0_0_0_0
abbrev outRect1 : Rect S8x1296x80 := Rect.unit (s := S8x1296x80) ![0, 0, 0] S8x1296x80.size inb_S8x1296x80_S8x1296x80_0_0_0

/-- What the body leaves in the output buffer: its one store, over the whole block, of the body's arithmetic of the
    loaded input block. -/
def bodyOut1 (x0 : Vec F S8x80x36x36 .f32) : Vec F S8x1296x80 .f32 :=
  View.canon [⟨outRect1, k1_pay1 (View.ld x0 inRect1)⟩]

/-- The one store covers the output block. -/
theorem storeCovers1 (p0 : Vec F S8x1296x80 .f32) (y : S8x1296x80.Idx) :
    ∃ pc ∈ ([⟨outRect1, p0⟩] : List (View.Piece (Elt F) S8x1296x80 .f32)), y ∈ pc.1.set :=
  View.cover_of_tiled [⟨outRect1, p0⟩] S8x1296x80.size (by rfl) y

set_option maxHeartbeats 1000000 in
/-- The body on whole staging memrefs, the input's at contents x0 and the output's at anything: it runs to its
    continuation with the input's contents unchanged and the output's at bodyOut of x0. -/
theorem bodyRuns1 (c : Dev nD) (E : Set ℕ) (i : grid1.Coords) (arg1 : Memref sig .tc .vmem S8x80x36x36 .f32) (harg1 : arg1.IsWhole) (arg2 : Memref sig .tc .vmem S8x1296x80 .f32) (harg2 : arg2.IsWhole)
    (x0 : Vec F S8x80x36x36 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (bodyOut1 x0)) -∗ K ⟨⟩))
      ⊢ wp frame (wpE (defs₀ (F := F)) Variants.none c none) E (cc1__peak_kernel i arg1 harg1 arg2 harg2) K := by
  simp only [cc1__peak_kernel_eq_skeleton]; unfold cc1__peak_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (storeCovers1 _)

/-- The proof data of pipeline 1 on core c: the arrays as the region finds them; after the body at point t the input
    window's buffer still at its block and the output window's at bodyOut of that block; the invariant is the
    scoped rest and the generator register, untouched; nothing owed; full shares. -/
def regionDat1 (c : Dev nD) : Dat τ (Elt F) Unit ℕ (UR sig nD τ) ℕ cfg1 c where
  A w := V c (Pipeline.arrRef spec1 w)
  after w t := match w with
    | ⟨0, _⟩ => blockAt1 V c 0 t
    | ⟨1, _⟩ => bodyOut1 (blockAt1 V c 0 t)
  Φ _ := Pipeline.ΦA spec1 c
  q _ := fullShare
  owed _ := 0

theorem regionDat1_A (c : Dev nD) (w : Fin cfg1.W) : (regionDat1 V c).A w = V c (Pipeline.arrRef spec1 w) := by
  dsimp only [regionDat1]
theorem regionDat1_after_in (c : Dev nD) (t : Fin cfg1.N) : (regionDat1 V c).after 0 t = blockAt1 V c 0 t := by dsimp only [regionDat1]
theorem regionDat1_after_out (c : Dev nD) (t : Fin cfg1.N) : (regionDat1 V c).after 1 t = bodyOut1 (blockAt1 V c 0 t) := by dsimp only [regionDat1]
theorem regionDat1_before_in (c : Dev nD) (t : Fin cfg1.N) (d) : (regionDat1 V c).before 0 t d = blockAt1 V c 0 t :=
  inputHeld1 V (regionDat1 V c) (regionDat1_A V c 0) (regionDat1_after_in V c) t d

/-- What the body is called with at point t: the invariant, the core's dues, and the two current staging buffers. -/
def pointPre1 (c : Dev nD) (t : Fin cfg1.N) : sProp 𝕄 :=
  iprop((regionDat1 V c).Φ t.castSucc ∗ (regionDat1 V c).owesAt () t.castSucc
    ∗ (∃ d, owns (c : Thread nD τ) (st1_0 t) fullShare ((regionDat1 V c).before 0 t d))
    ∗ (∃ d, owns (c : Thread nD τ) (st1_1 t) fullShare ((regionDat1 V c).before 1 t d)))

/-- What it returns. -/
def pointPost1 (c : Dev nD) (t : Fin cfg1.N) : sProp 𝕄 :=
  iprop((regionDat1 V c).Φ t.succ ∗ (regionDat1 V c).owesAt () t.succ
    ∗ owns (c : Thread nD τ) (st1_0 t) fullShare ((regionDat1 V c).after 0 t)
    ∗ owns (c : Thread nD τ) (st1_1 t) fullShare ((regionDat1 V c).after 1 t))

/-- The body at any point: the input's buffer holds its block, so bodyRuns applies; the invariant and the dues pass
    through unread. -/
theorem pointRuns1 (c : Dev nD) (t : Fin cfg1.N) :
    pointPre1 V c t ⊢ wp frame (wpE (defs₀ (F := F)) Variants.none c none) Set.univ (bodyAt1 t) (fun _ => pointPost1 V c t) := by
  unfold pointPre1 pointPost1 bodyAt1
  simp only [regionDat1_before_in]
  rw [show (regionDat1 V c).Φ t.succ = (regionDat1 V c).Φ t.castSucc from rfl,
    show (regionDat1 V c).owesAt () t.succ = (regionDat1 V c).owesAt () t.castSucc from rfl,
    regionDat1_after_in, regionDat1_after_out]
  iintro ⟨HΦ, Ho, ⟨%d0, H0⟩, ⟨%d1, H1⟩⟩
  iapply (bodyRuns1 c Set.univ _ _ _ _ _ (blockAt1 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The pipeline's body obligation, at every point. -/
theorem obligation1 (c : Dev nD) : BodyObligation (regionDat1 (F := F) V c) (defs₀ (F := F)) Variants.none () Set.univ := fun t => by
  rw [bigSep_W1, bigSep_W1]
  exact pointRuns1 V c t

end Cert.KernelIdeal.Hand

end
-- ==== Proof.KIBody2.lean ====
/-
  Region 2 of the program: the kernel body of pallas_call 2 at one grid point, and the pipeline's proof data.

  The body loads its whole input block (a [32, 80, 24, 24] slab of the level's array), reads its output staging buffer
  once without using what it read, and stores one value over the whole output block: the body's arithmetic of the
  input block. So after the body the input buffer is as it was and the output buffer holds that value, whatever it
  held before. Everything here is stated at the contents V the region finds in the TensorCore's buffers.
-/
import proofs.«137573_j63891933495891_1_alg».proof.Proof.Gen.KernelIdeal.Launch
import proofs.«137573_j63891933495891_1_alg».proof.Proof.Gen.KernelIdeal.Skeleton
import proofs.«137573_j63891933495891_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window w's array that grid point t works on, read off the array as the region finds it. -/
def blockAt2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The input window's staging buffer holds the point's block of the input array at every point, for any proof data
    over V's arrays whose body leaves the input block in place. -/
theorem inputHeld2 {c : Dev nD} (dat : Dat τ (Elt F) Unit ℕ (UR sig nD τ) ℕ cfg2 c) (hA : dat.A 0 = V c (Pipeline.arrRef spec2 0))
    (hafter : ∀ t, dat.after 0 t = blockAt2 V c 0 t) (t : Fin cfg2.N) (d) : dat.before 0 t d = blockAt2 V c 0 t :=
  (dat.before_in_eq_fetched 0 rfl (fun _ => rfl) (fun _ _ _ => rfl) (fun t => by rw [hafter]; unfold Dat.blockOf blockAt2; rw [hA]; try rfl) t d).trans
    (by unfold Dat.fetched Dat.blockOf blockAt2; rw [hA]; try rfl)

/-- The whole input block and the whole output block as rectangles. -/
abbrev inRect2 : Rect S32x80x24x24 := Rect.unit (s := S32x80x24x24) ![0, 0, 0, 0] S32x80x24x24.size inb_S32x80x24x24_S32x80x24x24_0_0_0_0
abbrev outRect2 : Rect S32x576x80 := Rect.unit (s := S32x576x80) ![0, 0, 0] S32x576x80.size inb_S32x576x80_S32x576x80_0_0_0

/-- What the body leaves in the output buffer: its one store, over the whole block, of the body's arithmetic of the
    loaded input block. -/
def bodyOut2 (x0 : Vec F S32x80x24x24 .f32) : Vec F S32x576x80 .f32 :=
  View.canon [⟨outRect2, k2_pay1 (View.ld x0 inRect2)⟩]

/-- The one store covers the output block. -/
theorem storeCovers2 (p0 : Vec F S32x576x80 .f32) (y : S32x576x80.Idx) :
    ∃ pc ∈ ([⟨outRect2, p0⟩] : List (View.Piece (Elt F) S32x576x80 .f32)), y ∈ pc.1.set :=
  View.cover_of_tiled [⟨outRect2, p0⟩] S32x576x80.size (by rfl) y

set_option maxHeartbeats 1000000 in
/-- The body on whole staging memrefs, the input's at contents x0 and the output's at anything: it runs to its
    continuation with the input's contents unchanged and the output's at bodyOut of x0. -/
theorem bodyRuns2 (c : Dev nD) (E : Set ℕ) (i : grid2.Coords) (arg1 : Memref sig .tc .vmem S32x80x24x24 .f32) (harg1 : arg1.IsWhole) (arg2 : Memref sig .tc .vmem S32x576x80 .f32) (harg2 : arg2.IsWhole)
    (x0 : Vec F S32x80x24x24 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (bodyOut2 x0)) -∗ K ⟨⟩))
      ⊢ wp frame (wpE (defs₀ (F := F)) Variants.none c none) E (cc2__peak_kernel i arg1 harg1 arg2 harg2) K := by
  simp only [cc2__peak_kernel_eq_skeleton]; unfold cc2__peak_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (storeCovers2 _)

/-- The proof data of pipeline 2 on core c: the arrays as the region finds them; after the body at point t the input
    window's buffer still at its block and the output window's at bodyOut of that block; the invariant is the
    scoped rest and the generator register, untouched; nothing owed; full shares. -/
def regionDat2 (c : Dev nD) : Dat τ (Elt F) Unit ℕ (UR sig nD τ) ℕ cfg2 c where
  A w := V c (Pipeline.arrRef spec2 w)
  after w t := match w with
    | ⟨0, _⟩ => blockAt2 V c 0 t
    | ⟨1, _⟩ => bodyOut2 (blockAt2 V c 0 t)
  Φ _ := Pipeline.ΦA spec2 c
  q _ := fullShare
  owed _ := 0

theorem regionDat2_A (c : Dev nD) (w : Fin cfg2.W) : (regionDat2 V c).A w = V c (Pipeline.arrRef spec2 w) := by
  dsimp only [regionDat2]
theorem regionDat2_after_in (c : Dev nD) (t : Fin cfg2.N) : (regionDat2 V c).after 0 t = blockAt2 V c 0 t := by dsimp only [regionDat2]
theorem regionDat2_after_out (c : Dev nD) (t : Fin cfg2.N) : (regionDat2 V c).after 1 t = bodyOut2 (blockAt2 V c 0 t) := by dsimp only [regionDat2]
theorem regionDat2_before_in (c : Dev nD) (t : Fin cfg2.N) (d) : (regionDat2 V c).before 0 t d = blockAt2 V c 0 t :=
  inputHeld2 V (regionDat2 V c) (regionDat2_A V c 0) (regionDat2_after_in V c) t d

/-- What the body is called with at point t: the invariant, the core's dues, and the two current staging buffers. -/
def pointPre2 (c : Dev nD) (t : Fin cfg2.N) : sProp 𝕄 :=
  iprop((regionDat2 V c).Φ t.castSucc ∗ (regionDat2 V c).owesAt () t.castSucc
    ∗ (∃ d, owns (c : Thread nD τ) (st2_0 t) fullShare ((regionDat2 V c).before 0 t d))
    ∗ (∃ d, owns (c : Thread nD τ) (st2_1 t) fullShare ((regionDat2 V c).before 1 t d)))

/-- What it returns. -/
def pointPost2 (c : Dev nD) (t : Fin cfg2.N) : sProp 𝕄 :=
  iprop((regionDat2 V c).Φ t.succ ∗ (regionDat2 V c).owesAt () t.succ
    ∗ owns (c : Thread nD τ) (st2_0 t) fullShare ((regionDat2 V c).after 0 t)
    ∗ owns (c : Thread nD τ) (st2_1 t) fullShare ((regionDat2 V c).after 1 t))

/-- The body at any point: the input's buffer holds its block, so bodyRuns applies; the invariant and the dues pass
    through unread. -/
theorem pointRuns2 (c : Dev nD) (t : Fin cfg2.N) :
    pointPre2 V c t ⊢ wp frame (wpE (defs₀ (F := F)) Variants.none c none) Set.univ (bodyAt2 t) (fun _ => pointPost2 V c t) := by
  unfold pointPre2 pointPost2 bodyAt2
  simp only [regionDat2_before_in]
  rw [show (regionDat2 V c).Φ t.succ = (regionDat2 V c).Φ t.castSucc from rfl,
    show (regionDat2 V c).owesAt () t.succ = (regionDat2 V c).owesAt () t.castSucc from rfl,
    regionDat2_after_in, regionDat2_after_out]
  iintro ⟨HΦ, Ho, ⟨%d0, H0⟩, ⟨%d1, H1⟩⟩
  iapply (bodyRuns2 c Set.univ _ _ _ _ _ (blockAt2 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The pipeline's body obligation, at every point. -/
theorem obligation2 (c : Dev nD) : BodyObligation (regionDat2 (F := F) V c) (defs₀ (F := F)) Variants.none () Set.univ := fun t => by
  rw [bigSep_W2, bigSep_W2]
  exact pointRuns2 V c t

end Cert.KernelIdeal.Hand

end
-- ==== Proof.KIBody3.lean ====
/-
  Region 3 of the program: the kernel body of pallas_call 3 at one grid point, and the pipeline's proof data.

  The body loads its whole input block (a [64, 80, 16, 16] slab of the level's array), reads its output staging buffer
  once without using what it read, and stores one value over the whole output block: the body's arithmetic of the
  input block. So after the body the input buffer is as it was and the output buffer holds that value, whatever it
  held before. Everything here is stated at the contents V the region finds in the TensorCore's buffers.
-/
import proofs.«137573_j63891933495891_1_alg».proof.Proof.Gen.KernelIdeal.Launch
import proofs.«137573_j63891933495891_1_alg».proof.Proof.Gen.KernelIdeal.Skeleton
import proofs.«137573_j63891933495891_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window w's array that grid point t works on, read off the array as the region finds it. -/
def blockAt3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The input window's staging buffer holds the point's block of the input array at every point, for any proof data
    over V's arrays whose body leaves the input block in place. -/
theorem inputHeld3 {c : Dev nD} (dat : Dat τ (Elt F) Unit ℕ (UR sig nD τ) ℕ cfg3 c) (hA : dat.A 0 = V c (Pipeline.arrRef spec3 0))
    (hafter : ∀ t, dat.after 0 t = blockAt3 V c 0 t) (t : Fin cfg3.N) (d) : dat.before 0 t d = blockAt3 V c 0 t :=
  (dat.before_in_eq_fetched 0 rfl (fun _ => rfl) (fun _ _ _ => rfl) (fun t => by rw [hafter]; unfold Dat.blockOf blockAt3; rw [hA]; try rfl) t d).trans
    (by unfold Dat.fetched Dat.blockOf blockAt3; rw [hA]; try rfl)

/-- The whole input block and the whole output block as rectangles. -/
abbrev inRect3 : Rect S64x80x16x16 := Rect.unit (s := S64x80x16x16) ![0, 0, 0, 0] S64x80x16x16.size inb_S64x80x16x16_S64x80x16x16_0_0_0_0
abbrev outRect3 : Rect S64x256x80 := Rect.unit (s := S64x256x80) ![0, 0, 0] S64x256x80.size inb_S64x256x80_S64x256x80_0_0_0

/-- What the body leaves in the output buffer: its one store, over the whole block, of the body's arithmetic of the
    loaded input block. -/
def bodyOut3 (x0 : Vec F S64x80x16x16 .f32) : Vec F S64x256x80 .f32 :=
  View.canon [⟨outRect3, k3_pay1 (View.ld x0 inRect3)⟩]

/-- The one store covers the output block. -/
theorem storeCovers3 (p0 : Vec F S64x256x80 .f32) (y : S64x256x80.Idx) :
    ∃ pc ∈ ([⟨outRect3, p0⟩] : List (View.Piece (Elt F) S64x256x80 .f32)), y ∈ pc.1.set :=
  View.cover_of_tiled [⟨outRect3, p0⟩] S64x256x80.size (by rfl) y

set_option maxHeartbeats 1000000 in
/-- The body on whole staging memrefs, the input's at contents x0 and the output's at anything: it runs to its
    continuation with the input's contents unchanged and the output's at bodyOut of x0. -/
theorem bodyRuns3 (c : Dev nD) (E : Set ℕ) (i : grid3.Coords) (arg1 : Memref sig .tc .vmem S64x80x16x16 .f32) (harg1 : arg1.IsWhole) (arg2 : Memref sig .tc .vmem S64x256x80 .f32) (harg2 : arg2.IsWhole)
    (x0 : Vec F S64x80x16x16 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (bodyOut3 x0)) -∗ K ⟨⟩))
      ⊢ wp frame (wpE (defs₀ (F := F)) Variants.none c none) E (cc3__peak_kernel i arg1 harg1 arg2 harg2) K := by
  simp only [cc3__peak_kernel_eq_skeleton]; unfold cc3__peak_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (storeCovers3 _)

/-- The proof data of pipeline 3 on core c: the arrays as the region finds them; after the body at point t the input
    window's buffer still at its block and the output window's at bodyOut of that block; the invariant is the
    scoped rest and the generator register, untouched; nothing owed; full shares. -/
def regionDat3 (c : Dev nD) : Dat τ (Elt F) Unit ℕ (UR sig nD τ) ℕ cfg3 c where
  A w := V c (Pipeline.arrRef spec3 w)
  after w t := match w with
    | ⟨0, _⟩ => blockAt3 V c 0 t
    | ⟨1, _⟩ => bodyOut3 (blockAt3 V c 0 t)
  Φ _ := Pipeline.ΦA spec3 c
  q _ := fullShare
  owed _ := 0

theorem regionDat3_A (c : Dev nD) (w : Fin cfg3.W) : (regionDat3 V c).A w = V c (Pipeline.arrRef spec3 w) := by
  dsimp only [regionDat3]
theorem regionDat3_after_in (c : Dev nD) (t : Fin cfg3.N) : (regionDat3 V c).after 0 t = blockAt3 V c 0 t := by dsimp only [regionDat3]
theorem regionDat3_after_out (c : Dev nD) (t : Fin cfg3.N) : (regionDat3 V c).after 1 t = bodyOut3 (blockAt3 V c 0 t) := by dsimp only [regionDat3]
theorem regionDat3_before_in (c : Dev nD) (t : Fin cfg3.N) (d) : (regionDat3 V c).before 0 t d = blockAt3 V c 0 t :=
  inputHeld3 V (regionDat3 V c) (regionDat3_A V c 0) (regionDat3_after_in V c) t d

/-- What the body is called with at point t: the invariant, the core's dues, and the two current staging buffers. -/
def pointPre3 (c : Dev nD) (t : Fin cfg3.N) : sProp 𝕄 :=
  iprop((regionDat3 V c).Φ t.castSucc ∗ (regionDat3 V c).owesAt () t.castSucc
    ∗ (∃ d, owns (c : Thread nD τ) (st3_0 t) fullShare ((regionDat3 V c).before 0 t d))
    ∗ (∃ d, owns (c : Thread nD τ) (st3_1 t) fullShare ((regionDat3 V c).before 1 t d)))

/-- What it returns. -/
def pointPost3 (c : Dev nD) (t : Fin cfg3.N) : sProp 𝕄 :=
  iprop((regionDat3 V c).Φ t.succ ∗ (regionDat3 V c).owesAt () t.succ
    ∗ owns (c : Thread nD τ) (st3_0 t) fullShare ((regionDat3 V c).after 0 t)
    ∗ owns (c : Thread nD τ) (st3_1 t) fullShare ((regionDat3 V c).after 1 t))

/-- The body at any point: the input's buffer holds its block, so bodyRuns applies; the invariant and the dues pass
    through unread. -/
theorem pointRuns3 (c : Dev nD) (t : Fin cfg3.N) :
    pointPre3 V c t ⊢ wp frame (wpE (defs₀ (F := F)) Variants.none c none) Set.univ (bodyAt3 t) (fun _ => pointPost3 V c t) := by
  unfold pointPre3 pointPost3 bodyAt3
  simp only [regionDat3_before_in]
  rw [show (regionDat3 V c).Φ t.succ = (regionDat3 V c).Φ t.castSucc from rfl,
    show (regionDat3 V c).owesAt () t.succ = (regionDat3 V c).owesAt () t.castSucc from rfl,
    regionDat3_after_in, regionDat3_after_out]
  iintro ⟨HΦ, Ho, ⟨%d0, H0⟩, ⟨%d1, H1⟩⟩
  iapply (bodyRuns3 c Set.univ _ _ _ _ _ (blockAt3 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The pipeline's body obligation, at every point. -/
theorem obligation3 (c : Dev nD) : BodyObligation (regionDat3 (F := F) V c) (defs₀ (F := F)) Variants.none () Set.univ := fun t => by
  rw [bigSep_W3, bigSep_W3]
  exact pointRuns3 V c t

end Cert.KernelIdeal.Hand

end
-- ==== Proof.KIBody4.lean ====
/-
  Region 4 of the program: the kernel body of pallas_call 4 at one grid point, and the pipeline's proof data.

  The body loads its whole input block (a [64, 80, 12, 12] slab of the level's array), reads its output staging buffer
  once without using what it read, and stores one value over the whole output block: the body's arithmetic of the
  input block. So after the body the input buffer is as it was and the output buffer holds that value, whatever it
  held before. Everything here is stated at the contents V the region finds in the TensorCore's buffers.
-/
import proofs.«137573_j63891933495891_1_alg».proof.Proof.Gen.KernelIdeal.Launch
import proofs.«137573_j63891933495891_1_alg».proof.Proof.Gen.KernelIdeal.Skeleton
import proofs.«137573_j63891933495891_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window w's array that grid point t works on, read off the array as the region finds it. -/
def blockAt4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The input window's staging buffer holds the point's block of the input array at every point, for any proof data
    over V's arrays whose body leaves the input block in place. -/
theorem inputHeld4 {c : Dev nD} (dat : Dat τ (Elt F) Unit ℕ (UR sig nD τ) ℕ cfg4 c) (hA : dat.A 0 = V c (Pipeline.arrRef spec4 0))
    (hafter : ∀ t, dat.after 0 t = blockAt4 V c 0 t) (t : Fin cfg4.N) (d) : dat.before 0 t d = blockAt4 V c 0 t :=
  (dat.before_in_eq_fetched 0 rfl (fun _ => rfl) (fun _ _ _ => rfl) (fun t => by rw [hafter]; unfold Dat.blockOf blockAt4; rw [hA]; try rfl) t d).trans
    (by unfold Dat.fetched Dat.blockOf blockAt4; rw [hA]; try rfl)

/-- The whole input block and the whole output block as rectangles. -/
abbrev inRect4 : Rect S64x80x12x12 := Rect.unit (s := S64x80x12x12) ![0, 0, 0, 0] S64x80x12x12.size inb_S64x80x12x12_S64x80x12x12_0_0_0_0
abbrev outRect4 : Rect S64x144x80 := Rect.unit (s := S64x144x80) ![0, 0, 0] S64x144x80.size inb_S64x144x80_S64x144x80_0_0_0

/-- What the body leaves in the output buffer: its one store, over the whole block, of the body's arithmetic of the
    loaded input block. -/
def bodyOut4 (x0 : Vec F S64x80x12x12 .f32) : Vec F S64x144x80 .f32 :=
  View.canon [⟨outRect4, k4_pay1 (View.ld x0 inRect4)⟩]

/-- The one store covers the output block. -/
theorem storeCovers4 (p0 : Vec F S64x144x80 .f32) (y : S64x144x80.Idx) :
    ∃ pc ∈ ([⟨outRect4, p0⟩] : List (View.Piece (Elt F) S64x144x80 .f32)), y ∈ pc.1.set :=
  View.cover_of_tiled [⟨outRect4, p0⟩] S64x144x80.size (by rfl) y

set_option maxHeartbeats 1000000 in
/-- The body on whole staging memrefs, the input's at contents x0 and the output's at anything: it runs to its
    continuation with the input's contents unchanged and the output's at bodyOut of x0. -/
theorem bodyRuns4 (c : Dev nD) (E : Set ℕ) (i : grid4.Coords) (arg1 : Memref sig .tc .vmem S64x80x12x12 .f32) (harg1 : arg1.IsWhole) (arg2 : Memref sig .tc .vmem S64x144x80 .f32) (harg2 : arg2.IsWhole)
    (x0 : Vec F S64x80x12x12 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (bodyOut4 x0)) -∗ K ⟨⟩))
      ⊢ wp frame (wpE (defs₀ (F := F)) Variants.none c none) E (cc4__peak_kernel i arg1 harg1 arg2 harg2) K := by
  simp only [cc4__peak_kernel_eq_skeleton]; unfold cc4__peak_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (storeCovers4 _)

/-- The proof data of pipeline 4 on core c: the arrays as the region finds them; after the body at point t the input
    window's buffer still at its block and the output window's at bodyOut of that block; the invariant is the
    scoped rest and the generator register, untouched; nothing owed; full shares. -/
def regionDat4 (c : Dev nD) : Dat τ (Elt F) Unit ℕ (UR sig nD τ) ℕ cfg4 c where
  A w := V c (Pipeline.arrRef spec4 w)
  after w t := match w with
    | ⟨0, _⟩ => blockAt4 V c 0 t
    | ⟨1, _⟩ => bodyOut4 (blockAt4 V c 0 t)
  Φ _ := Pipeline.ΦA spec4 c
  q _ := fullShare
  owed _ := 0

theorem regionDat4_A (c : Dev nD) (w : Fin cfg4.W) : (regionDat4 V c).A w = V c (Pipeline.arrRef spec4 w) := by
  dsimp only [regionDat4]
theorem regionDat4_after_in (c : Dev nD) (t : Fin cfg4.N) : (regionDat4 V c).after 0 t = blockAt4 V c 0 t := by dsimp only [regionDat4]
theorem regionDat4_after_out (c : Dev nD) (t : Fin cfg4.N) : (regionDat4 V c).after 1 t = bodyOut4 (blockAt4 V c 0 t) := by dsimp only [regionDat4]
theorem regionDat4_before_in (c : Dev nD) (t : Fin cfg4.N) (d) : (regionDat4 V c).before 0 t d = blockAt4 V c 0 t :=
  inputHeld4 V (regionDat4 V c) (regionDat4_A V c 0) (regionDat4_after_in V c) t d

/-- What the body is called with at point t: the invariant, the core's dues, and the two current staging buffers. -/
def pointPre4 (c : Dev nD) (t : Fin cfg4.N) : sProp 𝕄 :=
  iprop((regionDat4 V c).Φ t.castSucc ∗ (regionDat4 V c).owesAt () t.castSucc
    ∗ (∃ d, owns (c : Thread nD τ) (st4_0 t) fullShare ((regionDat4 V c).before 0 t d))
    ∗ (∃ d, owns (c : Thread nD τ) (st4_1 t) fullShare ((regionDat4 V c).before 1 t d)))

/-- What it returns. -/
def pointPost4 (c : Dev nD) (t : Fin cfg4.N) : sProp 𝕄 :=
  iprop((regionDat4 V c).Φ t.succ ∗ (regionDat4 V c).owesAt () t.succ
    ∗ owns (c : Thread nD τ) (st4_0 t) fullShare ((regionDat4 V c).after 0 t)
    ∗ owns (c : Thread nD τ) (st4_1 t) fullShare ((regionDat4 V c).after 1 t))

/-- The body at any point: the input's buffer holds its block, so bodyRuns applies; the invariant and the dues pass
    through unread. -/
theorem pointRuns4 (c : Dev nD) (t : Fin cfg4.N) :
    pointPre4 V c t ⊢ wp frame (wpE (defs₀ (F := F)) Variants.none c none) Set.univ (bodyAt4 t) (fun _ => pointPost4 V c t) := by
  unfold pointPre4 pointPost4 bodyAt4
  simp only [regionDat4_before_in]
  rw [show (regionDat4 V c).Φ t.succ = (regionDat4 V c).Φ t.castSucc from rfl,
    show (regionDat4 V c).owesAt () t.succ = (regionDat4 V c).owesAt () t.castSucc from rfl,
    regionDat4_after_in, regionDat4_after_out]
  iintro ⟨HΦ, Ho, ⟨%d0, H0⟩, ⟨%d1, H1⟩⟩
  iapply (bodyRuns4 c Set.univ _ _ _ _ _ (blockAt4 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The pipeline's body obligation, at every point. -/
theorem obligation4 (c : Dev nD) : BodyObligation (regionDat4 (F := F) V c) (defs₀ (F := F)) Variants.none () Set.univ := fun t => by
  rw [bigSep_W4, bigSep_W4]
  exact pointRuns4 V c t

end Cert.KernelIdeal.Hand

end
-- ==== Proof.KIRun.lean ====
/-
  The whole program as a run: five kernel regions, one after the other, then the host's concatenation.

  Between two items every unscoped buffer of the TensorCore is held whole at known contents: at launch the
  memory's; after region k the same except that region k's output array holds what the pipeline's write-backs
  leave there (its input array is read, never written); after the last item the concatenation's result buffer
  holds the five output arrays joined. The run ends with every unscoped buffer at these last contents, from which
  the frame (each argument array as launched) and the result's value are read off.
-/
import proofs.«137573_j63891933495891_1_alg».proof.Proof.Gen.KernelIdeal.Launch
import proofs.«137573_j63891933495891_1_alg».proof.Proof.Gen.KernelIdeal.Skeleton
import proofs.«137573_j63891933495891_1_alg».proof.Proof.Gen.KernelIdeal.Points
import proofs.«137573_j63891933495891_1_alg».proof.Proof.KIBody0
import proofs.«137573_j63891933495891_1_alg».proof.Proof.KIBody1
import proofs.«137573_j63891933495891_1_alg».proof.Proof.KIBody2
import proofs.«137573_j63891933495891_1_alg».proof.Proof.KIBody3
import proofs.«137573_j63891933495891_1_alg».proof.Proof.KIBody4
import proofs.«137573_j63891933495891_1_alg».proof.Proof.Gen.KernelIdeal.Regions
import proofs.«137573_j63891933495891_1_alg».proof.Proof.LibConcatFive
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev X0 : Dev nD → Valuation τ sig (Elt F) := fun c b => m (c, b)
/-- The same read at the TensorCore's references (what region 0's proof data take). -/
abbrev E0 : (c : Dev nD) → (b : Ref sig .tc) → Buf (Elt F) ((c : Thread nD τ).loc b) := fun c b => X0 m c b

/-- After region 0: its arrays at what the pipeline leaves, every other buffer as it was. -/
def X1 (c : Dev nD) : Valuation τ sig (Elt F) :=
  Pipeline.withArrays spec0 c (X0 m c) fun w => (regionDat0 (E0 m) c).arrAt w cfg0.N
theorem X1_arr (c : Dev nD) (w : Fin cfg0.W) :
    X1 m c (Proc.devRef .tc (Pipeline.arrRef spec0 w)) = (regionDat0 (E0 m) c).arrAt w cfg0.N := by
  unfold X1; exact Pipeline.withArrays_arr spec0 launch0.win.arr_inj c _ _ w
theorem X1_of_ne (c : Dev nD) (b : Ref sig .tc) (hb : ∀ w, Pipeline.arrRef spec0 w ≠ b) :
    X1 m c (Proc.devRef .tc b) = X0 m c (Proc.devRef .tc b) := by
  unfold X1; exact Pipeline.withArrays_of_ne spec0 c _ _ b hb
abbrev E1 : (c : Dev nD) → (b : Ref sig .tc) → Buf (Elt F) ((c : Thread nD τ).loc b) := fun c b => X1 m c b
theorem exitArr0 (c : Dev nD) (w : Fin cfg0.W) : (regionDat0 (E0 m) c).arrAt w cfg0.N = E1 m c (Pipeline.arrRef spec0 w) :=
  (X1_arr m c w).symm
theorem exitRest0 (c : Dev nD) : ∀ b, b ∉ Finset.univ.image (Pipeline.arrRef spec0) → E1 m c b = E0 m c b :=
  fun b hb => X1_of_ne m c b fun w e => hb (Finset.mem_image.mpr ⟨w, Finset.mem_univ _, e⟩)

/-- After region 1: its arrays at what the pipeline leaves, every other buffer as it was. -/
def X2 (c : Dev nD) : Valuation τ sig (Elt F) :=
  Pipeline.withArrays spec1 c (X1 m c) fun w => (regionDat1 (E1 m) c).arrAt w cfg1.N
theorem X2_arr (c : Dev nD) (w : Fin cfg1.W) :
    X2 m c (Proc.devRef .tc (Pipeline.arrRef spec1 w)) = (regionDat1 (E1 m) c).arrAt w cfg1.N := by
  unfold X2; exact Pipeline.withArrays_arr spec1 launch1.win.arr_inj c _ _ w
theorem X2_of_ne (c : Dev nD) (b : Ref sig .tc) (hb : ∀ w, Pipeline.arrRef spec1 w ≠ b) :
    X2 m c (Proc.devRef .tc b) = X1 m c (Proc.devRef .tc b) := by
  unfold X2; exact Pipeline.withArrays_of_ne spec1 c _ _ b hb
abbrev E2 : (c : Dev nD) → (b : Ref sig .tc) → Buf (Elt F) ((c : Thread nD τ).loc b) := fun c b => X2 m c b
theorem exitArr1 (c : Dev nD) (w : Fin cfg1.W) : (regionDat1 (E1 m) c).arrAt w cfg1.N = E2 m c (Pipeline.arrRef spec1 w) :=
  (X2_arr m c w).symm
theorem exitRest1 (c : Dev nD) : ∀ b, b ∉ Finset.univ.image (Pipeline.arrRef spec1) → E2 m c b = E1 m c b :=
  fun b hb => X2_of_ne m c b fun w e => hb (Finset.mem_image.mpr ⟨w, Finset.mem_univ _, e⟩)

/-- After region 2: its arrays at what the pipeline leaves, every other buffer as it was. -/
def X3 (c : Dev nD) : Valuation τ sig (Elt F) :=
  Pipeline.withArrays spec2 c (X2 m c) fun w => (regionDat2 (E2 m) c).arrAt w cfg2.N
theorem X3_arr (c : Dev nD) (w : Fin cfg2.W) :
    X3 m c (Proc.devRef .tc (Pipeline.arrRef spec2 w)) = (regionDat2 (E2 m) c).arrAt w cfg2.N := by
  unfold X3; exact Pipeline.withArrays_arr spec2 launch2.win.arr_inj c _ _ w
theorem X3_of_ne (c : Dev nD) (b : Ref sig .tc) (hb : ∀ w, Pipeline.arrRef spec2 w ≠ b) :
    X3 m c (Proc.devRef .tc b) = X2 m c (Proc.devRef .tc b) := by
  unfold X3; exact Pipeline.withArrays_of_ne spec2 c _ _ b hb
abbrev E3 : (c : Dev nD) → (b : Ref sig .tc) → Buf (Elt F) ((c : Thread nD τ).loc b) := fun c b => X3 m c b
theorem exitArr2 (c : Dev nD) (w : Fin cfg2.W) : (regionDat2 (E2 m) c).arrAt w cfg2.N = E3 m c (Pipeline.arrRef spec2 w) :=
  (X3_arr m c w).symm
theorem exitRest2 (c : Dev nD) : ∀ b, b ∉ Finset.univ.image (Pipeline.arrRef spec2) → E3 m c b = E2 m c b :=
  fun b hb => X3_of_ne m c b fun w e => hb (Finset.mem_image.mpr ⟨w, Finset.mem_univ _, e⟩)

/-- After region 3: its arrays at what the pipeline leaves, every other buffer as it was. -/
def X4 (c : Dev nD) : Valuation τ sig (Elt F) :=
  Pipeline.withArrays spec3 c (X3 m c) fun w => (regionDat3 (E3 m) c).arrAt w cfg3.N
theorem X4_arr (c : Dev nD) (w : Fin cfg3.W) :
    X4 m c (Proc.devRef .tc (Pipeline.arrRef spec3 w)) = (regionDat3 (E3 m) c).arrAt w cfg3.N := by
  unfold X4; exact Pipeline.withArrays_arr spec3 launch3.win.arr_inj c _ _ w
theorem X4_of_ne (c : Dev nD) (b : Ref sig .tc) (hb : ∀ w, Pipeline.arrRef spec3 w ≠ b) :
    X4 m c (Proc.devRef .tc b) = X3 m c (Proc.devRef .tc b) := by
  unfold X4; exact Pipeline.withArrays_of_ne spec3 c _ _ b hb
abbrev E4 : (c : Dev nD) → (b : Ref sig .tc) → Buf (Elt F) ((c : Thread nD τ).loc b) := fun c b => X4 m c b
theorem exitArr3 (c : Dev nD) (w : Fin cfg3.W) : (regionDat3 (E3 m) c).arrAt w cfg3.N = E4 m c (Pipeline.arrRef spec3 w) :=
  (X4_arr m c w).symm
theorem exitRest3 (c : Dev nD) : ∀ b, b ∉ Finset.univ.image (Pipeline.arrRef spec3) → E4 m c b = E3 m c b :=
  fun b hb => X4_of_ne m c b fun w e => hb (Finset.mem_image.mpr ⟨w, Finset.mem_univ _, e⟩)

/-- After region 4: its arrays at what the pipeline leaves, every other buffer as it was. -/
def X5 (c : Dev nD) : Valuation τ sig (Elt F) :=
  Pipeline.withArrays spec4 c (X4 m c) fun w => (regionDat4 (E4 m) c).arrAt w cfg4.N
theorem X5_arr (c : Dev nD) (w : Fin cfg4.W) :
    X5 m c (Proc.devRef .tc (Pipeline.arrRef spec4 w)) = (regionDat4 (E4 m) c).arrAt w cfg4.N := by
  unfold X5; exact Pipeline.withArrays_arr spec4 launch4.win.arr_inj c _ _ w
theorem X5_of_ne (c : Dev nD) (b : Ref sig .tc) (hb : ∀ w, Pipeline.arrRef spec4 w ≠ b) :
    X5 m c (Proc.devRef .tc b) = X4 m c (Proc.devRef .tc b) := by
  unfold X5; exact Pipeline.withArrays_of_ne spec4 c _ _ b hb
abbrev E5 : (c : Dev nD) → (b : Ref sig .tc) → Buf (Elt F) ((c : Thread nD τ).loc b) := fun c b => X5 m c b
theorem exitArr4 (c : Dev nD) (w : Fin cfg4.W) : (regionDat4 (E4 m) c).arrAt w cfg4.N = E5 m c (Pipeline.arrRef spec4 w) :=
  (X5_arr m c w).symm
theorem exitRest4 (c : Dev nD) : ∀ b, b ∉ Finset.univ.image (Pipeline.arrRef spec4) → E5 m c b = E4 m c b :=
  fun b hb => X5_of_ne m c b fun w e => hb (Finset.mem_image.mpr ⟨w, Finset.mem_univ _, e⟩)

/-- After the concatenation. -/
abbrev X6 : Dev nD → Valuation τ sig (Elt F) := fun c => StableHlo.after hostOps5 (X5 m c)

/-! ## Each argument array reaches the end as launched

No region writes an argument (a region reads its own through an input window and passes the others by), and the
concatenation writes only its result. -/
theorem X6_main_arg0 (c : Dev nD) : X6 m c (Proc.devRef .tc main_arg0) = m ((c : Thread nD τ).loc main_arg0) :=
  calc X6 m c (Proc.devRef .tc main_arg0)
    _ = X5 m c (Proc.devRef .tc main_arg0) := StableHlo.after_of_writes_sub hostOps5 _ hostOps5_writes (by decide)
    _ = X4 m c (Proc.devRef .tc main_arg0) := X5_of_ne m c main_arg0 (by decide)
    _ = X3 m c (Proc.devRef .tc main_arg0) := X4_of_ne m c main_arg0 (by decide)
    _ = X2 m c (Proc.devRef .tc main_arg0) := X3_of_ne m c main_arg0 (by decide)
    _ = X1 m c (Proc.devRef .tc main_arg0) := X2_of_ne m c main_arg0 (by decide)
    _ = X0 m c (Proc.devRef .tc main_arg0) := (X1_arr m c 0).trans (((regionDat0 (E0 m) c).arrAt_in 0 rfl _).trans (regionDat0_A (E0 m) c 0))
    _ = m ((c : Thread nD τ).loc main_arg0) := rfl

/-- Region 0 finds its input array as launched. -/
theorem E0_main_arg0 (c : Dev nD) : E0 m c main_arg0 = m ((c : Thread nD τ).loc main_arg0) :=
  calc E0 m c main_arg0
    _ = X0 m c (Proc.devRef .tc main_arg0) := rfl
    _ = m ((c : Thread nD τ).loc main_arg0) := rfl

theorem X6_main_arg1 (c : Dev nD) : X6 m c (Proc.devRef .tc main_arg1) = m ((c : Thread nD τ).loc main_arg1) :=
  calc X6 m c (Proc.devRef .tc main_arg1)
    _ = X5 m c (Proc.devRef .tc main_arg1) := StableHlo.after_of_writes_sub hostOps5 _ hostOps5_writes (by decide)
    _ = X4 m c (Proc.devRef .tc main_arg1) := X5_of_ne m c main_arg1 (by decide)
    _ = X3 m c (Proc.devRef .tc main_arg1) := X4_of_ne m c main_arg1 (by decide)
    _ = X2 m c (Proc.devRef .tc main_arg1) := X3_of_ne m c main_arg1 (by decide)
    _ = X1 m c (Proc.devRef .tc main_arg1) := (X2_arr m c 0).trans (((regionDat1 (E1 m) c).arrAt_in 0 rfl _).trans (regionDat1_A (E1 m) c 0))
    _ = X0 m c (Proc.devRef .tc main_arg1) := X1_of_ne m c main_arg1 (by decide)
    _ = m ((c : Thread nD τ).loc main_arg1) := rfl

/-- Region 1 finds its input array as launched. -/
theorem E1_main_arg1 (c : Dev nD) : E1 m c main_arg1 = m ((c : Thread nD τ).loc main_arg1) :=
  calc E1 m c main_arg1
    _ = X1 m c (Proc.devRef .tc main_arg1) := rfl
    _ = X0 m c (Proc.devRef .tc main_arg1) := X1_of_ne m c main_arg1 (by decide)
    _ = m ((c : Thread nD τ).loc main_arg1) := rfl

theorem X6_main_arg2 (c : Dev nD) : X6 m c (Proc.devRef .tc main_arg2) = m ((c : Thread nD τ).loc main_arg2) :=
  calc X6 m c (Proc.devRef .tc main_arg2)
    _ = X5 m c (Proc.devRef .tc main_arg2) := StableHlo.after_of_writes_sub hostOps5 _ hostOps5_writes (by decide)
    _ = X4 m c (Proc.devRef .tc main_arg2) := X5_of_ne m c main_arg2 (by decide)
    _ = X3 m c (Proc.devRef .tc main_arg2) := X4_of_ne m c main_arg2 (by decide)
    _ = X2 m c (Proc.devRef .tc main_arg2) := (X3_arr m c 0).trans (((regionDat2 (E2 m) c).arrAt_in 0 rfl _).trans (regionDat2_A (E2 m) c 0))
    _ = X1 m c (Proc.devRef .tc main_arg2) := X2_of_ne m c main_arg2 (by decide)
    _ = X0 m c (Proc.devRef .tc main_arg2) := X1_of_ne m c main_arg2 (by decide)
    _ = m ((c : Thread nD τ).loc main_arg2) := rfl

/-- Region 2 finds its input array as launched. -/
theorem E2_main_arg2 (c : Dev nD) : E2 m c main_arg2 = m ((c : Thread nD τ).loc main_arg2) :=
  calc E2 m c main_arg2
    _ = X2 m c (Proc.devRef .tc main_arg2) := rfl
    _ = X1 m c (Proc.devRef .tc main_arg2) := X2_of_ne m c main_arg2 (by decide)
    _ = X0 m c (Proc.devRef .tc main_arg2) := X1_of_ne m c main_arg2 (by decide)
    _ = m ((c : Thread nD τ).loc main_arg2) := rfl

theorem X6_main_arg3 (c : Dev nD) : X6 m c (Proc.devRef .tc main_arg3) = m ((c : Thread nD τ).loc main_arg3) :=
  calc X6 m c (Proc.devRef .tc main_arg3)
    _ = X5 m c (Proc.devRef .tc main_arg3) := StableHlo.after_of_writes_sub hostOps5 _ hostOps5_writes (by decide)
    _ = X4 m c (Proc.devRef .tc main_arg3) := X5_of_ne m c main_arg3 (by decide)
    _ = X3 m c (Proc.devRef .tc main_arg3) := (X4_arr m c 0).trans (((regionDat3 (E3 m) c).arrAt_in 0 rfl _).trans (regionDat3_A (E3 m) c 0))
    _ = X2 m c (Proc.devRef .tc main_arg3) := X3_of_ne m c main_arg3 (by decide)
    _ = X1 m c (Proc.devRef .tc main_arg3) := X2_of_ne m c main_arg3 (by decide)
    _ = X0 m c (Proc.devRef .tc main_arg3) := X1_of_ne m c main_arg3 (by decide)
    _ = m ((c : Thread nD τ).loc main_arg3) := rfl

/-- Region 3 finds its input array as launched. -/
theorem E3_main_arg3 (c : Dev nD) : E3 m c main_arg3 = m ((c : Thread nD τ).loc main_arg3) :=
  calc E3 m c main_arg3
    _ = X3 m c (Proc.devRef .tc main_arg3) := rfl
    _ = X2 m c (Proc.devRef .tc main_arg3) := X3_of_ne m c main_arg3 (by decide)
    _ = X1 m c (Proc.devRef .tc main_arg3) := X2_of_ne m c main_arg3 (by decide)
    _ = X0 m c (Proc.devRef .tc main_arg3) := X1_of_ne m c main_arg3 (by decide)
    _ = m ((c : Thread nD τ).loc main_arg3) := rfl

theorem X6_main_arg4 (c : Dev nD) : X6 m c (Proc.devRef .tc main_arg4) = m ((c : Thread nD τ).loc main_arg4) :=
  calc X6 m c (Proc.devRef .tc main_arg4)
    _ = X5 m c (Proc.devRef .tc main_arg4) := StableHlo.after_of_writes_sub hostOps5 _ hostOps5_writes (by decide)
    _ = X4 m c (Proc.devRef .tc main_arg4) := (X5_arr m c 0).trans (((regionDat4 (E4 m) c).arrAt_in 0 rfl _).trans (regionDat4_A (E4 m) c 0))
    _ = X3 m c (Proc.devRef .tc main_arg4) := X4_of_ne m c main_arg4 (by decide)
    _ = X2 m c (Proc.devRef .tc main_arg4) := X3_of_ne m c main_arg4 (by decide)
    _ = X1 m c (Proc.devRef .tc main_arg4) := X2_of_ne m c main_arg4 (by decide)
    _ = X0 m c (Proc.devRef .tc main_arg4) := X1_of_ne m c main_arg4 (by decide)
    _ = m ((c : Thread nD τ).loc main_arg4) := rfl

/-- Region 4 finds its input array as launched. -/
theorem E4_main_arg4 (c : Dev nD) : E4 m c main_arg4 = m ((c : Thread nD τ).loc main_arg4) :=
  calc E4 m c main_arg4
    _ = X4 m c (Proc.devRef .tc main_arg4) := rfl
    _ = X3 m c (Proc.devRef .tc main_arg4) := X4_of_ne m c main_arg4 (by decide)
    _ = X2 m c (Proc.devRef .tc main_arg4) := X3_of_ne m c main_arg4 (by decide)
    _ = X1 m c (Proc.devRef .tc main_arg4) := X2_of_ne m c main_arg4 (by decide)
    _ = X0 m c (Proc.devRef .tc main_arg4) := X1_of_ne m c main_arg4 (by decide)
    _ = m ((c : Thread nD τ).loc main_arg4) := rfl

/-! ## The result buffer at the end: the five output arrays, each as its region left it, joined -/
theorem X5_main_v0 (c : Dev nD) : X5 m c (Proc.devRef .tc main_v0) = (regionDat0 (E0 m) c).arrAt 1 cfg0.N :=
  calc X5 m c (Proc.devRef .tc main_v0)
    _ = X4 m c (Proc.devRef .tc main_v0) := X5_of_ne m c main_v0 (by decide)
    _ = X3 m c (Proc.devRef .tc main_v0) := X4_of_ne m c main_v0 (by decide)
    _ = X2 m c (Proc.devRef .tc main_v0) := X3_of_ne m c main_v0 (by decide)
    _ = X1 m c (Proc.devRef .tc main_v0) := X2_of_ne m c main_v0 (by decide)
    _ = (regionDat0 (E0 m) c).arrAt 1 cfg0.N := X1_arr m c 1

theorem X5_main_v1 (c : Dev nD) : X5 m c (Proc.devRef .tc main_v1) = (regionDat1 (E1 m) c).arrAt 1 cfg1.N :=
  calc X5 m c (Proc.devRef .tc main_v1)
    _ = X4 m c (Proc.devRef .tc main_v1) := X5_of_ne m c main_v1 (by decide)
    _ = X3 m c (Proc.devRef .tc main_v1) := X4_of_ne m c main_v1 (by decide)
    _ = X2 m c (Proc.devRef .tc main_v1) := X3_of_ne m c main_v1 (by decide)
    _ = (regionDat1 (E1 m) c).arrAt 1 cfg1.N := X2_arr m c 1

theorem X5_main_v2 (c : Dev nD) : X5 m c (Proc.devRef .tc main_v2) = (regionDat2 (E2 m) c).arrAt 1 cfg2.N :=
  calc X5 m c (Proc.devRef .tc main_v2)
    _ = X4 m c (Proc.devRef .tc main_v2) := X5_of_ne m c main_v2 (by decide)
    _ = X3 m c (Proc.devRef .tc main_v2) := X4_of_ne m c main_v2 (by decide)
    _ = (regionDat2 (E2 m) c).arrAt 1 cfg2.N := X3_arr m c 1

theorem X5_main_v3 (c : Dev nD) : X5 m c (Proc.devRef .tc main_v3) = (regionDat3 (E3 m) c).arrAt 1 cfg3.N :=
  calc X5 m c (Proc.devRef .tc main_v3)
    _ = X4 m c (Proc.devRef .tc main_v3) := X5_of_ne m c main_v3 (by decide)
    _ = (regionDat3 (E3 m) c).arrAt 1 cfg3.N := X4_arr m c 1

theorem X5_main_v4 (c : Dev nD) : X5 m c (Proc.devRef .tc main_v4) = (regionDat4 (E4 m) c).arrAt 1 cfg4.N :=
  calc X5 m c (Proc.devRef .tc main_v4)
    _ = (regionDat4 (E4 m) c).arrAt 1 cfg4.N := X5_arr m c 1

theorem X6_main_v5 (c : Dev nD) : X6 m c (Proc.devRef .tc main_v5)
    = concatenate S64x3872x80 1 [⟨S64x1600x80, X5 m c (Proc.devRef .tc main_v0)⟩, ⟨S64x1296x80, X5 m c (Proc.devRef .tc main_v1)⟩, ⟨S64x576x80, X5 m c (Proc.devRef .tc main_v2)⟩, ⟨S64x256x80, X5 m c (Proc.devRef .tc main_v3)⟩, ⟨S64x144x80, X5 m c (Proc.devRef .tc main_v4)⟩] concatenates_S64x1600x80_S64x1296x80_S64x576x80_S64x256x80_S64x144x80_S64x3872x80_d1 := by
  show StableHlo.after hostOps5 (X5 m c) (Proc.devRef .tc main_v5) = _
  simp only [hostOps5, StableHlo.after_cons, StableHlo.after_nil]
  rw [Cert.LibConcatFive.nary5_result]
  rfl

/-! ## The proof data family and the thread state -/

/-- The prefetched tables' admissible contents: no pipeline has a table. -/
abbrev noTables : (p : Fin 5) → (pcfgs (F := F) p).Adm := fun p => (cfgs p).toPCfg_adm
/-- Every pipeline's proof data, each at its region's entry contents. -/
def allDats : (p : Fin 5) → (c : Dev nD) → Dat τ (Elt F) Unit ℕ (UR sig nD τ) ℕ (Pipeline.pin (pcfgs (F := F)) noTables p) c
  | ⟨0, _⟩ => fun c => regionDat0 (E0 m) c
  | ⟨1, _⟩ => fun c => regionDat1 (E1 m) c
  | ⟨2, _⟩ => fun c => regionDat2 (E2 m) c
  | ⟨3, _⟩ => fun c => regionDat3 (E3 m) c
  | ⟨4, _⟩ => fun c => regionDat4 (E4 m) c
abbrev noVariants : Variants := Variants.none
/-- No core owes another anything: no level is assigned. -/
abbrev noPairs : GSem nD τ sig → Finset Unit := fun _ => ∅
abbrev noLevel : GSem nD τ sig → Unit → ℕ := fun _ _ => 0
/-- What rides beside the buffers through every item: the generator register at some state, and nothing owed. -/
abbrev Beside (c : Dev nD) : sProp 𝕄 := iprop((∃ r, prngReg c r) ∗ ∃ W, owes (c : Thread nD τ) (0 : CellTallies nD τ sig Unit) W)
/-- An unscoped TensorCore reference is among those the thread state holds. -/
theorem mem_unscoped (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last contents, the generator register at
    some state. -/
abbrev AtEnd (c : Dev nD) : sProp 𝕄 := iprop(StableHlo.held (c : Thread nD τ) (Pipeline.ucRefs τ sig) (X6 m c) ∗ ∃ r, prngReg c r)

/-- The concatenation as a host segment from the contents after region 4. -/
abbrev joinSeg : Pipeline.HostSeg (Name := ℕ) (U := UR sig nD τ) (pcfgs (F := F)) defs₀ noVariants noPairs noLevel :=
  Pipeline.HostSeg.ofOps _ _ _ _ _ (Pipeline.ucRefs τ sig) hostOps5
    (fun op h => Pipeline.sub_ucRefs op ((List.forall_iff_forall_mem.mp hostOps5_sub) op h))
    (fun op h => (List.forall_iff_forall_mem.mp hostOps5_fresh) op h) (X5 m) Beside

/-! ## The regions as segments -/

set_option backward.isDefEq.respectTransparency.types false in
/-- Region 0: entered with every unscoped buffer at X0, left at X1. Its two arrays are split out of the unscoped
    buffers at entry and put back at the exit contents; the generator register goes into the pipeline's invariant
    and comes back; nothing is owed; the kernel has no semaphore of its own. -/
def regionSeg0 : Pipeline.RegionSeg (pcfgs (F := F)) noTables (allDats m) () defs₀ noVariants noPairs noLevel 0 where
  win := launch0.win.to₀
  block_pos := launch0.block_pos
  stage_whole := launch0.stage_whole
  K := PEmpty
  osem k := k.elim
  ho := Pipeline.OwnSemFacts.none _
  hbody c := (obligation0 (E0 m) c).loose
  hwaits := Pipeline.hwaits_of_owed_zero _ _ _ _ noPairs noLevel 0 fun _ _ => rfl
  pre c := iprop(StableHlo.held (c : Thread nD τ) (Pipeline.ucRefs τ sig) (X0 m c) ∗ Beside c)
  post c := iprop(StableHlo.held (c : Thread nD τ) (Pipeline.ucRefs τ sig) (X1 m c) ∗ Beside c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) noTables (allDats m) launch0.win launch0.arr_whole c
      ((allDats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (allDats m 0 c).Φ 0 = Pipeline.ΦA spec0 c from rfl]; unfold Pipeline.ΦA
    iintro ⟨Hp, -, Hr⟩
    isplitl [Hr]; · iexact Hr
    iexact Hp
  hout c := by
    rw [Pipeline.ownSems0_none, show (allDats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) noTables (Ix := Unit) (Name := ℕ) (U := UR sig nD τ) (Lvl := ℕ)
      launch0.win launch0.arr_whole c (allDats m) ((allDats m 0 c).share_full fun _ => rfl)
      (E0 m c) (E1 m c) ((allDats m 0 c).arrAt · cfg0.N) (exitArr0 m c) (exitRest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered with every unscoped buffer at X1, left at X2. Its two arrays are split out of the unscoped
    buffers at entry and put back at the exit contents; the generator register goes into the pipeline's invariant
    and comes back; nothing is owed; the kernel has no semaphore of its own. -/
def regionSeg1 : Pipeline.RegionSeg (pcfgs (F := F)) noTables (allDats m) () defs₀ noVariants noPairs noLevel 1 where
  win := launch1.win.to₀
  block_pos := launch1.block_pos
  stage_whole := launch1.stage_whole
  K := PEmpty
  osem k := k.elim
  ho := Pipeline.OwnSemFacts.none _
  hbody c := (obligation1 (E1 m) c).loose
  hwaits := Pipeline.hwaits_of_owed_zero _ _ _ _ noPairs noLevel 1 fun _ _ => rfl
  pre c := iprop(StableHlo.held (c : Thread nD τ) (Pipeline.ucRefs τ sig) (X1 m c) ∗ Beside c)
  post c := iprop(StableHlo.held (c : Thread nD τ) (Pipeline.ucRefs τ sig) (X2 m c) ∗ Beside c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := Pipeline.arrays_of_unscopedBufs (p := 1) (pcfgs (F := F)) noTables (allDats m) launch1.win launch1.arr_whole c
      ((allDats m 1 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (allDats m 1 c).Φ 0 = Pipeline.ΦA spec1 c from rfl]; unfold Pipeline.ΦA
    iintro ⟨Hp, -, Hr⟩
    isplitl [Hr]; · iexact Hr
    iexact Hp
  hout c := by
    rw [Pipeline.ownSems0_none, show (allDats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) noTables (Ix := Unit) (Name := ℕ) (U := UR sig nD τ) (Lvl := ℕ)
      launch1.win launch1.arr_whole c (allDats m) ((allDats m 1 c).share_full fun _ => rfl)
      (E1 m c) (E2 m c) ((allDats m 1 c).arrAt · cfg1.N) (exitArr1 m c) (exitRest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2: entered with every unscoped buffer at X2, left at X3. Its two arrays are split out of the unscoped
    buffers at entry and put back at the exit contents; the generator register goes into the pipeline's invariant
    and comes back; nothing is owed; the kernel has no semaphore of its own. -/
def regionSeg2 : Pipeline.RegionSeg (pcfgs (F := F)) noTables (allDats m) () defs₀ noVariants noPairs noLevel 2 where
  win := launch2.win.to₀
  block_pos := launch2.block_pos
  stage_whole := launch2.stage_whole
  K := PEmpty
  osem k := k.elim
  ho := Pipeline.OwnSemFacts.none _
  hbody c := (obligation2 (E2 m) c).loose
  hwaits := Pipeline.hwaits_of_owed_zero _ _ _ _ noPairs noLevel 2 fun _ _ => rfl
  pre c := iprop(StableHlo.held (c : Thread nD τ) (Pipeline.ucRefs τ sig) (X2 m c) ∗ Beside c)
  post c := iprop(StableHlo.held (c : Thread nD τ) (Pipeline.ucRefs τ sig) (X3 m c) ∗ Beside c)
  X c := iprop(∃ r, prngReg c r)
  Y c := iprop(∃ r, prngReg c r)
  Z c := Pipeline.unscopedRest (Ix := Unit) (Name := ℕ) (U := UR sig nD τ) (Lvl := ℕ) spec2 c (E2 m c)
  hentry c := by
    rw [Pipeline.ownSems0_none]
    have hsplit := Pipeline.arrays_of_unscopedBufs (p := 2) (pcfgs (F := F)) noTables (allDats m) launch2.win launch2.arr_whole c
      ((allDats m 2 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (allDats m 2 c).Φ 0 = Pipeline.ΦA spec2 c from rfl]; unfold Pipeline.ΦA
    iintro ⟨Hp, -, Hr⟩
    isplitl [Hr]; · iexact Hr
    iexact Hp
  hout c := by
    rw [Pipeline.ownSems0_none, show (allDats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) noTables (Ix := Unit) (Name := ℕ) (U := UR sig nD τ) (Lvl := ℕ)
      launch2.win launch2.arr_whole c (allDats m) ((allDats m 2 c).share_full fun _ => rfl)
      (E2 m c) (E3 m c) ((allDats m 2 c).arrAt · cfg2.N) (exitArr2 m c) (exitRest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3: entered with every unscoped buffer at X3, left at X4. Its two arrays are split out of the unscoped
    buffers at entry and put back at the exit contents; the generator register goes into the pipeline's invariant
    and comes back; nothing is owed; the kernel has no semaphore of its own. -/
def regionSeg3 : Pipeline.RegionSeg (pcfgs (F := F)) noTables (allDats m) () defs₀ noVariants noPairs noLevel 3 where
  win := launch3.win.to₀
  block_pos := launch3.block_pos
  stage_whole := launch3.stage_whole
  K := PEmpty
  osem k := k.elim
  ho := Pipeline.OwnSemFacts.none _
  hbody c := (obligation3 (E3 m) c).loose
  hwaits := Pipeline.hwaits_of_owed_zero _ _ _ _ noPairs noLevel 3 fun _ _ => rfl
  pre c := iprop(StableHlo.held (c : Thread nD τ) (Pipeline.ucRefs τ sig) (X3 m c) ∗ Beside c)
  post c := iprop(StableHlo.held (c : Thread nD τ) (Pipeline.ucRefs τ sig) (X4 m c) ∗ Beside c)
  X c := iprop(∃ r, prngReg c r)
  Y c := iprop(∃ r, prngReg c r)
  Z c := Pipeline.unscopedRest (Ix := Unit) (Name := ℕ) (U := UR sig nD τ) (Lvl := ℕ) spec3 c (E3 m c)
  hentry c := by
    rw [Pipeline.ownSems0_none]
    have hsplit := Pipeline.arrays_of_unscopedBufs (p := 3) (pcfgs (F := F)) noTables (allDats m) launch3.win launch3.arr_whole c
      ((allDats m 3 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (allDats m 3 c).Φ 0 = Pipeline.ΦA spec3 c from rfl]; unfold Pipeline.ΦA
    iintro ⟨Hp, -, Hr⟩
    isplitl [Hr]; · iexact Hr
    iexact Hp
  hout c := by
    rw [Pipeline.ownSems0_none, show (allDats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) noTables (Ix := Unit) (Name := ℕ) (U := UR sig nD τ) (Lvl := ℕ)
      launch3.win launch3.arr_whole c (allDats m) ((allDats m 3 c).share_full fun _ => rfl)
      (E3 m c) (E4 m c) ((allDats m 3 c).arrAt · cfg3.N) (exitArr3 m c) (exitRest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4: entered with every unscoped buffer at X4, left at X5. Its two arrays are split out of the unscoped
    buffers at entry and put back at the exit contents; the generator register goes into the pipeline's invariant
    and comes back; nothing is owed; the kernel has no semaphore of its own. -/
def regionSeg4 : Pipeline.RegionSeg (pcfgs (F := F)) noTables (allDats m) () defs₀ noVariants noPairs noLevel 4 where
  win := launch4.win.to₀
  block_pos := launch4.block_pos
  stage_whole := launch4.stage_whole
  K := PEmpty
  osem k := k.elim
  ho := Pipeline.OwnSemFacts.none _
  hbody c := (obligation4 (E4 m) c).loose
  hwaits := Pipeline.hwaits_of_owed_zero _ _ _ _ noPairs noLevel 4 fun _ _ => rfl
  pre c := iprop(StableHlo.held (c : Thread nD τ) (Pipeline.ucRefs τ sig) (X4 m c) ∗ Beside c)
  post c := iprop(StableHlo.held (c : Thread nD τ) (Pipeline.ucRefs τ sig) (X5 m c) ∗ Beside c)
  X c := iprop(∃ r, prngReg c r)
  Y c := iprop(∃ r, prngReg c r)
  Z c := Pipeline.unscopedRest (Ix := Unit) (Name := ℕ) (U := UR sig nD τ) (Lvl := ℕ) spec4 c (E4 m c)
  hentry c := by
    rw [Pipeline.ownSems0_none]
    have hsplit := Pipeline.arrays_of_unscopedBufs (p := 4) (pcfgs (F := F)) noTables (allDats m) launch4.win launch4.arr_whole c
      ((allDats m 4 c).share_full fun _ => rfl) (E4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (allDats m 4 c).Φ 0 = Pipeline.ΦA spec4 c from rfl]; unfold Pipeline.ΦA
    iintro ⟨Hp, -, Hr⟩
    isplitl [Hr]; · iexact Hr
    iexact Hp
  hout c := by
    rw [Pipeline.ownSems0_none, show (allDats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) noTables (Ix := Unit) (Name := ℕ) (U := UR sig nD τ) (Lvl := ℕ)
      launch4.win launch4.arr_whole c (allDats m) ((allDats m 4 c).share_full fun _ => rfl)
      (E4 m c) (E5 m c) ((allDats m 4 c).arrAt · cfg4.N) (exitArr4 m c) (exitRest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as its items, and the run -/

/-- The program's six items in order. -/
abbrev items : List (Pipeline.Seg (pcfgs (F := F)) noTables (allDats m) () defs₀ noVariants noPairs noLevel) :=
  [ .region (regionSeg0 m), .region (regionSeg1 m), .region (regionSeg2 m), .region (regionSeg3 m), .region (regionSeg4 m),
    .host (joinSeg m) ]

/-- The program IS the run of its items. -/
theorem main_items (c : Dev nD) : main (F := F) c = Pipeline.Seg.run (items m) := (main_chain c).trans (by chain_rfl)

set_option backward.isDefEq.respectTransparency.types false in
/-- THE RUN. From any memory with zero counters every weakly fair execution of the program terminates, nothing
    faulting, and in every final state each unscoped buffer of every core holds the last contents X6. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = X6 m c b) :=
  Pipeline.θ_run_regions_kit (pcfgs (F := F)) noTables (allDats m) () cellOf_inj emb₁ defs₀ noVariants noPairs noLevel m ρ main (items m)
    (fun c Q => by rw [main_items m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (X0 m c) ∗ Beside c)) (Tₙ := AtEnd m)
    (hch := ⟨fun _ => .rfl, fun _ => .rfl, fun _ => .rfl, fun _ => .rfl, fun _ => .rfl, fun _ => .rfl, fun c => by
      show (iprop(StableHlo.held (c : Thread nD τ) (Pipeline.ucRefs τ sig) (X6 m c) ∗ Beside c) : sProp 𝕄)
        ⊢ iprop(AtEnd m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach noPairs noLevel fun c => ?_
      rw [show unscopedBufs c (fun b => m ((c : Thread nD τ).loc b)) = StableHlo.held (c : Thread nD τ) (Pipeline.ucRefs τ sig) (X0 m c)
        from Pipeline.unscopedBufs_held c (X0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = X6 m c b)
    (hfin := fun c s' => by
      iintro ⟨⟨Hh, -⟩, HSI⟩
      unfold StableHlo.held
      imodintro
      iapply (pointsTo_read_all (Pipeline.ucRefs τ sig) (fun b => (((c : Thread nD τ)).1, b)) (X6 m c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_unscoped main_arg0 (by decide))).trans (X6_main_arg0 m c),
     (h c _ (mem_unscoped main_arg1 (by decide))).trans (X6_main_arg1 m c),
     (h c _ (mem_unscoped main_arg2 (by decide))).trans (X6_main_arg2 m c),
     (h c _ (mem_unscoped main_arg3 (by decide))).trans (X6_main_arg3 m c),
     (h c _ (mem_unscoped main_arg4 (by decide))).trans (X6_main_arg4 m c)⟩) (run_main m ρ)

end Cert.KernelIdeal.Hand

end
-- ==== Proof.Spec.lean ====
/-
  What each pyramid level computes, as one function of the level's input array, on the extended reals.

  A level's input is an array x of shape [B, C, S, S]. Write σ = logistic(x) entry by entry. Every [S, S] plane of σ is
  padded with one row of -∞ above and one column of -∞ to the left; the local maximum at (i, j) is the maximum of the
  2×2 window of the padded plane whose lower-right corner is σ(i, j), that is of σ(i-1, j-1), σ(i-1, j), σ(i, j-1) and
  σ(i, j), an absent neighbour counting as -∞. An entry is kept where it equals its local maximum and is replaced by
  zero elsewhere. The result is laid out as [B, S·S, C]: entry (b, r, c) is the kept value at batch b, class c, row
  r / S and column r % S.
-/
import Idealize.ShloMosaic.PureOps.Ideal
import Idealize.ShloMosaic.Lib.ValueIdx

noncomputable section

namespace Cert.Spec

open Idealize.ShloMosaic Idealize.ShloMosaic.ValueIdx

/-- The padded plane of logistics read at padded coordinates (a, b) ∈ [0, S]²: -∞ on row 0 and on column 0 (and
    outside the plane), logistic(p(a-1, b-1)) elsewhere. -/
def padAt {S : ℕ} (p : Fin S → Fin S → EReal) (a b : ℕ) : EReal :=
  if h : (1 ≤ a ∧ a - 1 < S) ∧ (1 ≤ b ∧ b - 1 < S) then Ideal.logistic (p ⟨a - 1, h.1.2⟩ ⟨b - 1, h.2.2⟩) else ⊥

/-- The maximum of the 2×2 window of the padded plane at (i, j) … (i+1, j+1). -/
def localMax {S : ℕ} (p : Fin S → Fin S → EReal) (i j : ℕ) : EReal :=
  max (max (padAt p i j) (padAt p i (j + 1))) (max (padAt p (i + 1) j) (padAt p (i + 1) (j + 1)))

/-- logistic(p(i, j)) where it equals its local maximum, zero elsewhere. -/
def peak {S : ℕ} (p : Fin S → Fin S → EReal) (i j : Fin S) : EReal :=
  if localMax p i.val j.val = Ideal.logistic (p i j) then Ideal.logistic (p i j) else 0

/-- Entry (b, r, c) of a level's result: the kept value of plane (b, c) at row r / S, column r % S. -/
def lvlAt {B C S N : ℕ} (hN : N = S * S) (hS : 0 < S) (x : (⟨4, ![B, C, S, S]⟩ : Shape).Idx → EReal)
    (b : Fin B) (r : Fin N) (c : Fin C) : EReal :=
  peak (fun i j => x (ix4 b c i j)) ⟨r.val / S, Nat.div_lt_of_lt_mul (hN ▸ r.isLt)⟩ ⟨r.val % S, Nat.mod_lt _ hS⟩

/-- A level's result array [B, S·S, C]. -/
def lvl {B C S N : ℕ} (hN : N = S * S) (hS : 0 < S) (x : (⟨4, ![B, C, S, S]⟩ : Shape).Idx → EReal) :
    (⟨3, ![B, N, C]⟩ : Shape).Idx → EReal :=
  fun j => lvlAt hN hS x (j 0) (j 1) (j 2)

theorem lvl_apply {B C S N : ℕ} (hN : N = S * S) (hS : 0 < S) (x : (⟨4, ![B, C, S, S]⟩ : Shape).Idx → EReal)
    (b : Fin B) (r : Fin N) (c : Fin C) : lvl hN hS x (ix3 b r c) = lvlAt hN hS x b r c := rfl

/-- An entry of a level's result depends on its own plane only: two arrays (of any batch sizes) that agree on the
    planes (b, c) and (b', c) give the same entry there. -/
theorem lvlAt_congr {B B' C S N : ℕ} (hN : N = S * S) (hS : 0 < S) (x : (⟨4, ![B, C, S, S]⟩ : Shape).Idx → EReal)
    (x' : (⟨4, ![B', C, S, S]⟩ : Shape).Idx → EReal) (b : Fin B) (b' : Fin B') (r : Fin N) (c : Fin C)
    (h : ∀ i j, x (ix4 b c i j) = x' (ix4 b' c i j)) : lvlAt hN hS x b r c = lvlAt hN hS x' b' r c := by
  unfold lvlAt
  have : (fun i j => x (ix4 b c i j)) = fun i j => x' (ix4 b' c i j) := funext fun i => funext fun j => h i j
  rw [this]

end Cert.Spec

end
-- ==== Proof.KIVal0.lean ====
/-
  Level 0: what pallas_call 0 leaves in its output array, as one function of its input array.

  Grid point t works on the batch slab [8·t, 8·t + 8) of both arrays: the input window's block is that slab of the
  [64, 80, 40, 40] input, the output window's block that slab of the [64, 1600, 80] output. An entry of the level's
  result depends on its own (batch, class) plane only, so the body's result on the slab is the slab of the level's
  result on the whole array; the slabs cover the batch axis, so the output array ends holding the level's result.
-/
import proofs.«137573_j63891933495891_1_alg».proof.Proof.KIBody0
import proofs.«137573_j63891933495891_1_alg».proof.Proof.Spec
import Idealize.ShloMosaic.Lib.Pipeline.Value
import Idealize.ShloMosaic.Lib.ValueIdx
import Idealize.ShloMosaic.PureOps.Ideal

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem zero3_0 : (![0, 0, 0] : Fin 3 → Nat) = fun _ => 0 := funext fun a => by fin_cases a <;> rfl
theorem zero4_0 : (![0, 0, 0, 0] : Fin 4 → Nat) = fun _ => 0 := funext fun a => by fin_cases a <;> rfl

/-- Both windows step along the batch axis only, and together: at point t their block index is (t, 0, …). -/
theorem blockIdx0 : ∀ t : Fin cfg0.N, win0_0.index t (0 : Fin 4) = t.val ∧ win0_0.index t (1 : Fin 4) = 0 ∧ win0_0.index t (2 : Fin 4) = 0 ∧ win0_0.index t (3 : Fin 4) = 0
    ∧ win0_1.index t (0 : Fin 3) = t.val ∧ win0_1.index t (1 : Fin 3) = 0 ∧ win0_1.index t (2 : Fin 3) = 0 :=
  (by decide +kernel : ∀ t : Fin grid0.N, _)

theorem gridPoints0 : cfg0.N = 8 := by decide

/-- Entry (b, r, cc) of the output block at point t sits in the output array at batch 8·t + b. -/
theorem outEmb0 (t : Fin cfg0.N) (b : Fin 8) (r : Fin 1600) (cc : Fin 80) (hb : t.val * 8 + b.val < 64) :
    ((cfg0.win 1).blk t).view.emb (ix3 b r cc) = (ix3 (⟨t.val * 8 + b.val, hb⟩ : Fin 64) r cc : (⟨3, ![64, 1600, 80]⟩ : Shape).Idx) := by
  obtain ⟨-, -, -, -, e0, e1, e2⟩ := blockIdx0 t
  funext a; apply Fin.ext
  match a with
  | ⟨0, _⟩ => show win0_1.index t (0 : Fin 3) * 8 + 1 * b.val = t.val * 8 + b.val; omega
  | ⟨1, _⟩ => show win0_1.index t (1 : Fin 3) * 1600 + 1 * r.val = r.val; omega
  | ⟨2, _⟩ => show win0_1.index t (2 : Fin 3) * 80 + 1 * cc.val = cc.val; omega

/-- Entry (b, cc, i, j) of the input block at point t sits in the input array at batch 8·t + b. -/
theorem inEmb0 (t : Fin cfg0.N) (b : Fin 8) (cc : Fin 80) (i j : Fin 40) (hb : t.val * 8 + b.val < 64) :
    ((cfg0.win 0).blk t).view.emb (ix4 b cc i j) = (ix4 (⟨t.val * 8 + b.val, hb⟩ : Fin 64) cc i j : (⟨4, ![64, 80, 40, 40]⟩ : Shape).Idx) := by
  obtain ⟨e0, e1, e2, e3, -, -, -⟩ := blockIdx0 t
  funext a; apply Fin.ext
  match a with
  | ⟨0, _⟩ => show win0_0.index t (0 : Fin 4) * 8 + 1 * b.val = t.val * 8 + b.val; omega
  | ⟨1, _⟩ => show win0_0.index t (1 : Fin 4) * 80 + 1 * cc.val = cc.val; omega
  | ⟨2, _⟩ => show win0_0.index t (2 : Fin 4) * 40 + 1 * i.val = i.val; omega
  | ⟨3, _⟩ => show win0_0.index t (3 : Fin 4) * 40 + 1 * j.val = j.val; omega

/-- What point t writes back is the point's slab of the level's result on the whole input array, given that the
    body's arithmetic on a slab is the level's result on that slab (hpay). -/
theorem flushedLvl0
    (hpay : ∀ (xb : (⟨4, ![8, 80, 40, 40]⟩ : Shape).Idx → EReal) (b : Fin 8) (r : Fin 1600) (cc : Fin 80),
      k0_pay1 (F := Ideal) xb (ix3 b r cc) = Cert.Spec.lvlAt (B := 8) (C := 80) (S := 40) (N := 1600) rfl (by decide) xb b r cc)
    (c : Dev nD) (t : Fin cfg0.N) :
    (regionDat0 V c).flushed 1 t = ((cfg0.win 1).blk t).view.read (Elt Ideal)
      (Cert.Spec.lvl (B := 64) (C := 80) (S := 40) (N := 1600) rfl (by decide) (V c main_arg0)) := by
  show (cfg0.win 1).cut (grid0.coords t) ((regionDat0 V c).after 1 t) = _
  rw [regionDat0_after_out]
  unfold bodyOut0
  rw [View.canon_unit_zero zero3_0]
  simp only [View.ld_unit_zero (S := S8x80x40x40) zero4_0]
  funext y
  obtain ⟨b, r, cc, rfl⟩ : ∃ (b : Fin 8) (r : Fin 1600) (cc : Fin 80), y = ix3 b r cc := ⟨y 0, y 1, y 2, eq_ix3 y⟩
  have hN := gridPoints0
  have hb : t.val * 8 + b.val < 64 := by have := t.isLt; have := b.isLt; omega
  show k0_pay1 (F := Ideal) (blockAt0 V c 0 t) (ix3 b r cc)
    = Cert.Spec.lvl (B := 64) (C := 80) (S := 40) (N := 1600) rfl (by decide) (V c main_arg0) (((cfg0.win 1).blk t).view.emb (ix3 b r cc))
  rw [outEmb0 t b r cc hb, Cert.Spec.lvl_apply, hpay]
  refine Cert.Spec.lvlAt_congr (B := 8) (B' := 64) (C := 80) (S := 40) (N := 1600) rfl (by decide) _ _ b ⟨t.val * 8 + b.val, hb⟩ r cc fun i j => ?_
  show V c main_arg0 (((cfg0.win 0).blk t).view.emb (ix4 b cc i j)) = _
  rw [inEmb0 t b cc i j hb]

/-- An index of the output array is in point t's block iff each coordinate is in the block's range on its axis. -/
theorem inBlock0 (t : Fin cfg0.N) (i : S64x1600x80.Idx) :
    i ∈ ((cfg0.win 1).blk t).view.set ↔ ∀ a : Fin 3, win0_1.index t a * S8x1600x80.size a ≤ (i a).val ∧ (i a).val < win0_1.index t a * S8x1600x80.size a + S8x1600x80.size a := by
  show i ∈ ((View.whole main_v0).slice (win0_1.rect t)).set ↔ _
  rw [View.set_slice_whole, Rect.mem_set_unit]
  exact Iff.rfl

/-- Every index of the output array is in the block of the point its batch falls in. -/
theorem covered0 (i : S64x1600x80.Idx) :
    ∃ t : Fin cfg0.N, (cfg0.win 1).flush t = true ∧ i ∈ ((cfg0.win 1).blk t).view.set := by
  have hN := gridPoints0
  have hi0 : (i 0).val < 64 := (i 0).isLt
  have hi1 : (i 1).val < 1600 := (i 1).isLt
  have hi2 : (i 2).val < 80 := (i 2).isLt
  refine ⟨⟨(i 0).val / 8, by omega⟩, flush0_1 _, ?_⟩
  rw [inBlock0]
  obtain ⟨-, -, -, -, e0, e1, e2⟩ := blockIdx0 ⟨(i 0).val / 8, by omega⟩
  intro a
  match a with
  | ⟨0, _⟩ => show win0_1.index _ (0 : Fin 3) * 8 ≤ (i 0).val ∧ (i 0).val < win0_1.index _ (0 : Fin 3) * 8 + 8; simp only [e0]; omega
  | ⟨1, _⟩ => show win0_1.index _ (1 : Fin 3) * 1600 ≤ (i 1).val ∧ (i 1).val < win0_1.index _ (1 : Fin 3) * 1600 + 1600; simp only [e1]; omega
  | ⟨2, _⟩ => show win0_1.index _ (2 : Fin 3) * 80 ≤ (i 2).val ∧ (i 2).val < win0_1.index _ (2 : Fin 3) * 80 + 80; simp only [e2]; omega

/-- The output array after the region: the level's result on the input array as the region found it. -/
theorem levelArray0
    (hpay : ∀ (xb : (⟨4, ![8, 80, 40, 40]⟩ : Shape).Idx → EReal) (b : Fin 8) (r : Fin 1600) (cc : Fin 80),
      k0_pay1 (F := Ideal) xb (ix3 b r cc) = Cert.Spec.lvlAt (B := 8) (C := 80) (S := 40) (N := 1600) rfl (by decide) xb b r cc)
    (c : Dev nD) :
    (regionDat0 V c).arrAt 1 cfg0.N = Cert.Spec.lvl (B := 64) (C := 80) (S := 40) (N := 1600) rfl (by decide) (V c main_arg0) :=
  (regionDat0 V c).arrAt_eq_of_cover 1 _ (fun t _ => flushedLvl0 V hpay c t) (covered0)

end Cert.KernelIdeal.Hand

end
-- ==== Proof.PayCommon.lean ====
/-
  Two facts about single extended reals that every pyramid level uses: the word 0xFF800000 denotes -∞, and keeping σ
  where the comparison "local maximum = σ" holds (zero elsewhere) is the specification's kept value.
-/
import proofs.«137573_j63891933495891_1_alg».proof.Proof.Spec
import Idealize.ShloMosaic.PureOps.Ideal.Laws

noncomputable section

namespace Cert.KernelSide

open Idealize.ShloMosaic Idealize.ShloMosaic.ValueIdx

/-- The single-precision word 0xFF800000 is -∞. -/
theorem negInf_word : (Scalar.ofBits (F := Ideal) .f32 0xFF800000#32 : EReal) = ⊥ := by
  show Ideal.ofBits .f32 0xFF800000#32 = ⊥
  simp [Ideal.ofBits, Ideal.ieee]

/-- The single-precision word 0 is zero. -/
theorem zero_word : (Scalar.ofBits (F := Ideal) .f32 0x00000000#32 : EReal) = 0 := Ideal.ofBits_zero_f32

/-- Selecting σ where "m = σ" holds as an ordered comparison, z elsewhere. -/
theorem select_oeq (m s z : EReal) :
    Scalar.select (FloatOps.cmpf (F := Ideal) (φ := .f32) .oeq m s) s z = if m = s then s else z := by
  show (if BitVec.ofBool (decide (m = s)) = 1#1 then s else z) = _
  by_cases h : m = s <;> simp [h]

/-- The kept value, with the local maximum spelt over the padded plane: the specification's. -/
theorem keep_eq_peak {S : ℕ} (p : Fin S → Fin S → EReal) (i j : Fin S) :
    Scalar.select
        (FloatOps.cmpf (F := Ideal) (φ := .f32) .oeq
          (max (max (Cert.Spec.padAt p (i.val + 0) (j.val + 0)) (Cert.Spec.padAt p (i.val + 0) (j.val + 1)))
            (max (Cert.Spec.padAt p (i.val + 1) (j.val + 0)) (Cert.Spec.padAt p (i.val + 1) (j.val + 1))))
          (FloatOps.logistic (F := Ideal) (φ := .f32) (p i j)))
        (FloatOps.logistic (F := Ideal) (φ := .f32) (p i j))
        (Scalar.ofBits (F := Ideal) .f32 0x00000000#32)
      = Cert.Spec.peak p i j := by
  rw [select_oeq, zero_word]
  rfl

end Cert.KernelSide

end
-- ==== Proof.PayLevel0.lean ====
/-
  The kernel's stored value for pyramid level 0, read at one index.

  The body computes σ = logistic(x) on a block x of shape [8, 80, 40, 40], pads every [40, 40] plane of σ with a row of -∞
  above and a column of -∞ on the left, takes the maximum of the four unit-offset [40, 40] slices of the padded
  plane, keeps σ where it equals that maximum (zero elsewhere), and lays the result out as [8, 1600, 80]. Read at
  (b, r, c) this is the specification's kept value of plane (b, c) at row r / 40, column r % 40.
-/
import proofs.«137573_j63891933495891_1_alg».proof.Proof.Spec
import proofs.«137573_j63891933495891_1_alg».proof.Proof.Gen.KernelIdeal.Skeleton
import proofs.«137573_j63891933495891_1_alg».proof.Proof.PayCommon
import Idealize.ShloMosaic.Lib.Pipeline.Value

noncomputable section

namespace Cert.KernelSide

open Idealize.ShloMosaic Idealize.ShloMosaic.ValueIdx Cert.KernelIdeal

/-- The padded plane of level 0 at padded coordinates (a, d) ∈ [0, 40]²: -∞ on row 0 and on column 0, σ(a-1, d-1) elsewhere. -/
theorem pad0_apply (h2 : Shape.Concatenates [S8x80x1x40, S8x80x40x40] S8x80x41x40 2) (h3 : Shape.Concatenates [S8x80x41x1, S8x80x41x40] S8x80x41x41 3)
    (x : S8x80x40x40.Idx → EReal) (b : Fin 8) (c : Fin 80) (a d : Fin 41) :
    concatenate S8x80x41x41 3 [⟨S8x80x41x1, broadcast S8x80x41x1 (Scalar.ofBits (F := Ideal) .f32 0xFF800000#32)⟩,
        ⟨S8x80x41x40, concatenate S8x80x41x40 2 [⟨S8x80x1x40, broadcast S8x80x1x40 (Scalar.ofBits (F := Ideal) .f32 0xFF800000#32)⟩,
          ⟨S8x80x40x40, logistic (F := Ideal) (φ := .f32) x⟩] h2⟩] h3 (ix4 b c a d)
      = Cert.Spec.padAt (S := 40) (fun i j => x (ix4 b c i j)) a.val d.val := by
  have ha := a.isLt
  have hd := d.isLt
  by_cases hd0 : d.val = 0
  · -- column 0 lies in the -∞ piece
    rw [Cert.Spec.padAt, dif_neg (by omega)]
    refine (concatenate_pair_apply_left (t := S8x80x41x41) (s₁ := S8x80x41x1) (s₂ := S8x80x41x40) (3 : Fin 4) _ _ h3 (ix4 b c a d) rfl (ix4 b c a ⟨0, Nat.one_pos⟩)
      (fun e => match e with
        | ⟨0, _⟩ => rfl
        | ⟨1, _⟩ => rfl
        | ⟨2, _⟩ => rfl
        | ⟨3, _⟩ => by show 0 = d.val; omega)).trans ?_
    exact negInf_word
  · -- a column ≥ 1 lies in the row-padded piece, one column to the left
    refine (concatenate_pair_apply_right (t := S8x80x41x41) (s₁ := S8x80x41x1) (s₂ := S8x80x41x40) (3 : Fin 4) _ _ h3 (ix4 b c a d) rfl rfl (ix4 b c a ⟨d.val - 1, by omega⟩)
      (fun e => match e with
        | ⟨0, _⟩ => fun _ => rfl
        | ⟨1, _⟩ => fun _ => rfl
        | ⟨2, _⟩ => fun _ => rfl
        | ⟨3, _⟩ => fun hne => absurd rfl hne)
      (by show d.val - 1 + 1 = d.val; omega)).trans ?_
    by_cases ha0 : a.val = 0
    · -- row 0 lies in the -∞ piece
      rw [Cert.Spec.padAt, dif_neg (by omega)]
      refine (concatenate_pair_apply_left (t := S8x80x41x40) (s₁ := S8x80x1x40) (s₂ := S8x80x40x40) (2 : Fin 4) _ _ h2 (ix4 b c a ⟨d.val - 1, by omega⟩) rfl
        (ix4 b c ⟨0, Nat.one_pos⟩ ⟨d.val - 1, by omega⟩)
        (fun e => match e with
          | ⟨0, _⟩ => rfl
          | ⟨1, _⟩ => rfl
          | ⟨2, _⟩ => by show 0 = a.val; omega
          | ⟨3, _⟩ => rfl)).trans ?_
      exact negInf_word
    · -- a row ≥ 1 lies in σ, one row up
      rw [Cert.Spec.padAt, dif_pos (by omega)]
      refine (concatenate_pair_apply_right (t := S8x80x41x40) (s₁ := S8x80x1x40) (s₂ := S8x80x40x40) (2 : Fin 4) _ _ h2 (ix4 b c a ⟨d.val - 1, by omega⟩) rfl rfl
        (ix4 b c ⟨a.val - 1, by omega⟩ ⟨d.val - 1, by omega⟩)
        (fun e => match e with
          | ⟨0, _⟩ => fun _ => rfl
          | ⟨1, _⟩ => fun _ => rfl
          | ⟨2, _⟩ => fun hne => absurd rfl hne
          | ⟨3, _⟩ => fun _ => rfl)
        (by show a.val - 1 + 1 = a.val; omega)).trans ?_
      rfl

/-- One unit-offset slice of the padded plane, read at (i, j): the padded plane at (i + di, j + dj). -/
theorem slice0_apply (P : S8x80x41x41.Idx → EReal) (di dj : Nat) (hdi : di ≤ 1) (hdj : dj ≤ 1)
    (h : S8x80x41x41.Slices ![0, 0, di, dj] S8x80x40x40) (b : Fin 8) (c : Fin 80) (i j : Fin 40) :
    extractStridedSlice S8x80x40x40 ![0, 0, di, dj] P h (ix4 b c i j)
      = P (ix4 b c ⟨i.val + di, by have := i.isLt; omega⟩ ⟨j.val + dj, by have := j.isLt; omega⟩) :=
  extractStridedSlice_apply _ _ _ _ _ (fun e => match e with
    | ⟨0, _⟩ => by show b.val = 0 + b.val; omega
    | ⟨1, _⟩ => by show c.val = 0 + c.val; omega
    | ⟨2, _⟩ => by show i.val + di = di + i.val; omega
    | ⟨3, _⟩ => by show j.val + dj = dj + j.val; omega)

/-- The kernel's stored value of level 0 at (b, r, c) is the specification's entry there. -/
theorem pay0_apply (xb : (⟨4, ![8, 80, 40, 40]⟩ : Shape).Idx → EReal) (b : Fin 8) (r : Fin 1600) (c : Fin 80) :
    Cert.KernelIdeal.Gen.k0_pay1 (F := Ideal) xb (ix3 b r c)
      = Cert.Spec.lvlAt (B := 8) (C := 80) (S := 40) (N := 1600) rfl (by decide) xb b r c := by
  have hr := r.isLt
  have hi : r.val / 40 < 40 := by omega
  have hj : r.val % 40 < 40 := Nat.mod_lt _ (by decide)
  unfold Cert.KernelIdeal.Gen.k0_pay1
  -- the final reshape: [8, 1600, 80] at (b, r, c) reads [8, 40, 40, 80] at (b, r / 40, r % 40, c)
  refine (shapeCast_apply _ _ (ix3 b r c) (ix4 b ⟨r.val / 40, hi⟩ ⟨r.val % 40, hj⟩ c)
    (by rw [Shape.rowMajor_val_four, Shape.rowMajor_val_three]
        show ((b.val * 40 + r.val / 40) * 40 + r.val % 40) * 80 + c.val = (b.val * 1600 + r.val) * 80 + c.val
        omega)).trans ?_
  -- the transpose [0, 2, 3, 1]: [8, 40, 40, 80] at (b, i, j, c) reads [8, 80, 40, 40] at (b, c, i, j)
  refine (transpose_apply _ _ _ _ (ix4 b c ⟨r.val / 40, hi⟩ ⟨r.val % 40, hj⟩)
    (fun e => match e with | ⟨0, _⟩ => rfl | ⟨1, _⟩ => rfl | ⟨2, _⟩ => rfl | ⟨3, _⟩ => rfl)).trans ?_
  -- the pointwise operations, then the four slices of the padded plane
  rw [select_apply, cmpf_apply, broadcast_apply, maximumf_apply, maximumf_apply, maximumf_apply,
    slice0_apply _ 0 0 (by omega) (by omega), slice0_apply _ 0 1 (by omega) (by omega),
    slice0_apply _ 1 0 (by omega) (by omega), slice0_apply _ 1 1 (by omega) (by omega),
    pad0_apply, pad0_apply, pad0_apply, pad0_apply]
  exact keep_eq_peak (fun i j => xb (ix4 b c i j)) ⟨r.val / 40, hi⟩ ⟨r.val % 40, hj⟩

end Cert.KernelSide

end
-- ==== Proof.KIVal1.lean ====
/-
  Level 1: what pallas_call 1 leaves in its output array, as one function of its input array.

  Grid point t works on the batch slab [8·t, 8·t + 8) of both arrays: the input window's block is that slab of the
  [64, 80, 36, 36] input, the output window's block that slab of the [64, 1296, 80] output. An entry of the level's
  result depends on its own (batch, class) plane only, so the body's result on the slab is the slab of the level's
  result on the whole array; the slabs cover the batch axis, so the output array ends holding the level's result.
-/
import proofs.«137573_j63891933495891_1_alg».proof.Proof.KIBody1
import proofs.«137573_j63891933495891_1_alg».proof.Proof.Spec
import Idealize.ShloMosaic.Lib.Pipeline.Value
import Idealize.ShloMosaic.Lib.ValueIdx
import Idealize.ShloMosaic.PureOps.Ideal

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem zero3_1 : (![0, 0, 0] : Fin 3 → Nat) = fun _ => 0 := funext fun a => by fin_cases a <;> rfl
theorem zero4_1 : (![0, 0, 0, 0] : Fin 4 → Nat) = fun _ => 0 := funext fun a => by fin_cases a <;> rfl

/-- Both windows step along the batch axis only, and together: at point t their block index is (t, 0, …). -/
theorem blockIdx1 : ∀ t : Fin cfg1.N, win1_0.index t (0 : Fin 4) = t.val ∧ win1_0.index t (1 : Fin 4) = 0 ∧ win1_0.index t (2 : Fin 4) = 0 ∧ win1_0.index t (3 : Fin 4) = 0
    ∧ win1_1.index t (0 : Fin 3) = t.val ∧ win1_1.index t (1 : Fin 3) = 0 ∧ win1_1.index t (2 : Fin 3) = 0 :=
  (by decide +kernel : ∀ t : Fin grid1.N, _)

theorem gridPoints1 : cfg1.N = 8 := by decide

/-- Entry (b, r, cc) of the output block at point t sits in the output array at batch 8·t + b. -/
theorem outEmb1 (t : Fin cfg1.N) (b : Fin 8) (r : Fin 1296) (cc : Fin 80) (hb : t.val * 8 + b.val < 64) :
    ((cfg1.win 1).blk t).view.emb (ix3 b r cc) = (ix3 (⟨t.val * 8 + b.val, hb⟩ : Fin 64) r cc : (⟨3, ![64, 1296, 80]⟩ : Shape).Idx) := by
  obtain ⟨-, -, -, -, e0, e1, e2⟩ := blockIdx1 t
  funext a; apply Fin.ext
  match a with
  | ⟨0, _⟩ => show win1_1.index t (0 : Fin 3) * 8 + 1 * b.val = t.val * 8 + b.val; omega
  | ⟨1, _⟩ => show win1_1.index t (1 : Fin 3) * 1296 + 1 * r.val = r.val; omega
  | ⟨2, _⟩ => show win1_1.index t (2 : Fin 3) * 80 + 1 * cc.val = cc.val; omega

/-- Entry (b, cc, i, j) of the input block at point t sits in the input array at batch 8·t + b. -/
theorem inEmb1 (t : Fin cfg1.N) (b : Fin 8) (cc : Fin 80) (i j : Fin 36) (hb : t.val * 8 + b.val < 64) :
    ((cfg1.win 0).blk t).view.emb (ix4 b cc i j) = (ix4 (⟨t.val * 8 + b.val, hb⟩ : Fin 64) cc i j : (⟨4, ![64, 80, 36, 36]⟩ : Shape).Idx) := by
  obtain ⟨e0, e1, e2, e3, -, -, -⟩ := blockIdx1 t
  funext a; apply Fin.ext
  match a with
  | ⟨0, _⟩ => show win1_0.index t (0 : Fin 4) * 8 + 1 * b.val = t.val * 8 + b.val; omega
  | ⟨1, _⟩ => show win1_0.index t (1 : Fin 4) * 80 + 1 * cc.val = cc.val; omega
  | ⟨2, _⟩ => show win1_0.index t (2 : Fin 4) * 36 + 1 * i.val = i.val; omega
  | ⟨3, _⟩ => show win1_0.index t (3 : Fin 4) * 36 + 1 * j.val = j.val; omega

/-- What point t writes back is the point's slab of the level's result on the whole input array, given that the
    body's arithmetic on a slab is the level's result on that slab (hpay). -/
theorem flushedLvl1
    (hpay : ∀ (xb : (⟨4, ![8, 80, 36, 36]⟩ : Shape).Idx → EReal) (b : Fin 8) (r : Fin 1296) (cc : Fin 80),
      k1_pay1 (F := Ideal) xb (ix3 b r cc) = Cert.Spec.lvlAt (B := 8) (C := 80) (S := 36) (N := 1296) rfl (by decide) xb b r cc)
    (c : Dev nD) (t : Fin cfg1.N) :
    (regionDat1 V c).flushed 1 t = ((cfg1.win 1).blk t).view.read (Elt Ideal)
      (Cert.Spec.lvl (B := 64) (C := 80) (S := 36) (N := 1296) rfl (by decide) (V c main_arg1)) := by
  show (cfg1.win 1).cut (grid1.coords t) ((regionDat1 V c).after 1 t) = _
  rw [regionDat1_after_out]
  unfold bodyOut1
  rw [View.canon_unit_zero zero3_1]
  simp only [View.ld_unit_zero (S := S8x80x36x36) zero4_1]
  funext y
  obtain ⟨b, r, cc, rfl⟩ : ∃ (b : Fin 8) (r : Fin 1296) (cc : Fin 80), y = ix3 b r cc := ⟨y 0, y 1, y 2, eq_ix3 y⟩
  have hN := gridPoints1
  have hb : t.val * 8 + b.val < 64 := by have := t.isLt; have := b.isLt; omega
  show k1_pay1 (F := Ideal) (blockAt1 V c 0 t) (ix3 b r cc)
    = Cert.Spec.lvl (B := 64) (C := 80) (S := 36) (N := 1296) rfl (by decide) (V c main_arg1) (((cfg1.win 1).blk t).view.emb (ix3 b r cc))
  rw [outEmb1 t b r cc hb, Cert.Spec.lvl_apply, hpay]
  refine Cert.Spec.lvlAt_congr (B := 8) (B' := 64) (C := 80) (S := 36) (N := 1296) rfl (by decide) _ _ b ⟨t.val * 8 + b.val, hb⟩ r cc fun i j => ?_
  show V c main_arg1 (((cfg1.win 0).blk t).view.emb (ix4 b cc i j)) = _
  rw [inEmb1 t b cc i j hb]

/-- An index of the output array is in point t's block iff each coordinate is in the block's range on its axis. -/
theorem inBlock1 (t : Fin cfg1.N) (i : S64x1296x80.Idx) :
    i ∈ ((cfg1.win 1).blk t).view.set ↔ ∀ a : Fin 3, win1_1.index t a * S8x1296x80.size a ≤ (i a).val ∧ (i a).val < win1_1.index t a * S8x1296x80.size a + S8x1296x80.size a := by
  show i ∈ ((View.whole main_v1).slice (win1_1.rect t)).set ↔ _
  rw [View.set_slice_whole, Rect.mem_set_unit]
  exact Iff.rfl

/-- Every index of the output array is in the block of the point its batch falls in. -/
theorem covered1 (i : S64x1296x80.Idx) :
    ∃ t : Fin cfg1.N, (cfg1.win 1).flush t = true ∧ i ∈ ((cfg1.win 1).blk t).view.set := by
  have hN := gridPoints1
  have hi0 : (i 0).val < 64 := (i 0).isLt
  have hi1 : (i 1).val < 1296 := (i 1).isLt
  have hi2 : (i 2).val < 80 := (i 2).isLt
  refine ⟨⟨(i 0).val / 8, by omega⟩, flush1_1 _, ?_⟩
  rw [inBlock1]
  obtain ⟨-, -, -, -, e0, e1, e2⟩ := blockIdx1 ⟨(i 0).val / 8, by omega⟩
  intro a
  match a with
  | ⟨0, _⟩ => show win1_1.index _ (0 : Fin 3) * 8 ≤ (i 0).val ∧ (i 0).val < win1_1.index _ (0 : Fin 3) * 8 + 8; simp only [e0]; omega
  | ⟨1, _⟩ => show win1_1.index _ (1 : Fin 3) * 1296 ≤ (i 1).val ∧ (i 1).val < win1_1.index _ (1 : Fin 3) * 1296 + 1296; simp only [e1]; omega
  | ⟨2, _⟩ => show win1_1.index _ (2 : Fin 3) * 80 ≤ (i 2).val ∧ (i 2).val < win1_1.index _ (2 : Fin 3) * 80 + 80; simp only [e2]; omega

/-- The output array after the region: the level's result on the input array as the region found it. -/
theorem levelArray1
    (hpay : ∀ (xb : (⟨4, ![8, 80, 36, 36]⟩ : Shape).Idx → EReal) (b : Fin 8) (r : Fin 1296) (cc : Fin 80),
      k1_pay1 (F := Ideal) xb (ix3 b r cc) = Cert.Spec.lvlAt (B := 8) (C := 80) (S := 36) (N := 1296) rfl (by decide) xb b r cc)
    (c : Dev nD) :
    (regionDat1 V c).arrAt 1 cfg1.N = Cert.Spec.lvl (B := 64) (C := 80) (S := 36) (N := 1296) rfl (by decide) (V c main_arg1) :=
  (regionDat1 V c).arrAt_eq_of_cover 1 _ (fun t _ => flushedLvl1 V hpay c t) (covered1)

end Cert.KernelIdeal.Hand

end
-- ==== Proof.PayLevel1.lean ====
/-
  The kernel's stored value for pyramid level 1, read at one index.

  The body computes σ = logistic(x) on a block x of shape [8, 80, 36, 36], pads every [36, 36] plane of σ with a row of -∞
  above and a column of -∞ on the left, takes the maximum of the four unit-offset [36, 36] slices of the padded
  plane, keeps σ where it equals that maximum (zero elsewhere), and lays the result out as [8, 1296, 80]. Read at
  (b, r, c) this is the specification's kept value of plane (b, c) at row r / 36, column r % 36.
-/
import proofs.«137573_j63891933495891_1_alg».proof.Proof.Spec
import proofs.«137573_j63891933495891_1_alg».proof.Proof.Gen.KernelIdeal.Skeleton
import proofs.«137573_j63891933495891_1_alg».proof.Proof.PayCommon
import Idealize.ShloMosaic.Lib.Pipeline.Value

noncomputable section

namespace Cert.KernelSide

open Idealize.ShloMosaic Idealize.ShloMosaic.ValueIdx Cert.KernelIdeal

/-- The padded plane of level 1 at padded coordinates (a, d) ∈ [0, 36]²: -∞ on row 0 and on column 0, σ(a-1, d-1) elsewhere. -/
theorem pad1_apply (h2 : Shape.Concatenates [S8x80x1x36, S8x80x36x36] S8x80x37x36 2) (h3 : Shape.Concatenates [S8x80x37x1, S8x80x37x36] S8x80x37x37 3)
    (x : S8x80x36x36.Idx → EReal) (b : Fin 8) (c : Fin 80) (a d : Fin 37) :
    concatenate S8x80x37x37 3 [⟨S8x80x37x1, broadcast S8x80x37x1 (Scalar.ofBits (F := Ideal) .f32 0xFF800000#32)⟩,
        ⟨S8x80x37x36, concatenate S8x80x37x36 2 [⟨S8x80x1x36, broadcast S8x80x1x36 (Scalar.ofBits (F := Ideal) .f32 0xFF800000#32)⟩,
          ⟨S8x80x36x36, logistic (F := Ideal) (φ := .f32) x⟩] h2⟩] h3 (ix4 b c a d)
      = Cert.Spec.padAt (S := 36) (fun i j => x (ix4 b c i j)) a.val d.val := by
  have ha := a.isLt
  have hd := d.isLt
  by_cases hd0 : d.val = 0
  · -- column 0 lies in the -∞ piece
    rw [Cert.Spec.padAt, dif_neg (by omega)]
    refine (concatenate_pair_apply_left (t := S8x80x37x37) (s₁ := S8x80x37x1) (s₂ := S8x80x37x36) (3 : Fin 4) _ _ h3 (ix4 b c a d) rfl (ix4 b c a ⟨0, Nat.one_pos⟩)
      (fun e => match e with
        | ⟨0, _⟩ => rfl
        | ⟨1, _⟩ => rfl
        | ⟨2, _⟩ => rfl
        | ⟨3, _⟩ => by show 0 = d.val; omega)).trans ?_
    exact negInf_word
  · -- a column ≥ 1 lies in the row-padded piece, one column to the left
    refine (concatenate_pair_apply_right (t := S8x80x37x37) (s₁ := S8x80x37x1) (s₂ := S8x80x37x36) (3 : Fin 4) _ _ h3 (ix4 b c a d) rfl rfl (ix4 b c a ⟨d.val - 1, by omega⟩)
      (fun e => match e with
        | ⟨0, _⟩ => fun _ => rfl
        | ⟨1, _⟩ => fun _ => rfl
        | ⟨2, _⟩ => fun _ => rfl
        | ⟨3, _⟩ => fun hne => absurd rfl hne)
      (by show d.val - 1 + 1 = d.val; omega)).trans ?_
    by_cases ha0 : a.val = 0
    · -- row 0 lies in the -∞ piece
      rw [Cert.Spec.padAt, dif_neg (by omega)]
      refine (concatenate_pair_apply_left (t := S8x80x37x36) (s₁ := S8x80x1x36) (s₂ := S8x80x36x36) (2 : Fin 4) _ _ h2 (ix4 b c a ⟨d.val - 1, by omega⟩) rfl
        (ix4 b c ⟨0, Nat.one_pos⟩ ⟨d.val - 1, by omega⟩)
        (fun e => match e with
          | ⟨0, _⟩ => rfl
          | ⟨1, _⟩ => rfl
          | ⟨2, _⟩ => by show 0 = a.val; omega
          | ⟨3, _⟩ => rfl)).trans ?_
      exact negInf_word
    · -- a row ≥ 1 lies in σ, one row up
      rw [Cert.Spec.padAt, dif_pos (by omega)]
      refine (concatenate_pair_apply_right (t := S8x80x37x36) (s₁ := S8x80x1x36) (s₂ := S8x80x36x36) (2 : Fin 4) _ _ h2 (ix4 b c a ⟨d.val - 1, by omega⟩) rfl rfl
        (ix4 b c ⟨a.val - 1, by omega⟩ ⟨d.val - 1, by omega⟩)
        (fun e => match e with
          | ⟨0, _⟩ => fun _ => rfl
          | ⟨1, _⟩ => fun _ => rfl
          | ⟨2, _⟩ => fun hne => absurd rfl hne
          | ⟨3, _⟩ => fun _ => rfl)
        (by show a.val - 1 + 1 = a.val; omega)).trans ?_
      rfl

/-- One unit-offset slice of the padded plane, read at (i, j): the padded plane at (i + di, j + dj). -/
theorem slice1_apply (P : S8x80x37x37.Idx → EReal) (di dj : Nat) (hdi : di ≤ 1) (hdj : dj ≤ 1)
    (h : S8x80x37x37.Slices ![0, 0, di, dj] S8x80x36x36) (b : Fin 8) (c : Fin 80) (i j : Fin 36) :
    extractStridedSlice S8x80x36x36 ![0, 0, di, dj] P h (ix4 b c i j)
      = P (ix4 b c ⟨i.val + di, by have := i.isLt; omega⟩ ⟨j.val + dj, by have := j.isLt; omega⟩) :=
  extractStridedSlice_apply _ _ _ _ _ (fun e => match e with
    | ⟨0, _⟩ => by show b.val = 0 + b.val; omega
    | ⟨1, _⟩ => by show c.val = 0 + c.val; omega
    | ⟨2, _⟩ => by show i.val + di = di + i.val; omega
    | ⟨3, _⟩ => by show j.val + dj = dj + j.val; omega)

/-- The kernel's stored value of level 1 at (b, r, c) is the specification's entry there. -/
theorem pay1_apply (xb : (⟨4, ![8, 80, 36, 36]⟩ : Shape).Idx → EReal) (b : Fin 8) (r : Fin 1296) (c : Fin 80) :
    Cert.KernelIdeal.Gen.k1_pay1 (F := Ideal) xb (ix3 b r c)
      = Cert.Spec.lvlAt (B := 8) (C := 80) (S := 36) (N := 1296) rfl (by decide) xb b r c := by
  have hr := r.isLt
  have hi : r.val / 36 < 36 := by omega
  have hj : r.val % 36 < 36 := Nat.mod_lt _ (by decide)
  unfold Cert.KernelIdeal.Gen.k1_pay1
  -- the final reshape: [8, 1296, 80] at (b, r, c) reads [8, 36, 36, 80] at (b, r / 36, r % 36, c)
  refine (shapeCast_apply _ _ (ix3 b r c) (ix4 b ⟨r.val / 36, hi⟩ ⟨r.val % 36, hj⟩ c)
    (by rw [Shape.rowMajor_val_four, Shape.rowMajor_val_three]
        show ((b.val * 36 + r.val / 36) * 36 + r.val % 36) * 80 + c.val = (b.val * 1296 + r.val) * 80 + c.val
        omega)).trans ?_
  -- the transpose [0, 2, 3, 1]: [8, 36, 36, 80] at (b, i, j, c) reads [8, 80, 36, 36] at (b, c, i, j)
  refine (transpose_apply _ _ _ _ (ix4 b c ⟨r.val / 36, hi⟩ ⟨r.val % 36, hj⟩)
    (fun e => match e with | ⟨0, _⟩ => rfl | ⟨1, _⟩ => rfl | ⟨2, _⟩ => rfl | ⟨3, _⟩ => rfl)).trans ?_
  -- the pointwise operations, then the four slices of the padded plane
  rw [select_apply, cmpf_apply, broadcast_apply, maximumf_apply, maximumf_apply, maximumf_apply,
    slice1_apply _ 0 0 (by omega) (by omega), slice1_apply _ 0 1 (by omega) (by omega),
    slice1_apply _ 1 0 (by omega) (by omega), slice1_apply _ 1 1 (by omega) (by omega),
    pad1_apply, pad1_apply, pad1_apply, pad1_apply]
  exact keep_eq_peak (fun i j => xb (ix4 b c i j)) ⟨r.val / 36, hi⟩ ⟨r.val % 36, hj⟩

end Cert.KernelSide

end
-- ==== Proof.KIVal2.lean ====
/-
  Level 2: what pallas_call 2 leaves in its output array, as one function of its input array.

  Grid point t works on the batch slab [32·t, 32·t + 32) of both arrays: the input window's block is that slab of the
  [64, 80, 24, 24] input, the output window's block that slab of the [64, 576, 80] output. An entry of the level's
  result depends on its own (batch, class) plane only, so the body's result on the slab is the slab of the level's
  result on the whole array; the slabs cover the batch axis, so the output array ends holding the level's result.
-/
import proofs.«137573_j63891933495891_1_alg».proof.Proof.KIBody2
import proofs.«137573_j63891933495891_1_alg».proof.Proof.Spec
import Idealize.ShloMosaic.Lib.Pipeline.Value
import Idealize.ShloMosaic.Lib.ValueIdx
import Idealize.ShloMosaic.PureOps.Ideal

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem zero3_2 : (![0, 0, 0] : Fin 3 → Nat) = fun _ => 0 := funext fun a => by fin_cases a <;> rfl
theorem zero4_2 : (![0, 0, 0, 0] : Fin 4 → Nat) = fun _ => 0 := funext fun a => by fin_cases a <;> rfl

/-- Both windows step along the batch axis only, and together: at point t their block index is (t, 0, …). -/
theorem blockIdx2 : ∀ t : Fin cfg2.N, win2_0.index t (0 : Fin 4) = t.val ∧ win2_0.index t (1 : Fin 4) = 0 ∧ win2_0.index t (2 : Fin 4) = 0 ∧ win2_0.index t (3 : Fin 4) = 0
    ∧ win2_1.index t (0 : Fin 3) = t.val ∧ win2_1.index t (1 : Fin 3) = 0 ∧ win2_1.index t (2 : Fin 3) = 0 :=
  (by decide +kernel : ∀ t : Fin grid2.N, _)

theorem gridPoints2 : cfg2.N = 2 := by decide

/-- Entry (b, r, cc) of the output block at point t sits in the output array at batch 32·t + b. -/
theorem outEmb2 (t : Fin cfg2.N) (b : Fin 32) (r : Fin 576) (cc : Fin 80) (hb : t.val * 32 + b.val < 64) :
    ((cfg2.win 1).blk t).view.emb (ix3 b r cc) = (ix3 (⟨t.val * 32 + b.val, hb⟩ : Fin 64) r cc : (⟨3, ![64, 576, 80]⟩ : Shape).Idx) := by
  obtain ⟨-, -, -, -, e0, e1, e2⟩ := blockIdx2 t
  funext a; apply Fin.ext
  match a with
  | ⟨0, _⟩ => show win2_1.index t (0 : Fin 3) * 32 + 1 * b.val = t.val * 32 + b.val; omega
  | ⟨1, _⟩ => show win2_1.index t (1 : Fin 3) * 576 + 1 * r.val = r.val; omega
  | ⟨2, _⟩ => show win2_1.index t (2 : Fin 3) * 80 + 1 * cc.val = cc.val; omega

/-- Entry (b, cc, i, j) of the input block at point t sits in the input array at batch 32·t + b. -/
theorem inEmb2 (t : Fin cfg2.N) (b : Fin 32) (cc : Fin 80) (i j : Fin 24) (hb : t.val * 32 + b.val < 64) :
    ((cfg2.win 0).blk t).view.emb (ix4 b cc i j) = (ix4 (⟨t.val * 32 + b.val, hb⟩ : Fin 64) cc i j : (⟨4, ![64, 80, 24, 24]⟩ : Shape).Idx) := by
  obtain ⟨e0, e1, e2, e3, -, -, -⟩ := blockIdx2 t
  funext a; apply Fin.ext
  match a with
  | ⟨0, _⟩ => show win2_0.index t (0 : Fin 4) * 32 + 1 * b.val = t.val * 32 + b.val; omega
  | ⟨1, _⟩ => show win2_0.index t (1 : Fin 4) * 80 + 1 * cc.val = cc.val; omega
  | ⟨2, _⟩ => show win2_0.index t (2 : Fin 4) * 24 + 1 * i.val = i.val; omega
  | ⟨3, _⟩ => show win2_0.index t (3 : Fin 4) * 24 + 1 * j.val = j.val; omega

/-- What point t writes back is the point's slab of the level's result on the whole input array, given that the
    body's arithmetic on a slab is the level's result on that slab (hpay). -/
theorem flushedLvl2
    (hpay : ∀ (xb : (⟨4, ![32, 80, 24, 24]⟩ : Shape).Idx → EReal) (b : Fin 32) (r : Fin 576) (cc : Fin 80),
      k2_pay1 (F := Ideal) xb (ix3 b r cc) = Cert.Spec.lvlAt (B := 32) (C := 80) (S := 24) (N := 576) rfl (by decide) xb b r cc)
    (c : Dev nD) (t : Fin cfg2.N) :
    (regionDat2 V c).flushed 1 t = ((cfg2.win 1).blk t).view.read (Elt Ideal)
      (Cert.Spec.lvl (B := 64) (C := 80) (S := 24) (N := 576) rfl (by decide) (V c main_arg2)) := by
  show (cfg2.win 1).cut (grid2.coords t) ((regionDat2 V c).after 1 t) = _
  rw [regionDat2_after_out]
  unfold bodyOut2
  rw [View.canon_unit_zero zero3_2]
  simp only [View.ld_unit_zero (S := S32x80x24x24) zero4_2]
  funext y
  obtain ⟨b, r, cc, rfl⟩ : ∃ (b : Fin 32) (r : Fin 576) (cc : Fin 80), y = ix3 b r cc := ⟨y 0, y 1, y 2, eq_ix3 y⟩
  have hN := gridPoints2
  have hb : t.val * 32 + b.val < 64 := by have := t.isLt; have := b.isLt; omega
  show k2_pay1 (F := Ideal) (blockAt2 V c 0 t) (ix3 b r cc)
    = Cert.Spec.lvl (B := 64) (C := 80) (S := 24) (N := 576) rfl (by decide) (V c main_arg2) (((cfg2.win 1).blk t).view.emb (ix3 b r cc))
  rw [outEmb2 t b r cc hb, Cert.Spec.lvl_apply, hpay]
  refine Cert.Spec.lvlAt_congr (B := 32) (B' := 64) (C := 80) (S := 24) (N := 576) rfl (by decide) _ _ b ⟨t.val * 32 + b.val, hb⟩ r cc fun i j => ?_
  show V c main_arg2 (((cfg2.win 0).blk t).view.emb (ix4 b cc i j)) = _
  rw [inEmb2 t b cc i j hb]

/-- An index of the output array is in point t's block iff each coordinate is in the block's range on its axis. -/
theorem inBlock2 (t : Fin cfg2.N) (i : S64x576x80.Idx) :
    i ∈ ((cfg2.win 1).blk t).view.set ↔ ∀ a : Fin 3, win2_1.index t a * S32x576x80.size a ≤ (i a).val ∧ (i a).val < win2_1.index t a * S32x576x80.size a + S32x576x80.size a := by
  show i ∈ ((View.whole main_v2).slice (win2_1.rect t)).set ↔ _
  rw [View.set_slice_whole, Rect.mem_set_unit]
  exact Iff.rfl

/-- Every index of the output array is in the block of the point its batch falls in. -/
theorem covered2 (i : S64x576x80.Idx) :
    ∃ t : Fin cfg2.N, (cfg2.win 1).flush t = true ∧ i ∈ ((cfg2.win 1).blk t).view.set := by
  have hN := gridPoints2
  have hi0 : (i 0).val < 64 := (i 0).isLt
  have hi1 : (i 1).val < 576 := (i 1).isLt
  have hi2 : (i 2).val < 80 := (i 2).isLt
  refine ⟨⟨(i 0).val / 32, by omega⟩, flush2_1 _, ?_⟩
  rw [inBlock2]
  obtain ⟨-, -, -, -, e0, e1, e2⟩ := blockIdx2 ⟨(i 0).val / 32, by omega⟩
  intro a
  match a with
  | ⟨0, _⟩ => show win2_1.index _ (0 : Fin 3) * 32 ≤ (i 0).val ∧ (i 0).val < win2_1.index _ (0 : Fin 3) * 32 + 32; simp only [e0]; omega
  | ⟨1, _⟩ => show win2_1.index _ (1 : Fin 3) * 576 ≤ (i 1).val ∧ (i 1).val < win2_1.index _ (1 : Fin 3) * 576 + 576; simp only [e1]; omega
  | ⟨2, _⟩ => show win2_1.index _ (2 : Fin 3) * 80 ≤ (i 2).val ∧ (i 2).val < win2_1.index _ (2 : Fin 3) * 80 + 80; simp only [e2]; omega

/-- The output array after the region: the level's result on the input array as the region found it. -/
theorem levelArray2
    (hpay : ∀ (xb : (⟨4, ![32, 80, 24, 24]⟩ : Shape).Idx → EReal) (b : Fin 32) (r : Fin 576) (cc : Fin 80),
      k2_pay1 (F := Ideal) xb (ix3 b r cc) = Cert.Spec.lvlAt (B := 32) (C := 80) (S := 24) (N := 576) rfl (by decide) xb b r cc)
    (c : Dev nD) :
    (regionDat2 V c).arrAt 1 cfg2.N = Cert.Spec.lvl (B := 64) (C := 80) (S := 24) (N := 576) rfl (by decide) (V c main_arg2) :=
  (regionDat2 V c).arrAt_eq_of_cover 1 _ (fun t _ => flushedLvl2 V hpay c t) (covered2)

end Cert.KernelIdeal.Hand

end
-- ==== Proof.PayLevel2.lean ====
/-
  The kernel's stored value for pyramid level 2, read at one index.

  The body computes σ = logistic(x) on a block x of shape [32, 80, 24, 24], pads every [24, 24] plane of σ with a row of -∞
  above and a column of -∞ on the left, takes the maximum of the four unit-offset [24, 24] slices of the padded
  plane, keeps σ where it equals that maximum (zero elsewhere), and lays the result out as [32, 576, 80]. Read at
  (b, r, c) this is the specification's kept value of plane (b, c) at row r / 24, column r % 24.
-/
import proofs.«137573_j63891933495891_1_alg».proof.Proof.Spec
import proofs.«137573_j63891933495891_1_alg».proof.Proof.Gen.KernelIdeal.Skeleton
import proofs.«137573_j63891933495891_1_alg».proof.Proof.PayCommon
import Idealize.ShloMosaic.Lib.Pipeline.Value

noncomputable section

namespace Cert.KernelSide

open Idealize.ShloMosaic Idealize.ShloMosaic.ValueIdx Cert.KernelIdeal

/-- The padded plane of level 2 at padded coordinates (a, d) ∈ [0, 24]²: -∞ on row 0 and on column 0, σ(a-1, d-1) elsewhere. -/
theorem pad2_apply (h2 : Shape.Concatenates [S32x80x1x24, S32x80x24x24] S32x80x25x24 2) (h3 : Shape.Concatenates [S32x80x25x1, S32x80x25x24] S32x80x25x25 3)
    (x : S32x80x24x24.Idx → EReal) (b : Fin 32) (c : Fin 80) (a d : Fin 25) :
    concatenate S32x80x25x25 3 [⟨S32x80x25x1, broadcast S32x80x25x1 (Scalar.ofBits (F := Ideal) .f32 0xFF800000#32)⟩,
        ⟨S32x80x25x24, concatenate S32x80x25x24 2 [⟨S32x80x1x24, broadcast S32x80x1x24 (Scalar.ofBits (F := Ideal) .f32 0xFF800000#32)⟩,
          ⟨S32x80x24x24, logistic (F := Ideal) (φ := .f32) x⟩] h2⟩] h3 (ix4 b c a d)
      = Cert.Spec.padAt (S := 24) (fun i j => x (ix4 b c i j)) a.val d.val := by
  have ha := a.isLt
  have hd := d.isLt
  by_cases hd0 : d.val = 0
  · -- column 0 lies in the -∞ piece
    rw [Cert.Spec.padAt, dif_neg (by omega)]
    refine (concatenate_pair_apply_left (t := S32x80x25x25) (s₁ := S32x80x25x1) (s₂ := S32x80x25x24) (3 : Fin 4) _ _ h3 (ix4 b c a d) rfl (ix4 b c a ⟨0, Nat.one_pos⟩)
      (fun e => match e with
        | ⟨0, _⟩ => rfl
        | ⟨1, _⟩ => rfl
        | ⟨2, _⟩ => rfl
        | ⟨3, _⟩ => by show 0 = d.val; omega)).trans ?_
    exact negInf_word
  · -- a column ≥ 1 lies in the row-padded piece, one column to the left
    refine (concatenate_pair_apply_right (t := S32x80x25x25) (s₁ := S32x80x25x1) (s₂ := S32x80x25x24) (3 : Fin 4) _ _ h3 (ix4 b c a d) rfl rfl (ix4 b c a ⟨d.val - 1, by omega⟩)
      (fun e => match e with
        | ⟨0, _⟩ => fun _ => rfl
        | ⟨1, _⟩ => fun _ => rfl
        | ⟨2, _⟩ => fun _ => rfl
        | ⟨3, _⟩ => fun hne => absurd rfl hne)
      (by show d.val - 1 + 1 = d.val; omega)).trans ?_
    by_cases ha0 : a.val = 0
    · -- row 0 lies in the -∞ piece
      rw [Cert.Spec.padAt, dif_neg (by omega)]
      refine (concatenate_pair_apply_left (t := S32x80x25x24) (s₁ := S32x80x1x24) (s₂ := S32x80x24x24) (2 : Fin 4) _ _ h2 (ix4 b c a ⟨d.val - 1, by omega⟩) rfl
        (ix4 b c ⟨0, Nat.one_pos⟩ ⟨d.val - 1, by omega⟩)
        (fun e => match e with
          | ⟨0, _⟩ => rfl
          | ⟨1, _⟩ => rfl
          | ⟨2, _⟩ => by show 0 = a.val; omega
          | ⟨3, _⟩ => rfl)).trans ?_
      exact negInf_word
    · -- a row ≥ 1 lies in σ, one row up
      rw [Cert.Spec.padAt, dif_pos (by omega)]
      refine (concatenate_pair_apply_right (t := S32x80x25x24) (s₁ := S32x80x1x24) (s₂ := S32x80x24x24) (2 : Fin 4) _ _ h2 (ix4 b c a ⟨d.val - 1, by omega⟩) rfl rfl
        (ix4 b c ⟨a.val - 1, by omega⟩ ⟨d.val - 1, by omega⟩)
        (fun e => match e with
          | ⟨0, _⟩ => fun _ => rfl
          | ⟨1, _⟩ => fun _ => rfl
          | ⟨2, _⟩ => fun hne => absurd rfl hne
          | ⟨3, _⟩ => fun _ => rfl)
        (by show a.val - 1 + 1 = a.val; omega)).trans ?_
      rfl

/-- One unit-offset slice of the padded plane, read at (i, j): the padded plane at (i + di, j + dj). -/
theorem slice2_apply (P : S32x80x25x25.Idx → EReal) (di dj : Nat) (hdi : di ≤ 1) (hdj : dj ≤ 1)
    (h : S32x80x25x25.Slices ![0, 0, di, dj] S32x80x24x24) (b : Fin 32) (c : Fin 80) (i j : Fin 24) :
    extractStridedSlice S32x80x24x24 ![0, 0, di, dj] P h (ix4 b c i j)
      = P (ix4 b c ⟨i.val + di, by have := i.isLt; omega⟩ ⟨j.val + dj, by have := j.isLt; omega⟩) :=
  extractStridedSlice_apply _ _ _ _ _ (fun e => match e with
    | ⟨0, _⟩ => by show b.val = 0 + b.val; omega
    | ⟨1, _⟩ => by show c.val = 0 + c.val; omega
    | ⟨2, _⟩ => by show i.val + di = di + i.val; omega
    | ⟨3, _⟩ => by show j.val + dj = dj + j.val; omega)

/-- The kernel's stored value of level 2 at (b, r, c) is the specification's entry there. -/
theorem pay2_apply (xb : (⟨4, ![32, 80, 24, 24]⟩ : Shape).Idx → EReal) (b : Fin 32) (r : Fin 576) (c : Fin 80) :
    Cert.KernelIdeal.Gen.k2_pay1 (F := Ideal) xb (ix3 b r c)
      = Cert.Spec.lvlAt (B := 32) (C := 80) (S := 24) (N := 576) rfl (by decide) xb b r c := by
  have hr := r.isLt
  have hi : r.val / 24 < 24 := by omega
  have hj : r.val % 24 < 24 := Nat.mod_lt _ (by decide)
  unfold Cert.KernelIdeal.Gen.k2_pay1
  -- the final reshape: [32, 576, 80] at (b, r, c) reads [32, 24, 24, 80] at (b, r / 24, r % 24, c)
  refine (shapeCast_apply _ _ (ix3 b r c) (ix4 b ⟨r.val / 24, hi⟩ ⟨r.val % 24, hj⟩ c)
    (by rw [Shape.rowMajor_val_four, Shape.rowMajor_val_three]
        show ((b.val * 24 + r.val / 24) * 24 + r.val % 24) * 80 + c.val = (b.val * 576 + r.val) * 80 + c.val
        omega)).trans ?_
  -- the transpose [0, 2, 3, 1]: [32, 24, 24, 80] at (b, i, j, c) reads [32, 80, 24, 24] at (b, c, i, j)
  refine (transpose_apply _ _ _ _ (ix4 b c ⟨r.val / 24, hi⟩ ⟨r.val % 24, hj⟩)
    (fun e => match e with | ⟨0, _⟩ => rfl | ⟨1, _⟩ => rfl | ⟨2, _⟩ => rfl | ⟨3, _⟩ => rfl)).trans ?_
  -- the pointwise operations, then the four slices of the padded plane
  rw [select_apply, cmpf_apply, broadcast_apply, maximumf_apply, maximumf_apply, maximumf_apply,
    slice2_apply _ 0 0 (by omega) (by omega), slice2_apply _ 0 1 (by omega) (by omega),
    slice2_apply _ 1 0 (by omega) (by omega), slice2_apply _ 1 1 (by omega) (by omega),
    pad2_apply, pad2_apply, pad2_apply, pad2_apply]
  exact keep_eq_peak (fun i j => xb (ix4 b c i j)) ⟨r.val / 24, hi⟩ ⟨r.val % 24, hj⟩

end Cert.KernelSide

end
-- ==== Proof.KIVal3.lean ====
/-
  Level 3: what pallas_call 3 leaves in its output array, as one function of its input array.

  Grid point t works on the batch slab [64·t, 64·t + 64) of both arrays: the input window's block is that slab of the
  [64, 80, 16, 16] input, the output window's block that slab of the [64, 256, 80] output. An entry of the level's
  result depends on its own (batch, class) plane only, so the body's result on the slab is the slab of the level's
  result on the whole array; the slabs cover the batch axis, so the output array ends holding the level's result.
-/
import proofs.«137573_j63891933495891_1_alg».proof.Proof.KIBody3
import proofs.«137573_j63891933495891_1_alg».proof.Proof.Spec
import Idealize.ShloMosaic.Lib.Pipeline.Value
import Idealize.ShloMosaic.Lib.ValueIdx
import Idealize.ShloMosaic.PureOps.Ideal

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem zero3_3 : (![0, 0, 0] : Fin 3 → Nat) = fun _ => 0 := funext fun a => by fin_cases a <;> rfl
theorem zero4_3 : (![0, 0, 0, 0] : Fin 4 → Nat) = fun _ => 0 := funext fun a => by fin_cases a <;> rfl

/-- Both windows step along the batch axis only, and together: at point t their block index is (t, 0, …). -/
theorem blockIdx3 : ∀ t : Fin cfg3.N, win3_0.index t (0 : Fin 4) = t.val ∧ win3_0.index t (1 : Fin 4) = 0 ∧ win3_0.index t (2 : Fin 4) = 0 ∧ win3_0.index t (3 : Fin 4) = 0
    ∧ win3_1.index t (0 : Fin 3) = t.val ∧ win3_1.index t (1 : Fin 3) = 0 ∧ win3_1.index t (2 : Fin 3) = 0 :=
  (by decide +kernel : ∀ t : Fin grid3.N, _)

theorem gridPoints3 : cfg3.N = 1 := by decide

/-- Entry (b, r, cc) of the output block at point t sits in the output array at batch 64·t + b. -/
theorem outEmb3 (t : Fin cfg3.N) (b : Fin 64) (r : Fin 256) (cc : Fin 80) (hb : t.val * 64 + b.val < 64) :
    ((cfg3.win 1).blk t).view.emb (ix3 b r cc) = (ix3 (⟨t.val * 64 + b.val, hb⟩ : Fin 64) r cc : (⟨3, ![64, 256, 80]⟩ : Shape).Idx) := by
  obtain ⟨-, -, -, -, e0, e1, e2⟩ := blockIdx3 t
  funext a; apply Fin.ext
  match a with
  | ⟨0, _⟩ => show win3_1.index t (0 : Fin 3) * 64 + 1 * b.val = t.val * 64 + b.val; omega
  | ⟨1, _⟩ => show win3_1.index t (1 : Fin 3) * 256 + 1 * r.val = r.val; omega
  | ⟨2, _⟩ => show win3_1.index t (2 : Fin 3) * 80 + 1 * cc.val = cc.val; omega

/-- Entry (b, cc, i, j) of the input block at point t sits in the input array at batch 64·t + b. -/
theorem inEmb3 (t : Fin cfg3.N) (b : Fin 64) (cc : Fin 80) (i j : Fin 16) (hb : t.val * 64 + b.val < 64) :
    ((cfg3.win 0).blk t).view.emb (ix4 b cc i j) = (ix4 (⟨t.val * 64 + b.val, hb⟩ : Fin 64) cc i j : (⟨4, ![64, 80, 16, 16]⟩ : Shape).Idx) := by
  obtain ⟨e0, e1, e2, e3, -, -, -⟩ := blockIdx3 t
  funext a; apply Fin.ext
  match a with
  | ⟨0, _⟩ => show win3_0.index t (0 : Fin 4) * 64 + 1 * b.val = t.val * 64 + b.val; omega
  | ⟨1, _⟩ => show win3_0.index t (1 : Fin 4) * 80 + 1 * cc.val = cc.val; omega
  | ⟨2, _⟩ => show win3_0.index t (2 : Fin 4) * 16 + 1 * i.val = i.val; omega
  | ⟨3, _⟩ => show win3_0.index t (3 : Fin 4) * 16 + 1 * j.val = j.val; omega

/-- What point t writes back is the point's slab of the level's result on the whole input array, given that the
    body's arithmetic on a slab is the level's result on that slab (hpay). -/
theorem flushedLvl3
    (hpay : ∀ (xb : (⟨4, ![64, 80, 16, 16]⟩ : Shape).Idx → EReal) (b : Fin 64) (r : Fin 256) (cc : Fin 80),
      k3_pay1 (F := Ideal) xb (ix3 b r cc) = Cert.Spec.lvlAt (B := 64) (C := 80) (S := 16) (N := 256) rfl (by decide) xb b r cc)
    (c : Dev nD) (t : Fin cfg3.N) :
    (regionDat3 V c).flushed 1 t = ((cfg3.win 1).blk t).view.read (Elt Ideal)
      (Cert.Spec.lvl (B := 64) (C := 80) (S := 16) (N := 256) rfl (by decide) (V c main_arg3)) := by
  show (cfg3.win 1).cut (grid3.coords t) ((regionDat3 V c).after 1 t) = _
  rw [regionDat3_after_out]
  unfold bodyOut3
  rw [View.canon_unit_zero zero3_3]
  simp only [View.ld_unit_zero (S := S64x80x16x16) zero4_3]
  funext y
  obtain ⟨b, r, cc, rfl⟩ : ∃ (b : Fin 64) (r : Fin 256) (cc : Fin 80), y = ix3 b r cc := ⟨y 0, y 1, y 2, eq_ix3 y⟩
  have hN := gridPoints3
  have hb : t.val * 64 + b.val < 64 := by have := t.isLt; have := b.isLt; omega
  show k3_pay1 (F := Ideal) (blockAt3 V c 0 t) (ix3 b r cc)
    = Cert.Spec.lvl (B := 64) (C := 80) (S := 16) (N := 256) rfl (by decide) (V c main_arg3) (((cfg3.win 1).blk t).view.emb (ix3 b r cc))
  rw [outEmb3 t b r cc hb, Cert.Spec.lvl_apply, hpay]
  refine Cert.Spec.lvlAt_congr (B := 64) (B' := 64) (C := 80) (S := 16) (N := 256) rfl (by decide) _ _ b ⟨t.val * 64 + b.val, hb⟩ r cc fun i j => ?_
  show V c main_arg3 (((cfg3.win 0).blk t).view.emb (ix4 b cc i j)) = _
  rw [inEmb3 t b cc i j hb]

/-- An index of the output array is in point t's block iff each coordinate is in the block's range on its axis. -/
theorem inBlock3 (t : Fin cfg3.N) (i : S64x256x80.Idx) :
    i ∈ ((cfg3.win 1).blk t).view.set ↔ ∀ a : Fin 3, win3_1.index t a * S64x256x80.size a ≤ (i a).val ∧ (i a).val < win3_1.index t a * S64x256x80.size a + S64x256x80.size a := by
  show i ∈ ((View.whole main_v3).slice (win3_1.rect t)).set ↔ _
  rw [View.set_slice_whole, Rect.mem_set_unit]
  exact Iff.rfl

/-- Every index of the output array is in the block of the point its batch falls in. -/
theorem covered3 (i : S64x256x80.Idx) :
    ∃ t : Fin cfg3.N, (cfg3.win 1).flush t = true ∧ i ∈ ((cfg3.win 1).blk t).view.set := by
  have hN := gridPoints3
  have hi0 : (i 0).val < 64 := (i 0).isLt
  have hi1 : (i 1).val < 256 := (i 1).isLt
  have hi2 : (i 2).val < 80 := (i 2).isLt
  refine ⟨⟨(i 0).val / 64, by omega⟩, flush3_1 _, ?_⟩
  rw [inBlock3]
  obtain ⟨-, -, -, -, e0, e1, e2⟩ := blockIdx3 ⟨(i 0).val / 64, by omega⟩
  intro a
  match a with
  | ⟨0, _⟩ => show win3_1.index _ (0 : Fin 3) * 64 ≤ (i 0).val ∧ (i 0).val < win3_1.index _ (0 : Fin 3) * 64 + 64; simp only [e0]; omega
  | ⟨1, _⟩ => show win3_1.index _ (1 : Fin 3) * 256 ≤ (i 1).val ∧ (i 1).val < win3_1.index _ (1 : Fin 3) * 256 + 256; simp only [e1]; omega
  | ⟨2, _⟩ => show win3_1.index _ (2 : Fin 3) * 80 ≤ (i 2).val ∧ (i 2).val < win3_1.index _ (2 : Fin 3) * 80 + 80; simp only [e2]; omega

/-- The output array after the region: the level's result on the input array as the region found it. -/
theorem levelArray3
    (hpay : ∀ (xb : (⟨4, ![64, 80, 16, 16]⟩ : Shape).Idx → EReal) (b : Fin 64) (r : Fin 256) (cc : Fin 80),
      k3_pay1 (F := Ideal) xb (ix3 b r cc) = Cert.Spec.lvlAt (B := 64) (C := 80) (S := 16) (N := 256) rfl (by decide) xb b r cc)
    (c : Dev nD) :
    (regionDat3 V c).arrAt 1 cfg3.N = Cert.Spec.lvl (B := 64) (C := 80) (S := 16) (N := 256) rfl (by decide) (V c main_arg3) :=
  (regionDat3 V c).arrAt_eq_of_cover 1 _ (fun t _ => flushedLvl3 V hpay c t) (covered3)

end Cert.KernelIdeal.Hand

end
-- ==== Proof.PayLevel3.lean ====
/-
  The kernel's stored value for pyramid level 3, read at one index.

  The body computes σ = logistic(x) on a block x of shape [64, 80, 16, 16], pads every [16, 16] plane of σ with a row of -∞
  above and a column of -∞ on the left, takes the maximum of the four unit-offset [16, 16] slices of the padded
  plane, keeps σ where it equals that maximum (zero elsewhere), and lays the result out as [64, 256, 80]. Read at
  (b, r, c) this is the specification's kept value of plane (b, c) at row r / 16, column r % 16.
-/
import proofs.«137573_j63891933495891_1_alg».proof.Proof.Spec
import proofs.«137573_j63891933495891_1_alg».proof.Proof.Gen.KernelIdeal.Skeleton
import proofs.«137573_j63891933495891_1_alg».proof.Proof.PayCommon
import Idealize.ShloMosaic.Lib.Pipeline.Value

noncomputable section

namespace Cert.KernelSide

open Idealize.ShloMosaic Idealize.ShloMosaic.ValueIdx Cert.KernelIdeal

/-- The padded plane of level 3 at padded coordinates (a, d) ∈ [0, 16]²: -∞ on row 0 and on column 0, σ(a-1, d-1) elsewhere. -/
theorem pad3_apply (h2 : Shape.Concatenates [S64x80x1x16, S64x80x16x16] S64x80x17x16 2) (h3 : Shape.Concatenates [S64x80x17x1, S64x80x17x16] S64x80x17x17 3)
    (x : S64x80x16x16.Idx → EReal) (b : Fin 64) (c : Fin 80) (a d : Fin 17) :
    concatenate S64x80x17x17 3 [⟨S64x80x17x1, broadcast S64x80x17x1 (Scalar.ofBits (F := Ideal) .f32 0xFF800000#32)⟩,
        ⟨S64x80x17x16, concatenate S64x80x17x16 2 [⟨S64x80x1x16, broadcast S64x80x1x16 (Scalar.ofBits (F := Ideal) .f32 0xFF800000#32)⟩,
          ⟨S64x80x16x16, logistic (F := Ideal) (φ := .f32) x⟩] h2⟩] h3 (ix4 b c a d)
      = Cert.Spec.padAt (S := 16) (fun i j => x (ix4 b c i j)) a.val d.val := by
  have ha := a.isLt
  have hd := d.isLt
  by_cases hd0 : d.val = 0
  · -- column 0 lies in the -∞ piece
    rw [Cert.Spec.padAt, dif_neg (by omega)]
    refine (concatenate_pair_apply_left (t := S64x80x17x17) (s₁ := S64x80x17x1) (s₂ := S64x80x17x16) (3 : Fin 4) _ _ h3 (ix4 b c a d) rfl (ix4 b c a ⟨0, Nat.one_pos⟩)
      (fun e => match e with
        | ⟨0, _⟩ => rfl
        | ⟨1, _⟩ => rfl
        | ⟨2, _⟩ => rfl
        | ⟨3, _⟩ => by show 0 = d.val; omega)).trans ?_
    exact negInf_word
  · -- a column ≥ 1 lies in the row-padded piece, one column to the left
    refine (concatenate_pair_apply_right (t := S64x80x17x17) (s₁ := S64x80x17x1) (s₂ := S64x80x17x16) (3 : Fin 4) _ _ h3 (ix4 b c a d) rfl rfl (ix4 b c a ⟨d.val - 1, by omega⟩)
      (fun e => match e with
        | ⟨0, _⟩ => fun _ => rfl
        | ⟨1, _⟩ => fun _ => rfl
        | ⟨2, _⟩ => fun _ => rfl
        | ⟨3, _⟩ => fun hne => absurd rfl hne)
      (by show d.val - 1 + 1 = d.val; omega)).trans ?_
    by_cases ha0 : a.val = 0
    · -- row 0 lies in the -∞ piece
      rw [Cert.Spec.padAt, dif_neg (by omega)]
      refine (concatenate_pair_apply_left (t := S64x80x17x16) (s₁ := S64x80x1x16) (s₂ := S64x80x16x16) (2 : Fin 4) _ _ h2 (ix4 b c a ⟨d.val - 1, by omega⟩) rfl
        (ix4 b c ⟨0, Nat.one_pos⟩ ⟨d.val - 1, by omega⟩)
        (fun e => match e with
          | ⟨0, _⟩ => rfl
          | ⟨1, _⟩ => rfl
          | ⟨2, _⟩ => by show 0 = a.val; omega
          | ⟨3, _⟩ => rfl)).trans ?_
      exact negInf_word
    · -- a row ≥ 1 lies in σ, one row up
      rw [Cert.Spec.padAt, dif_pos (by omega)]
      refine (concatenate_pair_apply_right (t := S64x80x17x16) (s₁ := S64x80x1x16) (s₂ := S64x80x16x16) (2 : Fin 4) _ _ h2 (ix4 b c a ⟨d.val - 1, by omega⟩) rfl rfl
        (ix4 b c ⟨a.val - 1, by omega⟩ ⟨d.val - 1, by omega⟩)
        (fun e => match e with
          | ⟨0, _⟩ => fun _ => rfl
          | ⟨1, _⟩ => fun _ => rfl
          | ⟨2, _⟩ => fun hne => absurd rfl hne
          | ⟨3, _⟩ => fun _ => rfl)
        (by show a.val - 1 + 1 = a.val; omega)).trans ?_
      rfl

/-- One unit-offset slice of the padded plane, read at (i, j): the padded plane at (i + di, j + dj). -/
theorem slice3_apply (P : S64x80x17x17.Idx → EReal) (di dj : Nat) (hdi : di ≤ 1) (hdj : dj ≤ 1)
    (h : S64x80x17x17.Slices ![0, 0, di, dj] S64x80x16x16) (b : Fin 64) (c : Fin 80) (i j : Fin 16) :
    extractStridedSlice S64x80x16x16 ![0, 0, di, dj] P h (ix4 b c i j)
      = P (ix4 b c ⟨i.val + di, by have := i.isLt; omega⟩ ⟨j.val + dj, by have := j.isLt; omega⟩) :=
  extractStridedSlice_apply _ _ _ _ _ (fun e => match e with
    | ⟨0, _⟩ => by show b.val = 0 + b.val; omega
    | ⟨1, _⟩ => by show c.val = 0 + c.val; omega
    | ⟨2, _⟩ => by show i.val + di = di + i.val; omega
    | ⟨3, _⟩ => by show j.val + dj = dj + j.val; omega)

/-- The kernel's stored value of level 3 at (b, r, c) is the specification's entry there. -/
theorem pay3_apply (xb : (⟨4, ![64, 80, 16, 16]⟩ : Shape).Idx → EReal) (b : Fin 64) (r : Fin 256) (c : Fin 80) :
    Cert.KernelIdeal.Gen.k3_pay1 (F := Ideal) xb (ix3 b r c)
      = Cert.Spec.lvlAt (B := 64) (C := 80) (S := 16) (N := 256) rfl (by decide) xb b r c := by
  have hr := r.isLt
  have hi : r.val / 16 < 16 := by omega
  have hj : r.val % 16 < 16 := Nat.mod_lt _ (by decide)
  unfold Cert.KernelIdeal.Gen.k3_pay1
  -- the final reshape: [64, 256, 80] at (b, r, c) reads [64, 16, 16, 80] at (b, r / 16, r % 16, c)
  refine (shapeCast_apply _ _ (ix3 b r c) (ix4 b ⟨r.val / 16, hi⟩ ⟨r.val % 16, hj⟩ c)
    (by rw [Shape.rowMajor_val_four, Shape.rowMajor_val_three]
        show ((b.val * 16 + r.val / 16) * 16 + r.val % 16) * 80 + c.val = (b.val * 256 + r.val) * 80 + c.val
        omega)).trans ?_
  -- the transpose [0, 2, 3, 1]: [64, 16, 16, 80] at (b, i, j, c) reads [64, 80, 16, 16] at (b, c, i, j)
  refine (transpose_apply _ _ _ _ (ix4 b c ⟨r.val / 16, hi⟩ ⟨r.val % 16, hj⟩)
    (fun e => match e with | ⟨0, _⟩ => rfl | ⟨1, _⟩ => rfl | ⟨2, _⟩ => rfl | ⟨3, _⟩ => rfl)).trans ?_
  -- the pointwise operations, then the four slices of the padded plane
  rw [select_apply, cmpf_apply, broadcast_apply, maximumf_apply, maximumf_apply, maximumf_apply,
    slice3_apply _ 0 0 (by omega) (by omega), slice3_apply _ 0 1 (by omega) (by omega),
    slice3_apply _ 1 0 (by omega) (by omega), slice3_apply _ 1 1 (by omega) (by omega),
    pad3_apply, pad3_apply, pad3_apply, pad3_apply]
  exact keep_eq_peak (fun i j => xb (ix4 b c i j)) ⟨r.val / 16, hi⟩ ⟨r.val % 16, hj⟩

end Cert.KernelSide

end
-- ==== Proof.KIVal4.lean ====
/-
  Level 4: what pallas_call 4 leaves in its output array, as one function of its input array.

  Grid point t works on the batch slab [64·t, 64·t + 64) of both arrays: the input window's block is that slab of the
  [64, 80, 12, 12] input, the output window's block that slab of the [64, 144, 80] output. An entry of the level's
  result depends on its own (batch, class) plane only, so the body's result on the slab is the slab of the level's
  result on the whole array; the slabs cover the batch axis, so the output array ends holding the level's result.
-/
import proofs.«137573_j63891933495891_1_alg».proof.Proof.KIBody4
import proofs.«137573_j63891933495891_1_alg».proof.Proof.Spec
import Idealize.ShloMosaic.Lib.Pipeline.Value
import Idealize.ShloMosaic.Lib.ValueIdx
import Idealize.ShloMosaic.PureOps.Ideal

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem zero3_4 : (![0, 0, 0] : Fin 3 → Nat) = fun _ => 0 := funext fun a => by fin_cases a <;> rfl
theorem zero4_4 : (![0, 0, 0, 0] : Fin 4 → Nat) = fun _ => 0 := funext fun a => by fin_cases a <;> rfl

/-- Both windows step along the batch axis only, and together: at point t their block index is (t, 0, …). -/
theorem blockIdx4 : ∀ t : Fin cfg4.N, win4_0.index t (0 : Fin 4) = t.val ∧ win4_0.index t (1 : Fin 4) = 0 ∧ win4_0.index t (2 : Fin 4) = 0 ∧ win4_0.index t (3 : Fin 4) = 0
    ∧ win4_1.index t (0 : Fin 3) = t.val ∧ win4_1.index t (1 : Fin 3) = 0 ∧ win4_1.index t (2 : Fin 3) = 0 :=
  (by decide +kernel : ∀ t : Fin grid4.N, _)

theorem gridPoints4 : cfg4.N = 1 := by decide

/-- Entry (b, r, cc) of the output block at point t sits in the output array at batch 64·t + b. -/
theorem outEmb4 (t : Fin cfg4.N) (b : Fin 64) (r : Fin 144) (cc : Fin 80) (hb : t.val * 64 + b.val < 64) :
    ((cfg4.win 1).blk t).view.emb (ix3 b r cc) = (ix3 (⟨t.val * 64 + b.val, hb⟩ : Fin 64) r cc : (⟨3, ![64, 144, 80]⟩ : Shape).Idx) := by
  obtain ⟨-, -, -, -, e0, e1, e2⟩ := blockIdx4 t
  funext a; apply Fin.ext
  match a with
  | ⟨0, _⟩ => show win4_1.index t (0 : Fin 3) * 64 + 1 * b.val = t.val * 64 + b.val; omega
  | ⟨1, _⟩ => show win4_1.index t (1 : Fin 3) * 144 + 1 * r.val = r.val; omega
  | ⟨2, _⟩ => show win4_1.index t (2 : Fin 3) * 80 + 1 * cc.val = cc.val; omega

/-- Entry (b, cc, i, j) of the input block at point t sits in the input array at batch 64·t + b. -/
theorem inEmb4 (t : Fin cfg4.N) (b : Fin 64) (cc : Fin 80) (i j : Fin 12) (hb : t.val * 64 + b.val < 64) :
    ((cfg4.win 0).blk t).view.emb (ix4 b cc i j) = (ix4 (⟨t.val * 64 + b.val, hb⟩ : Fin 64) cc i j : (⟨4, ![64, 80, 12, 12]⟩ : Shape).Idx) := by
  obtain ⟨e0, e1, e2, e3, -, -, -⟩ := blockIdx4 t
  funext a; apply Fin.ext
  match a with
  | ⟨0, _⟩ => show win4_0.index t (0 : Fin 4) * 64 + 1 * b.val = t.val * 64 + b.val; omega
  | ⟨1, _⟩ => show win4_0.index t (1 : Fin 4) * 80 + 1 * cc.val = cc.val; omega
  | ⟨2, _⟩ => show win4_0.index t (2 : Fin 4) * 12 + 1 * i.val = i.val; omega
  | ⟨3, _⟩ => show win4_0.index t (3 : Fin 4) * 12 + 1 * j.val = j.val; omega

/-- What point t writes back is the point's slab of the level's result on the whole input array, given that the
    body's arithmetic on a slab is the level's result on that slab (hpay). -/
theorem flushedLvl4
    (hpay : ∀ (xb : (⟨4, ![64, 80, 12, 12]⟩ : Shape).Idx → EReal) (b : Fin 64) (r : Fin 144) (cc : Fin 80),
      k4_pay1 (F := Ideal) xb (ix3 b r cc) = Cert.Spec.lvlAt (B := 64) (C := 80) (S := 12) (N := 144) rfl (by decide) xb b r cc)
    (c : Dev nD) (t : Fin cfg4.N) :
    (regionDat4 V c).flushed 1 t = ((cfg4.win 1).blk t).view.read (Elt Ideal)
      (Cert.Spec.lvl (B := 64) (C := 80) (S := 12) (N := 144) rfl (by decide) (V c main_arg4)) := by
  show (cfg4.win 1).cut (grid4.coords t) ((regionDat4 V c).after 1 t) = _
  rw [regionDat4_after_out]
  unfold bodyOut4
  rw [View.canon_unit_zero zero3_4]
  simp only [View.ld_unit_zero (S := S64x80x12x12) zero4_4]
  funext y
  obtain ⟨b, r, cc, rfl⟩ : ∃ (b : Fin 64) (r : Fin 144) (cc : Fin 80), y = ix3 b r cc := ⟨y 0, y 1, y 2, eq_ix3 y⟩
  have hN := gridPoints4
  have hb : t.val * 64 + b.val < 64 := by have := t.isLt; have := b.isLt; omega
  show k4_pay1 (F := Ideal) (blockAt4 V c 0 t) (ix3 b r cc)
    = Cert.Spec.lvl (B := 64) (C := 80) (S := 12) (N := 144) rfl (by decide) (V c main_arg4) (((cfg4.win 1).blk t).view.emb (ix3 b r cc))
  rw [outEmb4 t b r cc hb, Cert.Spec.lvl_apply, hpay]
  refine Cert.Spec.lvlAt_congr (B := 64) (B' := 64) (C := 80) (S := 12) (N := 144) rfl (by decide) _ _ b ⟨t.val * 64 + b.val, hb⟩ r cc fun i j => ?_
  show V c main_arg4 (((cfg4.win 0).blk t).view.emb (ix4 b cc i j)) = _
  rw [inEmb4 t b cc i j hb]

/-- An index of the output array is in point t's block iff each coordinate is in the block's range on its axis. -/
theorem inBlock4 (t : Fin cfg4.N) (i : S64x144x80.Idx) :
    i ∈ ((cfg4.win 1).blk t).view.set ↔ ∀ a : Fin 3, win4_1.index t a * S64x144x80.size a ≤ (i a).val ∧ (i a).val < win4_1.index t a * S64x144x80.size a + S64x144x80.size a := by
  show i ∈ ((View.whole main_v4).slice (win4_1.rect t)).set ↔ _
  rw [View.set_slice_whole, Rect.mem_set_unit]
  exact Iff.rfl

/-- Every index of the output array is in the block of the point its batch falls in. -/
theorem covered4 (i : S64x144x80.Idx) :
    ∃ t : Fin cfg4.N, (cfg4.win 1).flush t = true ∧ i ∈ ((cfg4.win 1).blk t).view.set := by
  have hN := gridPoints4
  have hi0 : (i 0).val < 64 := (i 0).isLt
  have hi1 : (i 1).val < 144 := (i 1).isLt
  have hi2 : (i 2).val < 80 := (i 2).isLt
  refine ⟨⟨(i 0).val / 64, by omega⟩, flush4_1 _, ?_⟩
  rw [inBlock4]
  obtain ⟨-, -, -, -, e0, e1, e2⟩ := blockIdx4 ⟨(i 0).val / 64, by omega⟩
  intro a
  match a with
  | ⟨0, _⟩ => show win4_1.index _ (0 : Fin 3) * 64 ≤ (i 0).val ∧ (i 0).val < win4_1.index _ (0 : Fin 3) * 64 + 64; simp only [e0]; omega
  | ⟨1, _⟩ => show win4_1.index _ (1 : Fin 3) * 144 ≤ (i 1).val ∧ (i 1).val < win4_1.index _ (1 : Fin 3) * 144 + 144; simp only [e1]; omega
  | ⟨2, _⟩ => show win4_1.index _ (2 : Fin 3) * 80 ≤ (i 2).val ∧ (i 2).val < win4_1.index _ (2 : Fin 3) * 80 + 80; simp only [e2]; omega

/-- The output array after the region: the level's result on the input array as the region found it. -/
theorem levelArray4
    (hpay : ∀ (xb : (⟨4, ![64, 80, 12, 12]⟩ : Shape).Idx → EReal) (b : Fin 64) (r : Fin 144) (cc : Fin 80),
      k4_pay1 (F := Ideal) xb (ix3 b r cc) = Cert.Spec.lvlAt (B := 64) (C := 80) (S := 12) (N := 144) rfl (by decide) xb b r cc)
    (c : Dev nD) :
    (regionDat4 V c).arrAt 1 cfg4.N = Cert.Spec.lvl (B := 64) (C := 80) (S := 12) (N := 144) rfl (by decide) (V c main_arg4) :=
  (regionDat4 V c).arrAt_eq_of_cover 1 _ (fun t _ => flushedLvl4 V hpay c t) (covered4)

end Cert.KernelIdeal.Hand

end
-- ==== Proof.PayLevel4.lean ====
/-
  The kernel's stored value for pyramid level 4, read at one index.

  The body computes σ = logistic(x) on a block x of shape [64, 80, 12, 12], pads every [12, 12] plane of σ with a row of -∞
  above and a column of -∞ on the left, takes the maximum of the four unit-offset [12, 12] slices of the padded
  plane, keeps σ where it equals that maximum (zero elsewhere), and lays the result out as [64, 144, 80]. Read at
  (b, r, c) this is the specification's kept value of plane (b, c) at row r / 12, column r % 12.
-/
import proofs.«137573_j63891933495891_1_alg».proof.Proof.Spec
import proofs.«137573_j63891933495891_1_alg».proof.Proof.Gen.KernelIdeal.Skeleton
import proofs.«137573_j63891933495891_1_alg».proof.Proof.PayCommon
import Idealize.ShloMosaic.Lib.Pipeline.Value

noncomputable section

namespace Cert.KernelSide

open Idealize.ShloMosaic Idealize.ShloMosaic.ValueIdx Cert.KernelIdeal

/-- The padded plane of level 4 at padded coordinates (a, d) ∈ [0, 12]²: -∞ on row 0 and on column 0, σ(a-1, d-1) elsewhere. -/
theorem pad4_apply (h2 : Shape.Concatenates [S64x80x1x12, S64x80x12x12] S64x80x13x12 2) (h3 : Shape.Concatenates [S64x80x13x1, S64x80x13x12] S64x80x13x13 3)
    (x : S64x80x12x12.Idx → EReal) (b : Fin 64) (c : Fin 80) (a d : Fin 13) :
    concatenate S64x80x13x13 3 [⟨S64x80x13x1, broadcast S64x80x13x1 (Scalar.ofBits (F := Ideal) .f32 0xFF800000#32)⟩,
        ⟨S64x80x13x12, concatenate S64x80x13x12 2 [⟨S64x80x1x12, broadcast S64x80x1x12 (Scalar.ofBits (F := Ideal) .f32 0xFF800000#32)⟩,
          ⟨S64x80x12x12, logistic (F := Ideal) (φ := .f32) x⟩] h2⟩] h3 (ix4 b c a d)
      = Cert.Spec.padAt (S := 12) (fun i j => x (ix4 b c i j)) a.val d.val := by
  have ha := a.isLt
  have hd := d.isLt
  by_cases hd0 : d.val = 0
  · -- column 0 lies in the -∞ piece
    rw [Cert.Spec.padAt, dif_neg (by omega)]
    refine (concatenate_pair_apply_left (t := S64x80x13x13) (s₁ := S64x80x13x1) (s₂ := S64x80x13x12) (3 : Fin 4) _ _ h3 (ix4 b c a d) rfl (ix4 b c a ⟨0, Nat.one_pos⟩)
      (fun e => match e with
        | ⟨0, _⟩ => rfl
        | ⟨1, _⟩ => rfl
        | ⟨2, _⟩ => rfl
        | ⟨3, _⟩ => by show 0 = d.val; omega)).trans ?_
    exact negInf_word
  · -- a column ≥ 1 lies in the row-padded piece, one column to the left
    refine (concatenate_pair_apply_right (t := S64x80x13x13) (s₁ := S64x80x13x1) (s₂ := S64x80x13x12) (3 : Fin 4) _ _ h3 (ix4 b c a d) rfl rfl (ix4 b c a ⟨d.val - 1, by omega⟩)
      (fun e => match e with
        | ⟨0, _⟩ => fun _ => rfl
        | ⟨1, _⟩ => fun _ => rfl
        | ⟨2, _⟩ => fun _ => rfl
        | ⟨3, _⟩ => fun hne => absurd rfl hne)
      (by show d.val - 1 + 1 = d.val; omega)).trans ?_
    by_cases ha0 : a.val = 0
    · -- row 0 lies in the -∞ piece
      rw [Cert.Spec.padAt, dif_neg (by omega)]
      refine (concatenate_pair_apply_left (t := S64x80x13x12) (s₁ := S64x80x1x12) (s₂ := S64x80x12x12) (2 : Fin 4) _ _ h2 (ix4 b c a ⟨d.val - 1, by omega⟩) rfl
        (ix4 b c ⟨0, Nat.one_pos⟩ ⟨d.val - 1, by omega⟩)
        (fun e => match e with
          | ⟨0, _⟩ => rfl
          | ⟨1, _⟩ => rfl
          | ⟨2, _⟩ => by show 0 = a.val; omega
          | ⟨3, _⟩ => rfl)).trans ?_
      exact negInf_word
    · -- a row ≥ 1 lies in σ, one row up
      rw [Cert.Spec.padAt, dif_pos (by omega)]
      refine (concatenate_pair_apply_right (t := S64x80x13x12) (s₁ := S64x80x1x12) (s₂ := S64x80x12x12) (2 : Fin 4) _ _ h2 (ix4 b c a ⟨d.val - 1, by omega⟩) rfl rfl
        (ix4 b c ⟨a.val - 1, by omega⟩ ⟨d.val - 1, by omega⟩)
        (fun e => match e with
          | ⟨0, _⟩ => fun _ => rfl
          | ⟨1, _⟩ => fun _ => rfl
          | ⟨2, _⟩ => fun hne => absurd rfl hne
          | ⟨3, _⟩ => fun _ => rfl)
        (by show a.val - 1 + 1 = a.val; omega)).trans ?_
      rfl

/-- One unit-offset slice of the padded plane, read at (i, j): the padded plane at (i + di, j + dj). -/
theorem slice4_apply (P : S64x80x13x13.Idx → EReal) (di dj : Nat) (hdi : di ≤ 1) (hdj : dj ≤ 1)
    (h : S64x80x13x13.Slices ![0, 0, di, dj] S64x80x12x12) (b : Fin 64) (c : Fin 80) (i j : Fin 12) :
    extractStridedSlice S64x80x12x12 ![0, 0, di, dj] P h (ix4 b c i j)
      = P (ix4 b c ⟨i.val + di, by have := i.isLt; omega⟩ ⟨j.val + dj, by have := j.isLt; omega⟩) :=
  extractStridedSlice_apply _ _ _ _ _ (fun e => match e with
    | ⟨0, _⟩ => by show b.val = 0 + b.val; omega
    | ⟨1, _⟩ => by show c.val = 0 + c.val; omega
    | ⟨2, _⟩ => by show i.val + di = di + i.val; omega
    | ⟨3, _⟩ => by show j.val + dj = dj + j.val; omega)

/-- The kernel's stored value of level 4 at (b, r, c) is the specification's entry there. -/
theorem pay4_apply (xb : (⟨4, ![64, 80, 12, 12]⟩ : Shape).Idx → EReal) (b : Fin 64) (r : Fin 144) (c : Fin 80) :
    Cert.KernelIdeal.Gen.k4_pay1 (F := Ideal) xb (ix3 b r c)
      = Cert.Spec.lvlAt (B := 64) (C := 80) (S := 12) (N := 144) rfl (by decide) xb b r c := by
  have hr := r.isLt
  have hi : r.val / 12 < 12 := by omega
  have hj : r.val % 12 < 12 := Nat.mod_lt _ (by decide)
  unfold Cert.KernelIdeal.Gen.k4_pay1
  -- the final reshape: [64, 144, 80] at (b, r, c) reads [64, 12, 12, 80] at (b, r / 12, r % 12, c)
  refine (shapeCast_apply _ _ (ix3 b r c) (ix4 b ⟨r.val / 12, hi⟩ ⟨r.val % 12, hj⟩ c)
    (by rw [Shape.rowMajor_val_four, Shape.rowMajor_val_three]
        show ((b.val * 12 + r.val / 12) * 12 + r.val % 12) * 80 + c.val = (b.val * 144 + r.val) * 80 + c.val
        omega)).trans ?_
  -- the transpose [0, 2, 3, 1]: [64, 12, 12, 80] at (b, i, j, c) reads [64, 80, 12, 12] at (b, c, i, j)
  refine (transpose_apply _ _ _ _ (ix4 b c ⟨r.val / 12, hi⟩ ⟨r.val % 12, hj⟩)
    (fun e => match e with | ⟨0, _⟩ => rfl | ⟨1, _⟩ => rfl | ⟨2, _⟩ => rfl | ⟨3, _⟩ => rfl)).trans ?_
  -- the pointwise operations, then the four slices of the padded plane
  rw [select_apply, cmpf_apply, broadcast_apply, maximumf_apply, maximumf_apply, maximumf_apply,
    slice4_apply _ 0 0 (by omega) (by omega), slice4_apply _ 0 1 (by omega) (by omega),
    slice4_apply _ 1 0 (by omega) (by omega), slice4_apply _ 1 1 (by omega) (by omega),
    pad4_apply, pad4_apply, pad4_apply, pad4_apply]
  exact keep_eq_peak (fun i j => xb (ix4 b c i j)) ⟨r.val / 12, hi⟩ ⟨r.val % 12, hj⟩

end Cert.KernelSide

end
-- ==== Proof.KIResult.lean ====
/-
  The idealized kernel's result: the concatenation's buffer after the run is the five levels' results joined.

  Each output array ends holding its level's result on the region's input array as the region found it, and each
  region finds its input array as launched; the concatenation joins the five arrays along the middle axis.
-/
import proofs.«137573_j63891933495891_1_alg».proof.Proof.KIRun
import proofs.«137573_j63891933495891_1_alg».proof.Proof.KIVal0
import proofs.«137573_j63891933495891_1_alg».proof.Proof.PayLevel0
import proofs.«137573_j63891933495891_1_alg».proof.Proof.KIVal1
import proofs.«137573_j63891933495891_1_alg».proof.Proof.PayLevel1
import proofs.«137573_j63891933495891_1_alg».proof.Proof.KIVal2
import proofs.«137573_j63891933495891_1_alg».proof.Proof.PayLevel2
import proofs.«137573_j63891933495891_1_alg».proof.Proof.KIVal3
import proofs.«137573_j63891933495891_1_alg».proof.Proof.PayLevel3
import proofs.«137573_j63891933495891_1_alg».proof.Proof.KIVal4
import proofs.«137573_j63891933495891_1_alg».proof.Proof.PayLevel4

set_option maxRecDepth 16384

noncomputable section

namespace Cert.KernelIdeal.Hand

open Idealize.ShloMosaic Idealize.ShloMosaic.TcCoe Idealize.ShloMosaic.ValueIdx
open Idealize.SL Idealize.SL.Sem
open Cert.KernelIdeal Cert.KernelIdeal.Gen

/-- The five levels' results on the five argument arrays, joined along the middle axis. -/
def joined (a0 : S64x80x40x40.Idx → EReal) (a1 : S64x80x36x36.Idx → EReal) (a2 : S64x80x24x24.Idx → EReal)
    (a3 : S64x80x16x16.Idx → EReal) (a4 : S64x80x12x12.Idx → EReal) : S64x3872x80.Idx → EReal :=
  concatenate S64x3872x80 1 [⟨S64x1600x80, Cert.Spec.lvl (B := 64) (C := 80) (S := 40) (N := 1600) rfl (by decide) a0⟩, ⟨S64x1296x80, Cert.Spec.lvl (B := 64) (C := 80) (S := 36) (N := 1296) rfl (by decide) a1⟩, ⟨S64x576x80, Cert.Spec.lvl (B := 64) (C := 80) (S := 24) (N := 576) rfl (by decide) a2⟩, ⟨S64x256x80, Cert.Spec.lvl (B := 64) (C := 80) (S := 16) (N := 256) rfl (by decide) a3⟩, ⟨S64x144x80, Cert.Spec.lvl (B := 64) (C := 80) (S := 12) (N := 144) rfl (by decide) a4⟩] concatenates_S64x1600x80_S64x1296x80_S64x576x80_S64x256x80_S64x144x80_S64x3872x80_d1

variable (m : (ℓ : Loc nD τ sig) → Buf (Elt Ideal) ℓ) (ρ : Dev nD → PrngReg)

theorem level0_final (c : Dev nD) : X5 m c (Proc.devRef .tc main_v0) = Cert.Spec.lvl (B := 64) (C := 80) (S := 40) (N := 1600) rfl (by decide) (m ((c : Thread nD τ).loc main_arg0)) := by
  rw [X5_main_v0, levelArray0 (E0 m) Cert.KernelSide.pay0_apply c, E0_main_arg0]

theorem level1_final (c : Dev nD) : X5 m c (Proc.devRef .tc main_v1) = Cert.Spec.lvl (B := 64) (C := 80) (S := 36) (N := 1296) rfl (by decide) (m ((c : Thread nD τ).loc main_arg1)) := by
  rw [X5_main_v1, levelArray1 (E1 m) Cert.KernelSide.pay1_apply c, E1_main_arg1]

theorem level2_final (c : Dev nD) : X5 m c (Proc.devRef .tc main_v2) = Cert.Spec.lvl (B := 64) (C := 80) (S := 24) (N := 576) rfl (by decide) (m ((c : Thread nD τ).loc main_arg2)) := by
  rw [X5_main_v2, levelArray2 (E2 m) Cert.KernelSide.pay2_apply c, E2_main_arg2]

theorem level3_final (c : Dev nD) : X5 m c (Proc.devRef .tc main_v3) = Cert.Spec.lvl (B := 64) (C := 80) (S := 16) (N := 256) rfl (by decide) (m ((c : Thread nD τ).loc main_arg3)) := by
  rw [X5_main_v3, levelArray3 (E3 m) Cert.KernelSide.pay3_apply c, E3_main_arg3]

theorem level4_final (c : Dev nD) : X5 m c (Proc.devRef .tc main_v4) = Cert.Spec.lvl (B := 64) (C := 80) (S := 12) (N := 144) rfl (by decide) (m ((c : Thread nD τ).loc main_arg4)) := by
  rw [X5_main_v4, levelArray4 (E4 m) Cert.KernelSide.pay4_apply c, E4_main_arg4]

/-- The result buffer after the run. -/
theorem result_final (c : Dev nD) : X6 m c (Proc.devRef .tc main_v5)
    = joined (m ((c : Thread nD τ).loc main_arg0)) (m ((c : Thread nD τ).loc main_arg1)) (m ((c : Thread nD τ).loc main_arg2))
        (m ((c : Thread nD τ).loc main_arg3)) (m ((c : Thread nD τ).loc main_arg4)) := by
  rw [X6_main_v5, level0_final, level1_final, level2_final, level3_final, level4_final]
  rfl

/-- The run with the result named: the result buffer holds the joined levels, the arguments end as launched. -/
theorem run_value : θ_run defs (onTc (τ := τ) (main (F := Ideal))) ⟨m, fun _ => 0, ρ⟩ (fun r => ∀ c : Dev nD,
      r.2.mem ((c.tc : Thread nD τ).loc main_v5) = joined (m ((c : Thread nD τ).loc main_arg0)) (m ((c : Thread nD τ).loc main_arg1)) (m ((c : Thread nD τ).loc main_arg2))
        (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_unscoped main_v5 (by decide))).trans (result_final m c),
     (h c _ (mem_unscoped main_arg0 (by decide))).trans (X6_main_arg0 m c),
     (h c _ (mem_unscoped main_arg1 (by decide))).trans (X6_main_arg1 m c),
     (h c _ (mem_unscoped main_arg2 (by decide))).trans (X6_main_arg2 m c),
     (h c _ (mem_unscoped main_arg3 (by decide))).trans (X6_main_arg3 m c),
     (h c _ (mem_unscoped main_arg4 (by decide))).trans (X6_main_arg4 m c)⟩) (run_main m ρ)

end Cert.KernelIdeal.Hand

end
-- ==== Proof.RefLemmas.lean ====
/-
  The reference side of one pyramid level, in general sizes [B, C, S, S].

  A level of the reference is: the logistic of every entry; a 2×2 window maximum over each [S, S] plane padded with one
  row of -∞ above and one column of -∞ on the left; a comparison of the window maximum with the entry itself; the 0/1
  value of that comparison as a number; the product of the entry's logistic with it. This file reads each of these at
  one index (b, c, i, j) and shows the product is the specification's kept value: the logistic where it equals the
  maximum of the four padded neighbours σ(i-1, j-1), σ(i-1, j), σ(i, j-1), σ(i, j), and zero elsewhere.
-/
import proofs.«137573_j63891933495891_1_alg».proof.Proof.Spec
import Idealize.ShloMosaic.PureOps.Contract
import Idealize.ShloMosaic.Lib.IdealHost

noncomputable section

namespace Cert.RefSide

open Idealize.ShloMosaic Idealize.ShloMosaic.ValueIdx

/-- The window's shape: one batch, one class, two rows, two columns. -/
abbrev W : Shape := ⟨4, ![1, 1, 2, 2]⟩

/-- The window's four positions in row-major order are the offsets (0, 0), (0, 1), (1, 0), (1, 1) in the plane. -/
theorem W_positions : List.finRange W.numel =
    [W.rowMajor (ix4 0 0 0 0), W.rowMajor (ix4 0 0 0 1), W.rowMajor (ix4 0 0 1 0), W.rowMajor (ix4 0 0 1 1)] := by
  decide

/-- The plane (b, c) of an array σ, padded with one row of -∞ above and one column of -∞ on the left, read at padded
    coordinates (a, d): -∞ on row 0, on column 0 and outside the plane, σ(b, c, a - 1, d - 1) elsewhere. -/
def padσ {B C S : ℕ} (σ : (⟨4, ![B, C, S, S]⟩ : Shape).Idx → EReal) (b : Fin B) (c : Fin C) (a d : ℕ) : EReal :=
  if h : (1 ≤ a ∧ a - 1 < S) ∧ (1 ≤ d ∧ d - 1 < S) then σ (ix4 b c ⟨a - 1, h.1.2⟩ ⟨d - 1, h.2.2⟩) else ⊥

/-- The element the window at (b, c, i, j) reads at offset (di, dj): with stride one and a padding of one below on the
    two plane axes only, it is the padded plane at (i + di, j + dj). -/
theorem window_elem {B C S : ℕ} (σ : (⟨4, ![B, C, S, S]⟩ : Shape).Idx → EReal) (b : Fin B) (c : Fin C) (i j : Fin S)
    (di dj : Fin 2) (e : 4 = 4) :
    (if hin : ∀ a : Fin 4, (![0, 0, 1, 1] : Fin 4 → ℕ) a ≤ (ix4 b c i j (Fin.cast e a)).val * (![1, 1, 1, 1] : Fin 4 → ℕ) a + (ix4 (0 : Fin 1) (0 : Fin 1) di dj a).val ∧
        (ix4 b c i j (Fin.cast e a)).val * (![1, 1, 1, 1] : Fin 4 → ℕ) a + (ix4 (0 : Fin 1) (0 : Fin 1) di dj a).val - (![0, 0, 1, 1] : Fin 4 → ℕ) a < (![B, C, S, S] : Fin 4 → ℕ) a
      then σ (fun a => ⟨(ix4 b c i j (Fin.cast e a)).val * (![1, 1, 1, 1] : Fin 4 → ℕ) a + (ix4 (0 : Fin 1) (0 : Fin 1) di dj a).val - (![0, 0, 1, 1] : Fin 4 → ℕ) a, (hin a).2⟩)
      else ⊥) = padσ σ b c (i.val + di.val) (j.val + dj.val) := by
  have hb := b.isLt
  have hc := c.isLt
  have hcond : (∀ a : Fin 4, (![0, 0, 1, 1] : Fin 4 → ℕ) a ≤ (ix4 b c i j (Fin.cast e a)).val * (![1, 1, 1, 1] : Fin 4 → ℕ) a + (ix4 (0 : Fin 1) (0 : Fin 1) di dj a).val ∧
        (ix4 b c i j (Fin.cast e a)).val * (![1, 1, 1, 1] : Fin 4 → ℕ) a + (ix4 (0 : Fin 1) (0 : Fin 1) di dj a).val - (![0, 0, 1, 1] : Fin 4 → ℕ) a < (![B, C, S, S] : Fin 4 → ℕ) a)
      ↔ ((1 ≤ i.val + di.val ∧ i.val + di.val - 1 < S) ∧ (1 ≤ j.val + dj.val ∧ j.val + dj.val - 1 < S)) := by
    constructor
    · intro hin
      have h2 := hin ⟨2, (by decide : 2 < 4)⟩
      have h3 := hin ⟨3, (by decide : 3 < 4)⟩
      change 1 ≤ i.val * 1 + di.val ∧ i.val * 1 + di.val - 1 < S at h2
      change 1 ≤ j.val * 1 + dj.val ∧ j.val * 1 + dj.val - 1 < S at h3
      omega
    · intro hp a
      match a with
      | ⟨0, _⟩ => show 0 ≤ b.val * 1 + 0 ∧ b.val * 1 + 0 - 0 < B; omega
      | ⟨1, _⟩ => show 0 ≤ c.val * 1 + 0 ∧ c.val * 1 + 0 - 0 < C; omega
      | ⟨2, _⟩ => show 1 ≤ i.val * 1 + di.val ∧ i.val * 1 + di.val - 1 < S; omega
      | ⟨3, _⟩ => show 1 ≤ j.val * 1 + dj.val ∧ j.val * 1 + dj.val - 1 < S; omega
  unfold padσ
  by_cases hp : ((1 ≤ i.val + di.val ∧ i.val + di.val - 1 < S) ∧ (1 ≤ j.val + dj.val ∧ j.val + dj.val - 1 < S))
  · rw [dif_pos (hcond.2 hp), dif_pos hp]
    refine congrArg σ (funext fun a => ?_)
    match a with
    | ⟨0, _⟩ => exact Fin.ext (by show b.val * 1 + 0 - 0 = b.val; omega)
    | ⟨1, _⟩ => exact Fin.ext (by show c.val * 1 + 0 - 0 = c.val; omega)
    | ⟨2, _⟩ => exact Fin.ext (by show i.val * 1 + di.val - 1 = i.val + di.val - 1; omega)
    | ⟨3, _⟩ => exact Fin.ext (by show j.val * 1 + dj.val - 1 = j.val + dj.val - 1; omega)
  · rw [dif_neg (fun h => hp (hcond.1 h)), dif_neg hp]

/-- The 2×2 window maximum from -∞, with one row and one column of padding below, at (b, c, i, j): the fold
    max(max(max(max(-∞, e₀), e₁), e₂), e₃) over the four window positions is the maximum of the padded plane over
    (i, j), (i, j + 1), (i + 1, j), (i + 1, j + 1), -∞ being the identity of max and max being associative. -/
theorem reduceWindow_at {B C S : ℕ} (σ : (⟨4, ![B, C, S, S]⟩ : Shape).Idx → EReal)
    (init : (⟨0, ![]⟩ : Shape).Idx → EReal) (hu : 0 < (⟨0, ![]⟩ : Shape).numel) (hinit : init (Shape.Idx.first hu) = ⊥)
    (h : (⟨4, ![B, C, S, S]⟩ : Shape).ReduceWindows (![1, 1, 2, 2] : Fin 4 → Nat) ![1, 1, 1, 1] ![0, 0, 1, 1] ![0, 0, 0, 0] ⟨4, ![B, C, S, S]⟩)
    (b : Fin B) (c : Fin C) (i j : Fin S) :
    Host.reduceWindow (s := ⟨4, ![B, C, S, S]⟩) (t := ⟨4, ![B, C, S, S]⟩) (max : EReal → EReal → EReal)
        ![1, 1, 2, 2] ![1, 1, 1, 1] ![0, 0, 1, 1] ![0, 0, 0, 0] σ init h hu (ix4 b c i j)
      = max (max (padσ σ b c i j) (padσ σ b c i (j + 1))) (max (padσ σ b c (i + 1) j) (padσ σ b c (i + 1) (j + 1))) := by
  unfold Host.reduceWindow
  dsimp only
  rw [W_positions]
  simp only [List.foldl_cons, List.foldl_nil, Equiv.symm_apply_apply, hinit]
  rw [window_elem σ b c i j 0 0, window_elem σ b c i j 0 1, window_elem σ b c i j 1 0, window_elem σ b c i j 1 1]
  simp only [Fin.val_zero, Fin.val_one, add_zero, bot_le, max_eq_right]
  exact max_assoc _ _ _

/-- The padded plane of σ = logistic(x) is the specification's padded plane of x. -/
theorem padσ_eq_padAt {B C S : ℕ} (x σ : (⟨4, ![B, C, S, S]⟩ : Shape).Idx → EReal)
    (hσ : ∀ k, σ k = Ideal.logistic (x k)) (b : Fin B) (c : Fin C) (a d : ℕ) :
    padσ σ b c a d = Cert.Spec.padAt (fun i j => x (ix4 b c i j)) a d := by
  unfold padσ Cert.Spec.padAt
  by_cases hp : (1 ≤ a ∧ a - 1 < S) ∧ (1 ≤ d ∧ d - 1 < S)
  · rw [dif_pos hp, dif_pos hp, hσ]
  · rw [dif_neg hp, dif_neg hp]

/-- The 0/1 product: s times the number (1 or 0) of the comparison m = s is s where m = s and zero elsewhere;
    s · 1 = s and s · 0 = 0 hold for every extended real s. -/
theorem keep_eq (s m : EReal) :
    FloatOps.mulf (F := Ideal) (φ := .f32) s
        (FloatOps.uitofp (F := Ideal) .f32 (FloatOps.cmpf (F := Ideal) (φ := .f32) .oeq m s))
      = if m = s then s else 0 := by
  show s * (((Ideal.cmp .oeq m s).toNat : ℝ) : EReal) = _
  unfold Ideal.cmp
  by_cases h : m = s
  · simp [h]
  · simp [h]

/-- The logistic as the reference spells it, 1 / (1 + exp(-x)) with the two ones given by their bit patterns. -/
theorem logistic_spelled (x : EReal) :
    FloatOps.hostDivf (F := Ideal) (φ := .f32) (FloatOps.ofBits .f32 0x3F800000#32)
        (FloatOps.addf (FloatOps.ofBits .f32 0x3F800000#32) (FloatOps.hostUnary .exp (FloatOps.hostNegf x)))
      = Ideal.logistic x := by
  show Ideal.div (Ideal.ofBits .f32 0x3F800000#32) (Ideal.ofBits .f32 0x3F800000#32 + Ideal.exp (-x)) = Ideal.logistic x
  rw [Ideal.ofBits_one_f32]
  rfl

/-- The pattern 0xFF800000 is -∞. -/
theorem ofBits_neg_inf : FloatOps.ofBits (F := Ideal) .f32 0xFF800000#32 = (⊥ : EReal) := by
  show Ideal.ofBits .f32 0xFF800000#32 = ⊥
  simp [Ideal.ofBits, Ideal.ieee]

/-- One entry of a level from its parts: with σ the logistic of x entry by entry and m the window maximum of σ's padded
    plane at (b, c, i, j), the product of σ(b, c, i, j) with the 0/1 value of m = σ(b, c, i, j) is the specification's
    kept value of plane (b, c) at (i, j). -/
theorem entry_eq {B C S : ℕ} (x σ m : (⟨4, ![B, C, S, S]⟩ : Shape).Idx → EReal)
    (hσ : ∀ k, σ k = Ideal.logistic (x k)) (b : Fin B) (c : Fin C) (i j : Fin S)
    (hm : m (ix4 b c i j) = max (max (padσ σ b c i j) (padσ σ b c i (j + 1)))
      (max (padσ σ b c (i + 1) j) (padσ σ b c (i + 1) (j + 1)))) :
    FloatOps.mulf (F := Ideal) (φ := .f32) (σ (ix4 b c i j))
        (FloatOps.uitofp (F := Ideal) .f32 (FloatOps.cmpf (F := Ideal) (φ := .f32) .oeq (m (ix4 b c i j)) (σ (ix4 b c i j))))
      = Cert.Spec.peak (fun i j => x (ix4 b c i j)) i j := by
  rw [keep_eq, hm, padσ_eq_padAt x σ hσ, padσ_eq_padAt x σ hσ, padσ_eq_padAt x σ hσ, padσ_eq_padAt x σ hσ, hσ]
  rfl

end Cert.RefSide

end
-- ==== Proof.RefLevel0.lean ====
/-
  Level 0 of the reference (planes of 40×40): its result array [64, 1600, 80] is the specification's level.

  Entry (b, r, c) of the result is read back through the reshape and the transpose to the product at
  (b, c, r / 40, r % 40); there the logistic, the padded 2×2 window maximum, the comparison and the 0/1 product
  give the specification's kept value.
-/
import proofs.«137573_j63891933495891_1_alg».proof.Proof.RefLemmas
import proofs.«137573_j63891933495891_1_alg».proof.Proof.Gen.ReferenceIdeal.Read

noncomputable section

namespace Cert.RefSide

open Idealize.ShloMosaic Idealize.ShloMosaic.ValueIdx Cert.ReferenceIdeal Cert.ReferenceIdeal.Gen Cert.ReferenceIdeal.Read

/-- The level's logistic stage, 1 / (1 + exp(-x)), is the logistic of the input entry by entry. -/
theorem sigma0 (x0 : (⟨4, ![64, 80, 40, 40]⟩ : Shape).Idx → EReal) (k : (⟨4, ![64, 80, 40, 40]⟩ : Shape).Idx) :
    val_main_v5 (F := Ideal) x0 k = Ideal.logistic (x0 k) := by
  rw [val_main_v5_apply, val_main_v4_apply, val_main_cst_0_apply, val_main_v3_apply, val_main_v2_apply, val_main_cst_apply, val_main_v1_apply,
    val_main_v0_apply]
  exact logistic_spelled (x0 k)

/-- The window maximum starts from -∞. -/
theorem init0 : val_main_v6 (F := Ideal) (Shape.Idx.first h_S_) = (⊥ : EReal) := by
  rw [val_main_v6_apply, val_main_cst_1_apply]
  exact ofBits_neg_inf

/-- The level's window maximum at (b, c, i, j) is the maximum of the padded logistic plane over the 2×2 window. -/
theorem win0 (x0 : (⟨4, ![64, 80, 40, 40]⟩ : Shape).Idx → EReal) (b : Fin 64) (c : Fin 80) (i j : Fin 40) :
    val_main_v7 (F := Ideal) x0 (ix4 b c i j)
      = max (max (padσ (val_main_v5 (F := Ideal) x0) b c i j) (padσ (val_main_v5 (F := Ideal) x0) b c i (j + 1)))
          (max (padσ (val_main_v5 (F := Ideal) x0) b c (i + 1) j) (padσ (val_main_v5 (F := Ideal) x0) b c (i + 1) (j + 1))) := by
  unfold val_main_v7
  exact reduceWindow_at (val_main_v5 (F := Ideal) x0) (val_main_v6 (F := Ideal)) h_S_ init0 reduceWindows_S64x80x40x40_S64x80x40x40_w1s1p0_0_w1s1p0_0_w2s1p1_0_w2s1p1_0 b c i j

/-- Through the reshape [64, 1600, 80] → [64, 40, 40, 80] and the transpose back to [64, 80, 40, 40], entry (b, r, c)
    comes from (b, c, r / 40, r % 40). -/
theorem idx0 (b : Fin 64) (r : Fin 1600) (c : Fin 80) :
    idx_main_v11 (idx_main_v12 (ix3 b r c))
      = ix4 b c ⟨r.val / 40, Nat.div_lt_of_lt_mul r.isLt⟩ ⟨r.val % 40, Nat.mod_lt _ (by decide)⟩ := by
  have hb := b.isLt
  have hr := r.isLt
  have hc := c.isLt
  funext a
  match a with
  | ⟨0, _⟩ => exact Fin.ext (by show ((b.val * 1600 + r.val) * 80 + c.val) / 128000 = b.val; omega)
  | ⟨1, _⟩ => exact Fin.ext (by show ((b.val * 1600 + r.val) * 80 + c.val) % 80 = c.val; omega)
  | ⟨2, _⟩ => exact Fin.ext (by show ((b.val * 1600 + r.val) * 80 + c.val) / 3200 % 40 = r.val / 40; omega)
  | ⟨3, _⟩ => exact Fin.ext (by show ((b.val * 1600 + r.val) * 80 + c.val) / 80 % 40 = r.val % 40; omega)

/-- Level 0 of the reference is the specification's level at S = 40. -/
theorem ref_lvl0 (x0 : (⟨4, ![64, 80, 40, 40]⟩ : Shape).Idx → EReal) :
    val_main_v12 (F := Ideal) x0 = Cert.Spec.lvl (B := 64) (C := 80) (S := 40) (N := 1600) rfl (by decide) x0 := by
  funext k
  obtain ⟨b, r, c, rfl⟩ : ∃ b r c, k = ix3 b r c := ⟨_, _, _, eq_ix3 k⟩
  rw [Cert.Spec.lvl_apply, val_main_v12_apply, val_main_v11_apply, idx0, val_main_v10_apply, val_main_v9_apply, val_main_v8_apply]
  unfold Cert.Spec.lvlAt
  exact entry_eq x0 (val_main_v5 (F := Ideal) x0) (val_main_v7 (F := Ideal) x0) (sigma0 x0) b c _ _ (win0 x0 b c _ _)

end Cert.RefSide

end
-- ==== Proof.RefLevel1.lean ====
/-
  Level 1 of the reference (planes of 36×36): its result array [64, 1296, 80] is the specification's level.

  Entry (b, r, c) of the result is read back through the reshape and the transpose to the product at
  (b, c, r / 36, r % 36); there the logistic, the padded 2×2 window maximum, the comparison and the 0/1 product
  give the specification's kept value.
-/
import proofs.«137573_j63891933495891_1_alg».proof.Proof.RefLemmas
import proofs.«137573_j63891933495891_1_alg».proof.Proof.Gen.ReferenceIdeal.Read

noncomputable section

namespace Cert.RefSide

open Idealize.ShloMosaic Idealize.ShloMosaic.ValueIdx Cert.ReferenceIdeal Cert.ReferenceIdeal.Gen Cert.ReferenceIdeal.Read

/-- The level's logistic stage, 1 / (1 + exp(-x)), is the logistic of the input entry by entry. -/
theorem sigma1 (x1 : (⟨4, ![64, 80, 36, 36]⟩ : Shape).Idx → EReal) (k : (⟨4, ![64, 80, 36, 36]⟩ : Shape).Idx) :
    val_main_v18 (F := Ideal) x1 k = Ideal.logistic (x1 k) := by
  rw [val_main_v18_apply, val_main_v17_apply, val_main_cst_3_apply, val_main_v16_apply, val_main_v15_apply, val_main_cst_2_apply, val_main_v14_apply,
    val_main_v13_apply]
  exact logistic_spelled (x1 k)

/-- The window maximum starts from -∞. -/
theorem init1 : val_main_v19 (F := Ideal) (Shape.Idx.first h_S_) = (⊥ : EReal) := by
  rw [val_main_v19_apply, val_main_cst_4_apply]
  exact ofBits_neg_inf

/-- The level's window maximum at (b, c, i, j) is the maximum of the padded logistic plane over the 2×2 window. -/
theorem win1 (x1 : (⟨4, ![64, 80, 36, 36]⟩ : Shape).Idx → EReal) (b : Fin 64) (c : Fin 80) (i j : Fin 36) :
    val_main_v20 (F := Ideal) x1 (ix4 b c i j)
      = max (max (padσ (val_main_v18 (F := Ideal) x1) b c i j) (padσ (val_main_v18 (F := Ideal) x1) b c i (j + 1)))
          (max (padσ (val_main_v18 (F := Ideal) x1) b c (i + 1) j) (padσ (val_main_v18 (F := Ideal) x1) b c (i + 1) (j + 1))) := by
  unfold val_main_v20
  exact reduceWindow_at (val_main_v18 (F := Ideal) x1) (val_main_v19 (F := Ideal)) h_S_ init1 reduceWindows_S64x80x36x36_S64x80x36x36_w1s1p0_0_w1s1p0_0_w2s1p1_0_w2s1p1_0 b c i j

/-- Through the reshape [64, 1296, 80] → [64, 36, 36, 80] and the transpose back to [64, 80, 36, 36], entry (b, r, c)
    comes from (b, c, r / 36, r % 36). -/
theorem idx1 (b : Fin 64) (r : Fin 1296) (c : Fin 80) :
    idx_main_v24 (idx_main_v25 (ix3 b r c))
      = ix4 b c ⟨r.val / 36, Nat.div_lt_of_lt_mul r.isLt⟩ ⟨r.val % 36, Nat.mod_lt _ (by decide)⟩ := by
  have hb := b.isLt
  have hr := r.isLt
  have hc := c.isLt
  funext a
  match a with
  | ⟨0, _⟩ => exact Fin.ext (by show ((b.val * 1296 + r.val) * 80 + c.val) / 103680 = b.val; omega)
  | ⟨1, _⟩ => exact Fin.ext (by show ((b.val * 1296 + r.val) * 80 + c.val) % 80 = c.val; omega)
  | ⟨2, _⟩ => exact Fin.ext (by show ((b.val * 1296 + r.val) * 80 + c.val) / 2880 % 36 = r.val / 36; omega)
  | ⟨3, _⟩ => exact Fin.ext (by show ((b.val * 1296 + r.val) * 80 + c.val) / 80 % 36 = r.val % 36; omega)

/-- Level 1 of the reference is the specification's level at S = 36. -/
theorem ref_lvl1 (x1 : (⟨4, ![64, 80, 36, 36]⟩ : Shape).Idx → EReal) :
    val_main_v25 (F := Ideal) x1 = Cert.Spec.lvl (B := 64) (C := 80) (S := 36) (N := 1296) rfl (by decide) x1 := by
  funext k
  obtain ⟨b, r, c, rfl⟩ : ∃ b r c, k = ix3 b r c := ⟨_, _, _, eq_ix3 k⟩
  rw [Cert.Spec.lvl_apply, val_main_v25_apply, val_main_v24_apply, idx1, val_main_v23_apply, val_main_v22_apply, val_main_v21_apply]
  unfold Cert.Spec.lvlAt
  exact entry_eq x1 (val_main_v18 (F := Ideal) x1) (val_main_v20 (F := Ideal) x1) (sigma1 x1) b c _ _ (win1 x1 b c _ _)

end Cert.RefSide

end
-- ==== Proof.RefLevel2.lean ====
/-
  Level 2 of the reference (planes of 24×24): its result array [64, 576, 80] is the specification's level.

  Entry (b, r, c) of the result is read back through the reshape and the transpose to the product at
  (b, c, r / 24, r % 24); there the logistic, the padded 2×2 window maximum, the comparison and the 0/1 product
  give the specification's kept value.
-/
import proofs.«137573_j63891933495891_1_alg».proof.Proof.RefLemmas
import proofs.«137573_j63891933495891_1_alg».proof.Proof.Gen.ReferenceIdeal.Read

noncomputable section

namespace Cert.RefSide

open Idealize.ShloMosaic Idealize.ShloMosaic.ValueIdx Cert.ReferenceIdeal Cert.ReferenceIdeal.Gen Cert.ReferenceIdeal.Read

/-- The level's logistic stage, 1 / (1 + exp(-x)), is the logistic of the input entry by entry. -/
theorem sigma2 (x2 : (⟨4, ![64, 80, 24, 24]⟩ : Shape).Idx → EReal) (k : (⟨4, ![64, 80, 24, 24]⟩ : Shape).Idx) :
    val_main_v31 (F := Ideal) x2 k = Ideal.logistic (x2 k) := by
  rw [val_main_v31_apply, val_main_v30_apply, val_main_cst_6_apply, val_main_v29_apply, val_main_v28_apply, val_main_cst_5_apply, val_main_v27_apply,
    val_main_v26_apply]
  exact logistic_spelled (x2 k)

/-- The window maximum starts from -∞. -/
theorem init2 : val_main_v32 (F := Ideal) (Shape.Idx.first h_S_) = (⊥ : EReal) := by
  rw [val_main_v32_apply, val_main_cst_7_apply]
  exact ofBits_neg_inf

/-- The level's window maximum at (b, c, i, j) is the maximum of the padded logistic plane over the 2×2 window. -/
theorem win2 (x2 : (⟨4, ![64, 80, 24, 24]⟩ : Shape).Idx → EReal) (b : Fin 64) (c : Fin 80) (i j : Fin 24) :
    val_main_v33 (F := Ideal) x2 (ix4 b c i j)
      = max (max (padσ (val_main_v31 (F := Ideal) x2) b c i j) (padσ (val_main_v31 (F := Ideal) x2) b c i (j + 1)))
          (max (padσ (val_main_v31 (F := Ideal) x2) b c (i + 1) j) (padσ (val_main_v31 (F := Ideal) x2) b c (i + 1) (j + 1))) := by
  unfold val_main_v33
  exact reduceWindow_at (val_main_v31 (F := Ideal) x2) (val_main_v32 (F := Ideal)) h_S_ init2 reduceWindows_S64x80x24x24_S64x80x24x24_w1s1p0_0_w1s1p0_0_w2s1p1_0_w2s1p1_0 b c i j

/-- Through the reshape [64, 576, 80] → [64, 24, 24, 80] and the transpose back to [64, 80, 24, 24], entry (b, r, c)
    comes from (b, c, r / 24, r % 24). -/
theorem idx2 (b : Fin 64) (r : Fin 576) (c : Fin 80) :
    idx_main_v37 (idx_main_v38 (ix3 b r c))
      = ix4 b c ⟨r.val / 24, Nat.div_lt_of_lt_mul r.isLt⟩ ⟨r.val % 24, Nat.mod_lt _ (by decide)⟩ := by
  have hb := b.isLt
  have hr := r.isLt
  have hc := c.isLt
  funext a
  match a with
  | ⟨0, _⟩ => exact Fin.ext (by show ((b.val * 576 + r.val) * 80 + c.val) / 46080 = b.val; omega)
  | ⟨1, _⟩ => exact Fin.ext (by show ((b.val * 576 + r.val) * 80 + c.val) % 80 = c.val; omega)
  | ⟨2, _⟩ => exact Fin.ext (by show ((b.val * 576 + r.val) * 80 + c.val) / 1920 % 24 = r.val / 24; omega)
  | ⟨3, _⟩ => exact Fin.ext (by show ((b.val * 576 + r.val) * 80 + c.val) / 80 % 24 = r.val % 24; omega)

/-- Level 2 of the reference is the specification's level at S = 24. -/
theorem ref_lvl2 (x2 : (⟨4, ![64, 80, 24, 24]⟩ : Shape).Idx → EReal) :
    val_main_v38 (F := Ideal) x2 = Cert.Spec.lvl (B := 64) (C := 80) (S := 24) (N := 576) rfl (by decide) x2 := by
  funext k
  obtain ⟨b, r, c, rfl⟩ : ∃ b r c, k = ix3 b r c := ⟨_, _, _, eq_ix3 k⟩
  rw [Cert.Spec.lvl_apply, val_main_v38_apply, val_main_v37_apply, idx2, val_main_v36_apply, val_main_v35_apply, val_main_v34_apply]
  unfold Cert.Spec.lvlAt
  exact entry_eq x2 (val_main_v31 (F := Ideal) x2) (val_main_v33 (F := Ideal) x2) (sigma2 x2) b c _ _ (win2 x2 b c _ _)

end Cert.RefSide

end
-- ==== Proof.RefLevel3.lean ====
/-
  Level 3 of the reference (planes of 16×16): its result array [64, 256, 80] is the specification's level.

  Entry (b, r, c) of the result is read back through the reshape and the transpose to the product at
  (b, c, r / 16, r % 16); there the logistic, the padded 2×2 window maximum, the comparison and the 0/1 product
  give the specification's kept value.
-/
import proofs.«137573_j63891933495891_1_alg».proof.Proof.RefLemmas
import proofs.«137573_j63891933495891_1_alg».proof.Proof.Gen.ReferenceIdeal.Read

noncomputable section

namespace Cert.RefSide

open Idealize.ShloMosaic Idealize.ShloMosaic.ValueIdx Cert.ReferenceIdeal Cert.ReferenceIdeal.Gen Cert.ReferenceIdeal.Read

/-- The level's logistic stage, 1 / (1 + exp(-x)), is the logistic of the input entry by entry. -/
theorem sigma3 (x3 : (⟨4, ![64, 80, 16, 16]⟩ : Shape).Idx → EReal) (k : (⟨4, ![64, 80, 16, 16]⟩ : Shape).Idx) :
    val_main_v44 (F := Ideal) x3 k = Ideal.logistic (x3 k) := by
  rw [val_main_v44_apply, val_main_v43_apply, val_main_cst_9_apply, val_main_v42_apply, val_main_v41_apply, val_main_cst_8_apply, val_main_v40_apply,
    val_main_v39_apply]
  exact logistic_spelled (x3 k)

/-- The window maximum starts from -∞. -/
theorem init3 : val_main_v45 (F := Ideal) (Shape.Idx.first h_S_) = (⊥ : EReal) := by
  rw [val_main_v45_apply, val_main_cst_10_apply]
  exact ofBits_neg_inf

/-- The level's window maximum at (b, c, i, j) is the maximum of the padded logistic plane over the 2×2 window. -/
theorem win3 (x3 : (⟨4, ![64, 80, 16, 16]⟩ : Shape).Idx → EReal) (b : Fin 64) (c : Fin 80) (i j : Fin 16) :
    val_main_v46 (F := Ideal) x3 (ix4 b c i j)
      = max (max (padσ (val_main_v44 (F := Ideal) x3) b c i j) (padσ (val_main_v44 (F := Ideal) x3) b c i (j + 1)))
          (max (padσ (val_main_v44 (F := Ideal) x3) b c (i + 1) j) (padσ (val_main_v44 (F := Ideal) x3) b c (i + 1) (j + 1))) := by
  unfold val_main_v46
  exact reduceWindow_at (val_main_v44 (F := Ideal) x3) (val_main_v45 (F := Ideal)) h_S_ init3 reduceWindows_S64x80x16x16_S64x80x16x16_w1s1p0_0_w1s1p0_0_w2s1p1_0_w2s1p1_0 b c i j

/-- Through the reshape [64, 256, 80] → [64, 16, 16, 80] and the transpose back to [64, 80, 16, 16], entry (b, r, c)
    comes from (b, c, r / 16, r % 16). -/
theorem idx3 (b : Fin 64) (r : Fin 256) (c : Fin 80) :
    idx_main_v50 (idx_main_v51 (ix3 b r c))
      = ix4 b c ⟨r.val / 16, Nat.div_lt_of_lt_mul r.isLt⟩ ⟨r.val % 16, Nat.mod_lt _ (by decide)⟩ := by
  have hb := b.isLt
  have hr := r.isLt
  have hc := c.isLt
  funext a
  match a with
  | ⟨0, _⟩ => exact Fin.ext (by show ((b.val * 256 + r.val) * 80 + c.val) / 20480 = b.val; omega)
  | ⟨1, _⟩ => exact Fin.ext (by show ((b.val * 256 + r.val) * 80 + c.val) % 80 = c.val; omega)
  | ⟨2, _⟩ => exact Fin.ext (by show ((b.val * 256 + r.val) * 80 + c.val) / 1280 % 16 = r.val / 16; omega)
  | ⟨3, _⟩ => exact Fin.ext (by show ((b.val * 256 + r.val) * 80 + c.val) / 80 % 16 = r.val % 16; omega)

/-- Level 3 of the reference is the specification's level at S = 16. -/
theorem ref_lvl3 (x3 : (⟨4, ![64, 80, 16, 16]⟩ : Shape).Idx → EReal) :
    val_main_v51 (F := Ideal) x3 = Cert.Spec.lvl (B := 64) (C := 80) (S := 16) (N := 256) rfl (by decide) x3 := by
  funext k
  obtain ⟨b, r, c, rfl⟩ : ∃ b r c, k = ix3 b r c := ⟨_, _, _, eq_ix3 k⟩
  rw [Cert.Spec.lvl_apply, val_main_v51_apply, val_main_v50_apply, idx3, val_main_v49_apply, val_main_v48_apply, val_main_v47_apply]
  unfold Cert.Spec.lvlAt
  exact entry_eq x3 (val_main_v44 (F := Ideal) x3) (val_main_v46 (F := Ideal) x3) (sigma3 x3) b c _ _ (win3 x3 b c _ _)

end Cert.RefSide

end
-- ==== Proof.RefLevel4.lean ====
/-
  Level 4 of the reference (planes of 12×12): its result array [64, 144, 80] is the specification's level.

  Entry (b, r, c) of the result is read back through the reshape and the transpose to the product at
  (b, c, r / 12, r % 12); there the logistic, the padded 2×2 window maximum, the comparison and the 0/1 product
  give the specification's kept value.
-/
import proofs.«137573_j63891933495891_1_alg».proof.Proof.RefLemmas
import proofs.«137573_j63891933495891_1_alg».proof.Proof.Gen.ReferenceIdeal.Read

noncomputable section

namespace Cert.RefSide

open Idealize.ShloMosaic Idealize.ShloMosaic.ValueIdx Cert.ReferenceIdeal Cert.ReferenceIdeal.Gen Cert.ReferenceIdeal.Read

/-- The level's logistic stage, 1 / (1 + exp(-x)), is the logistic of the input entry by entry. -/
theorem sigma4 (x4 : (⟨4, ![64, 80, 12, 12]⟩ : Shape).Idx → EReal) (k : (⟨4, ![64, 80, 12, 12]⟩ : Shape).Idx) :
    val_main_v57 (F := Ideal) x4 k = Ideal.logistic (x4 k) := by
  rw [val_main_v57_apply, val_main_v56_apply, val_main_cst_12_apply, val_main_v55_apply, val_main_v54_apply, val_main_cst_11_apply, val_main_v53_apply,
    val_main_v52_apply]
  exact logistic_spelled (x4 k)

/-- The window maximum starts from -∞. -/
theorem init4 : val_main_v58 (F := Ideal) (Shape.Idx.first h_S_) = (⊥ : EReal) := by
  rw [val_main_v58_apply, val_main_cst_13_apply]
  exact ofBits_neg_inf

/-- The level's window maximum at (b, c, i, j) is the maximum of the padded logistic plane over the 2×2 window. -/
theorem win4 (x4 : (⟨4, ![64, 80, 12, 12]⟩ : Shape).Idx → EReal) (b : Fin 64) (c : Fin 80) (i j : Fin 12) :
    val_main_v59 (F := Ideal) x4 (ix4 b c i j)
      = max (max (padσ (val_main_v57 (F := Ideal) x4) b c i j) (padσ (val_main_v57 (F := Ideal) x4) b c i (j + 1)))
          (max (padσ (val_main_v57 (F := Ideal) x4) b c (i + 1) j) (padσ (val_main_v57 (F := Ideal) x4) b c (i + 1) (j + 1))) := by
  unfold val_main_v59
  exact reduceWindow_at (val_main_v57 (F := Ideal) x4) (val_main_v58 (F := Ideal)) h_S_ init4 reduceWindows_S64x80x12x12_S64x80x12x12_w1s1p0_0_w1s1p0_0_w2s1p1_0_w2s1p1_0 b c i j

/-- Through the reshape [64, 144, 80] → [64, 12, 12, 80] and the transpose back to [64, 80, 12, 12], entry (b, r, c)
    comes from (b, c, r / 12, r % 12). -/
theorem idx4 (b : Fin 64) (r : Fin 144) (c : Fin 80) :
    idx_main_v63 (idx_main_v64 (ix3 b r c))
      = ix4 b c ⟨r.val / 12, Nat.div_lt_of_lt_mul r.isLt⟩ ⟨r.val % 12, Nat.mod_lt _ (by decide)⟩ := by
  have hb := b.isLt
  have hr := r.isLt
  have hc := c.isLt
  funext a
  match a with
  | ⟨0, _⟩ => exact Fin.ext (by show ((b.val * 144 + r.val) * 80 + c.val) / 11520 = b.val; omega)
  | ⟨1, _⟩ => exact Fin.ext (by show ((b.val * 144 + r.val) * 80 + c.val) % 80 = c.val; omega)
  | ⟨2, _⟩ => exact Fin.ext (by show ((b.val * 144 + r.val) * 80 + c.val) / 960 % 12 = r.val / 12; omega)
  | ⟨3, _⟩ => exact Fin.ext (by show ((b.val * 144 + r.val) * 80 + c.val) / 80 % 12 = r.val % 12; omega)

/-- Level 4 of the reference is the specification's level at S = 12. -/
theorem ref_lvl4 (x4 : (⟨4, ![64, 80, 12, 12]⟩ : Shape).Idx → EReal) :
    val_main_v64 (F := Ideal) x4 = Cert.Spec.lvl (B := 64) (C := 80) (S := 12) (N := 144) rfl (by decide) x4 := by
  funext k
  obtain ⟨b, r, c, rfl⟩ : ∃ b r c, k = ix3 b r c := ⟨_, _, _, eq_ix3 k⟩
  rw [Cert.Spec.lvl_apply, val_main_v64_apply, val_main_v63_apply, idx4, val_main_v62_apply, val_main_v61_apply, val_main_v60_apply]
  unfold Cert.Spec.lvlAt
  exact entry_eq x4 (val_main_v57 (F := Ideal) x4) (val_main_v59 (F := Ideal) x4) (sigma4 x4) b c _ _ (win4 x4 b c _ _)

end Cert.RefSide

end
-- ==== Proof.Claims.lean ====
/-
  The five claims.

  At the ideal instance the kernel's program leaves in its result buffer the five levels' results joined along the
  middle axis (its run, read through the five regions and the concatenation), and the reference's program computes,
  level by level, the same function of the same argument array — the logistic spelled out as 1 / (1 + exp(-x)) is
  the logistic; the maximum over the padded 2×2 window folded from -∞ is the maximum of its four entries, in any
  grouping; multiplying by the 0/1 indicator of "equals its local maximum" keeps or zeroes the entry, with no
  finiteness needed — and joins them the same way. The frames are the runs with the result forgotten; the ideal
  pass rewrote nothing, so there is nothing to preserve.
-/
import proofs.«137573_j63891933495891_1_alg».proof.Defs
import proofs.«137573_j63891933495891_1_alg».proof.Proof.Gen.Kernel
import proofs.«137573_j63891933495891_1_alg».proof.Proof.Gen.KernelIdeal
import proofs.«137573_j63891933495891_1_alg».proof.Proof.Gen.ReferenceIdeal
import proofs.«137573_j63891933495891_1_alg».proof.Proof.Gen.Pre_finite_inputs
import proofs.«137573_j63891933495891_1_alg».proof.Proof.Gen.ReferenceIdeal.Read
import proofs.«137573_j63891933495891_1_alg».proof.Proof.KRun
import proofs.«137573_j63891933495891_1_alg».proof.Proof.KIResult
import proofs.«137573_j63891933495891_1_alg».proof.Proof.RefLevel0
import proofs.«137573_j63891933495891_1_alg».proof.Proof.RefLevel1
import proofs.«137573_j63891933495891_1_alg».proof.Proof.RefLevel2
import proofs.«137573_j63891933495891_1_alg».proof.Proof.RefLevel3
import proofs.«137573_j63891933495891_1_alg».proof.Proof.RefLevel4

set_option maxRecDepth 16384

noncomputable section

namespace Cert.Proof.Parts

open Idealize.ShloMosaic Idealize.ShloMosaic.TcCoe Idealize.SL.Sem

/-- The reference's result term is the five levels' results joined. -/
theorem reference_joined (x0 : Cert.ReferenceIdeal.S64x80x40x40.Idx → EReal) (x1 : Cert.ReferenceIdeal.S64x80x36x36.Idx → EReal)
    (x2 : Cert.ReferenceIdeal.S64x80x24x24.Idx → EReal) (x3 : Cert.ReferenceIdeal.S64x80x16x16.Idx → EReal)
    (x4 : Cert.ReferenceIdeal.S64x80x12x12.Idx → EReal) :
    Cert.ReferenceIdeal.Read.val_main_v65 (F := Ideal) x0 x1 x2 x3 x4 = Cert.KernelIdeal.Hand.joined x0 x1 x2 x3 x4 := by
  unfold Cert.ReferenceIdeal.Read.val_main_v65 Cert.KernelIdeal.Hand.joined
  rw [Cert.RefSide.ref_lvl0, Cert.RefSide.ref_lvl1, Cert.RefSide.ref_lvl2, Cert.RefSide.ref_lvl3, Cert.RefSide.ref_lvl4]

theorem frame_kernel : Cert.frame_Kernel := fun m ρ _ => Cert.Kernel.Hand.frame (F := Bits) m ρ

theorem frame_kernelIdeal : Cert.frame_KernelIdeal := fun m ρ _ => Cert.KernelIdeal.Hand.frame (F := Ideal) m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

theorem algebraic : Cert.algebraic_KernelIdeal_ReferenceIdeal := by
  intro m ρ m' ρ' _ hagree
  refine ⟨_, Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v65_eq, reference_joined, (hagree c).1, (hagree c).2.1, (hagree c).2.2.1,
    (hagree c).2.2.2.1, (hagree c).2.2.2.2]

end Cert.Proof.Parts

end
-- ==== Proof.lean ====
/-
  The certificate: the three programs' stated facts, then the five claims (Proof/Claims.lean).

  Each pyramid level is one pallas_call over batch slabs; a slab's result depends on the slab alone, so the five output
  arrays end holding the five levels' results, which the host joins. The reference computes the same five results
  from the same arguments and joins them the same way.
-/
import proofs.«137573_j63891933495891_1_alg».proof.Defs
import proofs.«137573_j63891933495891_1_alg».proof.Proof.Gen.Kernel
import proofs.«137573_j63891933495891_1_alg».proof.Proof.Gen.KernelIdeal
import proofs.«137573_j63891933495891_1_alg».proof.Proof.Gen.ReferenceIdeal
import proofs.«137573_j63891933495891_1_alg».proof.Proof.Gen.Pre_finite_inputs
import proofs.«137573_j63891933495891_1_alg».proof.Proof.Claims

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Parts.frame_kernel, Parts.frame_kernelIdeal, Parts.frame_referenceIdeal, Parts.preserves, Parts.algebraic⟩

end Cert.Proof

end
